-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v103_0)) (v1 : (c : Dev Cert.KernelIdeal.nD) → Buf (Elt Ideal) ((c.tc : Thread Cert.KernelIdeal.nD Cert.KernelIdeal.τ).loc Cert.KernelIdeal.main_v103_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v103_0) = v0 c
          ∧ r.2.mem ((c.tc : Thread Cert.KernelIdeal.nD Cert.KernelIdeal.τ).loc Cert.KernelIdeal.main_v103_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v143) = v0 c
          ∧ r.2.mem ((c.tc : Thread Cert.ReferenceIdeal.nD Cert.ReferenceIdeal.τ).loc Cert.ReferenceIdeal.main_v144) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S3x64x64 : Shape := ⟨3, ![3, 64, 64]⟩
abbrev S3x64 : Shape := ⟨2, ![3, 64]⟩
abbrev S2x64 : Shape := ⟨2, ![2, 64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_
  bcast_S_S2x64 : S_.BroadcastsInDim S2x64 (![] : Fin 0 → Fin S2x64.rank)
  reducesTo_S2x64_S_d0_1 : S2x64.ReducesTo [0, 1] S_

variable [Facts]

def fn_part1 {F : FTy → Type} [FloatOps F] (main_arg5 : FVec F S2x64 .f32) (main_v13 : IVec S_ 1) (main_v16 : IVec S2x64 1) : IVec S_ 1 :=
  let main_c_5 : IVec S_ 1 := constantI S_ 1 1#1
  let main_v17 : IVec S_ 1 := (fun x v => Host.reduce IntOp.andi x v reducesTo_S2x64_S_d0_1 h_S_) main_v16 main_c_5
  let main_v18 : IVec S_ 1 := andi main_v13 main_v17
  let main_v19 : FVec F S2x64 .f32 := Host.absf main_arg5
  let main_cst_6 : FVec F S_ .f32 := constant S_ .f32 0x7F800000#32
  let main_v20 : FVec F S2x64 .f32 := broadcastInDim S2x64 ![] bcast_S_S2x64 main_cst_6
  let main_v21 : IVec S2x64 1 := cmpf .olt main_v19 main_v20
  let main_c_7 : IVec S_ 1 := constantI S_ 1 1#1
  let main_v22 : IVec S_ 1 := (fun x v => Host.reduce IntOp.andi x v reducesTo_S2x64_S_d0_1 h_S_) main_v21 main_c_7
  let main_v23 : IVec S_ 1 := andi main_v18 main_v22
  main_v23

def fn {F : FTy → Type} [FloatOps F] (main_arg0 : FVec F S100000x64 .f32) (main_arg1 : IVec S2x1600000 32) (main_arg2 : FVec F S3x64x64 .f32) (main_arg3 : FVec F S3x64 .f32) (main_arg4 : FVec F S2x64 .f32) (main_arg5 : FVec F S2x64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S3x64x64 .f32 := Host.absf main_arg2
  let main_cst_0 : FVec F S_ .f32 := constant S_ .f32 0x7F800000#32
  let main_v5 : FVec F S3x64x64 .f32 := broadcastInDim S3x64x64 ![] bcast_S_S3x64x64 main_cst_0
  let main_v6 : IVec S3x64x64 1 := cmpf .olt main_v4 main_v5
  let main_c_1 : IVec S_ 1 := constantI S_ 1 1#1
  let main_v7 : IVec S_ 1 := (fun x v => Host.reduce IntOp.andi x v reducesTo_S3x64x64_S_d0_1_2 h_S_) main_v6 main_c_1
  let main_v8 : IVec S_ 1 := andi main_v3 main_v7
  let main_v9 : FVec F S3x64 .f32 := Host.absf main_arg3
  let main_cst_2 : FVec F S_ .f32 := constant S_ .f32 0x7F800000#32
  let main_v10 : FVec F S3x64 .f32 := broadcastInDim S3x64 ![] bcast_S_S3x64 main_cst_2
  let main_v11 : IVec S3x64 1 := cmpf .olt main_v9 main_v10
  let main_c_3 : IVec S_ 1 := constantI S_ 1 1#1
  let main_v12 : IVec S_ 1 := (fun x v => Host.reduce IntOp.andi x v reducesTo_S3x64_S_d0_1 h_S_) main_v11 main_c_3
  let main_v13 : IVec S_ 1 := andi main_v8 main_v12
  let main_v14 : FVec F S2x64 .f32 := Host.absf main_arg4
  let main_cst_4 : FVec F S_ .f32 := constant S_ .f32 0x7F800000#32
  let main_v15 : FVec F S2x64 .f32 := broadcastInDim S2x64 ![] bcast_S_S2x64 main_cst_4
  let main_v16 : IVec S2x64 1 := cmpf .olt main_v14 main_v15
  fn_part1 (F := F) main_arg5 main_v13 main_v16
-- ==== Kernel.lean ====
abbrev S100000x64 : Shape := ⟨2, ![100000, 64]⟩
abbrev S2x1600000 : Shape := ⟨2, ![2, 1600000]⟩
abbrev S3x64x64 : Shape := ⟨3, ![3, 64, 64]⟩
abbrev S3x64 : Shape := ⟨2, ![3, 64]⟩
abbrev S2x64 : Shape := ⟨2, ![2, 64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1x64x64 : Shape := ⟨3, ![1, 64, 64]⟩
abbrev S64x64 : Shape := ⟨2, ![64, 64]⟩
abbrev S10000x64 : Shape := ⟨2, ![10000, 64]⟩
abbrev S1700000x64 : Shape := ⟨2, ![1700000, 64]⟩
abbrev S1x64 : Shape := ⟨2, ![1, 64]⟩
abbrev S64 : Shape := ⟨1, ![64]⟩
abbrev S5000x64 : Shape := ⟨2, ![5000, 64]⟩
abbrev S5000 : Shape := ⟨1, ![5000]⟩
abbrev S5000x1 : Shape := ⟨2, ![5000, 1]⟩

abbrev nBuf : Space → Nat
  | .hbm => 133
  | .vmem => 46
  | .smem => 0
  | _ => 0

abbrev hbmTy0_0 (i : Nat) : BufTy := match i % 128 with
  | 0 => ⟨S100000x64, .f32⟩
  | 1 => ⟨S2x1600000, .i32⟩
  | 2 => ⟨S3x64x64, .f32⟩
  | 3 => ⟨S3x64, .f32⟩
  | 4 => ⟨S2x64, .f32⟩
  | 5 => ⟨S2x64, .f32⟩
  | 6 => ⟨S100000, .i32⟩
  | 7 => ⟨S1x1600000, .i32⟩
  | 8 => ⟨S1600000, .i32⟩
  | 9 => ⟨S1700000, .i32⟩
  | 10 => ⟨S1x1600000, .i32⟩
  | 11 => ⟨S1600000, .i32⟩
  | 12 => ⟨S1700000, .i32⟩
  | 13 => ⟨S_, .f32⟩
  | 14 => ⟨S1700000, .f32⟩
  | 15 => ⟨S_, .f32⟩
  | 16 => ⟨S100000, .f32⟩
  | 17 => ⟨S1700000x1, .i32⟩
  | 18 => ⟨S100000, .f32⟩
  | 19 => ⟨S_, .f32⟩
  | 20 => ⟨S100000, .f32⟩
  | 21 => ⟨S100000, .i1⟩
  | 22 => ⟨S100000, .f32⟩
  | 23 => ⟨S_, .f32⟩
  | 24 => ⟨S100000, .f32⟩
  | 25 => ⟨S100000, .f32⟩
  | 26 => ⟨S_, .f32⟩
  | 27 => ⟨S_, .f32⟩
  | 28 => ⟨S100000, .f32⟩
  | 29 => ⟨S100000, .f32⟩
  | 30 => ⟨S_, .i32⟩
  | 31 => ⟨S1700000, .i32⟩
  | 32 => ⟨S1700000, .i1⟩
  | 33 => ⟨S_, .i32⟩
  | 34 => ⟨S1700000, .i32⟩
  | 35 => ⟨S1700000, .i32⟩
  | 36 => ⟨S1700000, .i32⟩
  | 37 => ⟨S1700000x1, .i32⟩
  | 38 => ⟨S1700000, .f32⟩
  | 39 => ⟨S_, .i32⟩
  | 40 => ⟨S1700000, .i32⟩
  | 41 => ⟨S1700000, .i1⟩
  | 42 => ⟨S_, .i32⟩
  | 43 => ⟨S1700000, .i32⟩
  | 44 => ⟨S1700000, .i32⟩
  | 45 => ⟨S1700000, .i32⟩
  | 46 => ⟨S1700000x1, .i32⟩
  | 47 => ⟨S1700000, .f32⟩
  | 48 => ⟨S1700000, .f32⟩
  | 49 => ⟨S1x64x64, .f32⟩
  | 50 => ⟨S64x64, .f32⟩
  | 51 => ⟨S100000x64, .f32⟩
  | 52 => ⟨S_, .i32⟩
  | 53 => ⟨S1700000, .i32⟩
  | 54 => ⟨S1700000, .i1⟩
  | 55 => ⟨S_, .i32⟩
  | 56 => ⟨S1700000, .i32⟩
  | 57 => ⟨S1700000, .i32⟩
  | 58 => ⟨S1700000, .i32⟩
  | 59 => ⟨S1700000x1, .i32⟩
  | 60 => ⟨S1700000x64, .f32⟩
  | 61 => ⟨S1700000x1, .f32⟩
  | 62 => ⟨S1700000x64, .f32⟩
  | 63 => ⟨S1700000x64, .f32⟩
  | 64 => ⟨S_, .f32⟩
  | 65 => ⟨S100000x64, .f32⟩
  | 66 => ⟨S1700000x1, .i32⟩
  | 67 => ⟨S100000x64, .f32⟩
  | 68 => ⟨S1x64, .f32⟩
  | 69 => ⟨S64, .f32⟩
  | 70 => ⟨S1x64, .f32⟩
  | 71 => ⟨S1x64, .f32⟩
  | 72 => ⟨S64, .f32⟩
  | 73 => ⟨S1x64, .f32⟩
  | 74 => ⟨S1x64, .f32⟩
  | 75 => ⟨S64, .f32⟩
  | 76 => ⟨S1x64, .f32⟩
  | 77 => ⟨S100000x64, .f32⟩
  | 78 => ⟨S100000x64, .f32⟩
  | 79 => ⟨S1x64x64, .f32⟩
  | 80 => ⟨S64x64, .f32⟩
  | 81 => ⟨S100000x64, .f32⟩
  | 82 => ⟨S_, .i32⟩
  | 83 => ⟨S1700000, .i32⟩
  | 84 => ⟨S1700000, .i1⟩
  | 85 => ⟨S_, .i32⟩
  | 86 => ⟨S1700000, .i32⟩
  | 87 => ⟨S1700000, .i32⟩
  | 88 => ⟨S1700000, .i32⟩
  | 89 => ⟨S1700000x1, .i32⟩
  | 90 => ⟨S1700000x64, .f32⟩
  | 91 => ⟨S1700000x1, .f32⟩
  | 92 => ⟨S1700000x64, .f32⟩
  | 93 => ⟨S1700000x64, .f32⟩
  | 94 => ⟨S_, .f32⟩
  | 95 => ⟨S100000x64, .f32⟩
  | 96 => ⟨S1700000x1, .i32⟩
  | 97 => ⟨S100000x64, .f32⟩
  | 98 => ⟨S1x64, .f32⟩
  | 99 => ⟨S64, .f32⟩
  | 100 => ⟨S1x64, .f32⟩
  | 101 => ⟨S1x64, .f32⟩
  | 102 => ⟨S64, .f32⟩
  | 103 => ⟨S1x64, .f32⟩
  | 104 => ⟨S1x64, .f32⟩
  | 105 => ⟨S64, .f32⟩
  | 106 => ⟨S1x64, .f32⟩
  | 107 => ⟨S100000x64, .f32⟩
  | 108 => ⟨S100000x64, .f32⟩
  | 109 => ⟨S1x64x64, .f32⟩
  | 110 => ⟨S64x64, .f32⟩
  | 111 => ⟨S100000x64, .f32⟩
  | 112 => ⟨S_, .i32⟩
  | 113 => ⟨S1700000, .i32⟩
  | 114 => ⟨S1700000, .i1⟩
  | 115 => ⟨S_, .i32⟩
  | 116 => ⟨S1700000, .i32⟩
  | 117 => ⟨S1700000, .i32⟩
  | 118 => ⟨S1700000, .i32⟩
  | 119 => ⟨S1700000x1, .i32⟩
  | 120 => ⟨S1700000x64, .f32⟩
  | 121 => ⟨S1700000x1, .f32⟩
  | 122 => ⟨S1700000x64, .f32⟩
  | 123 => ⟨S1700000x64, .f32⟩
  | 124 => ⟨S_, .f32⟩
  | 125 => ⟨S100000x64, .f32⟩
  | 126 => ⟨S1700000x1, .i32⟩
  | 127 => ⟨S100000x64, .f32⟩
  | _ => ⟨S100000x64, .f32⟩

abbrev hbmTy0_1 (i : Nat) : BufTy := match i % 128 with
  | 0 => ⟨S1x64, .f32⟩
  | 1 => ⟨S64, .f32⟩
  | 2 => ⟨S1x64, .f32⟩
  | 3 => ⟨S100000x64, .f32⟩
  | 4 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S10000x64, .f32⟩
  | .local _ .vmem, ⟨4, _⟩ => ⟨S10000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S1x64, .f32⟩
  | .local _ .vmem, ⟨10, _⟩ => ⟨S1x64, .f32⟩
  | .local _ .vmem, ⟨11, _⟩ => ⟨S1x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S10000x64, .f32⟩
  | .local _ .vmem, ⟨17, _⟩ => ⟨S10000x64, .f32⟩
  | .local _ .vmem, ⟨18, _⟩ => ⟨S64x64, .f32⟩
  | .local _ .vmem, ⟨19, _⟩ => ⟨S10000x64, .f32⟩
  | .local _ .vmem, ⟨20, _⟩ => ⟨S10000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S1x64, .f32⟩
  | .local _ .vmem, ⟨26, _⟩ => ⟨S1x64, .f32⟩
  | .local _ .vmem, ⟨27, _⟩ => ⟨S1x64, .f32⟩
  | .local _ .vmem, ⟨28, _⟩ => ⟨S5000x64, .f32⟩
  | .local _ .vmem, ⟨29, _⟩ => ⟨S5000x64, .f32⟩
  | .local _ .vmem, ⟨30, _⟩ => ⟨S5000x64, .f32⟩
  | .local _ .vmem, ⟨31, _⟩ => ⟨S5000x64, .f32⟩
  | .local _ .vmem, ⟨32, _⟩ => ⟨S10000x64, .f32⟩
  | .local _ .vmem, ⟨33, _⟩ => ⟨S10000x64, .f32⟩
  | .local _ .vmem, ⟨34, _⟩ => ⟨S64x64, .f32⟩
  | .local _ .vmem, ⟨35, _⟩ => ⟨S10000x64, .f32⟩
  | .local _ .vmem, ⟨36, _⟩ => ⟨S10000x64, .f32⟩
  | .local _ .vmem, ⟨37, _⟩ => ⟨S5000x64, .f32⟩
  | .local _ .vmem, ⟨38, _⟩ => ⟨S5000x64, .f32⟩
  | .local _ .vmem, ⟨39, _⟩ => ⟨S5000x64, .f32⟩
  | .local _ .vmem, ⟨40, _⟩ => ⟨S5000x64, .f32⟩
  | .local _ .vmem, ⟨41, _⟩ => ⟨S1x64, .f32⟩
  | .local _ .vmem, ⟨42, _⟩ => ⟨S5000x64, .f32⟩
  | .local _ .vmem, ⟨43, _⟩ => ⟨S5000x64, .f32⟩
  | .local _ .vmem, ⟨44, _⟩ => ⟨S5000x64, .f32⟩
  | .local _ .vmem, ⟨45, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_c_7 : Ref sig .tc := ⟨.hbm, 52, rfl⟩
abbrev main_v35 : Ref sig .tc := ⟨.hbm, 53, rfl⟩
abbrev main_v36 : Ref sig .tc := ⟨.hbm, 54, rfl⟩
abbrev main_c_8 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_9 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57_0 : Ref sig .tc := ⟨.hbm, 77, rfl⟩
abbrev main_v57_1 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_c_10 : Ref sig .tc := ⟨.hbm, 82, rfl⟩
abbrev main_v61 : Ref sig .tc := ⟨.hbm, 83, rfl⟩
abbrev main_v62 : Ref sig .tc := ⟨.hbm, 84, rfl⟩
abbrev main_c_11 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_cst_12 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83_0 : Ref sig .tc := ⟨.hbm, 107, rfl⟩
abbrev main_v83_1 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_c_13 : Ref sig .tc := ⟨.hbm, 112, rfl⟩
abbrev main_v87 : Ref sig .tc := ⟨.hbm, 113, rfl⟩
abbrev main_v88 : Ref sig .tc := ⟨.hbm, 114, rfl⟩
abbrev main_c_14 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_cst_15 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103_0 : Ref sig .tc := ⟨.hbm, 131, rfl⟩
abbrev main_v103_1 : Ref sig .tc := ⟨.hbm, 132, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc1_stg6_0 : Ref sig .tc := ⟨.vmem, 14, rfl⟩
abbrev cc1_stg6_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg2_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg4_0 : Ref sig .tc := ⟨.vmem, 27, rfl⟩
abbrev cc3_stg5_0 : Ref sig .tc := ⟨.vmem, 28, rfl⟩
abbrev cc3_stg5_1 : Ref sig .tc := ⟨.vmem, 29, rfl⟩
abbrev cc3_stg6_0 : Ref sig .tc := ⟨.vmem, 30, rfl⟩
abbrev cc3_stg6_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg2_0 : Ref sig .tc := ⟨.vmem, 35, rfl⟩
abbrev cc4_stg2_1 : Ref sig .tc := ⟨.vmem, 36, rfl⟩
abbrev cc5_stg0_0 : Ref sig .tc := ⟨.vmem, 37, rfl⟩
abbrev cc5_stg0_1 : Ref sig .tc := ⟨.vmem, 38, rfl⟩
abbrev cc5_stg1_0 : Ref sig .tc := ⟨.vmem, 39, rfl⟩
abbrev cc5_stg1_1 : Ref sig .tc := ⟨.vmem, 40, rfl⟩
abbrev cc5_stg2_0 : Ref sig .tc := ⟨.vmem, 41, rfl⟩
abbrev cc5_stg3_0 : Ref sig .tc := ⟨.vmem, 42, rfl⟩
abbrev cc5_stg3_1 : Ref sig .tc := ⟨.vmem, 43, rfl⟩
abbrev cc5_stg4_0 : Ref sig .tc := ⟨.vmem, 44, rfl⟩
abbrev cc5_stg4_1 : Ref sig .tc := ⟨.vmem, 45, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem5_1 : DmaSem sig := 13
abbrev cc1_sem6_0 : DmaSem sig := 14
abbrev cc1_sem6_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem2_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem4_0 : DmaSem sig := 27
abbrev cc3_sem5_0 : DmaSem sig := 28
abbrev cc3_sem5_1 : DmaSem sig := 29
abbrev cc3_sem6_0 : DmaSem sig := 30
abbrev cc3_sem6_1 : DmaSem sig := 31
abbrev cc4_sem0_0 : DmaSem sig := 32
abbrev cc4_sem0_1 : DmaSem sig := 33
abbrev cc4_sem1_0 : DmaSem sig := 34
abbrev cc4_sem2_0 : DmaSem sig := 35
abbrev cc4_sem2_1 : DmaSem sig := 36
abbrev cc5_sem0_0 : DmaSem sig := 37
abbrev cc5_sem0_1 : DmaSem sig := 38
abbrev cc5_sem1_0 : DmaSem sig := 39
abbrev cc5_sem1_1 : DmaSem sig := 40
abbrev cc5_sem2_0 : DmaSem sig := 41
abbrev cc5_sem3_0 : DmaSem sig := 42
abbrev cc5_sem3_1 : DmaSem sig := 43
abbrev cc5_sem4_0 : DmaSem sig := 44
abbrev cc5_sem4_1 : DmaSem sig := 45

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S5000x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S5000x64 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  slices_S3x64x64_S1x64x64_0_0_0 : S3x64x64.Slices ![0, 0, 0] S1x64x64
  shapeCasts_S1x64x64_S64x64 : S1x64x64.ShapeCasts S64x64
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  slices_S3x64_S1x64_0_0 : S3x64.Slices ![0, 0] S1x64
  shapeCasts_S1x64_S64 : S1x64.ShapeCasts S64
  shapeCasts_S64_S1x64 : S64.ShapeCasts S1x64
  slices_S2x64_S1x64_0_0 : S2x64.Slices ![0, 0] S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  reduces_S5000x64_S5000 : S5000x64.Reduces [1] S5000
  shapeCasts_S5000_S5000x1 : S5000.ShapeCasts S5000x1
  broadcasts_S5000x1_S5000x64 : S5000x1.Broadcasts S5000x64
  slices_S3x64x64_S1x64x64_1_0_0 : S3x64x64.Slices ![1, 0, 0] S1x64x64
  shapeCasts_S10000x64_S10000x64 : S10000x64.ShapeCasts S10000x64
  slices_S3x64_S1x64_1_0 : S3x64.Slices ![1, 0] S1x64
  slices_S2x64_S1x64_1_0 : S2x64.Slices ![1, 0] S1x64
  slices_S3x64x64_S1x64x64_2_0_0 : S3x64x64.Slices ![2, 0, 0] S1x64x64
  slices_S3x64_S1x64_2_0 : S3x64.Slices ![2, 0] S1x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x64_S64x64_S10000x64_1_0_0_1_n_n_wf : DotDims.WF S10000x64 S64x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S100000x64.size a
  hwx1_6 : ∀ i : grid1.Coords, EltTy.bits .f32 = 32 ∨ (Rect.block (s := S100000x64) S5000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .f32 = 32 ∨ (Rect.block (s := S100000x64) S5000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x64.size a ≤ S100000x64.size a
  hwx3_5 : ∀ i : grid3.Coords, EltTy.bits .f32 = 32 ∨ (Rect.block (s := S100000x64) S5000x64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x64.size a ≤ S100000x64.size a
  hwx3_6 : ∀ i : grid3.Coords, EltTy.bits .f32 = 32 ∨ (Rect.block (s := S100000x64) S5000x64.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x64.size a ≤ S100000x64.size a
  hwx4_2 : ∀ i : grid4.Coords, EltTy.bits .f32 = 32 ∨ (Rect.block (s := S100000x64) S10000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S100000x64.size a
  hwx5_0 : ∀ i : grid5.Coords, EltTy.bits .f32 = 32 ∨ (Rect.block (s := S100000x64) S5000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x64.size a ≤ S100000x64.size a
  hwx5_1 : ∀ i : grid5.Coords, EltTy.bits .f32 = 32 ∨ (Rect.block (s := S100000x64) S5000x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x64.size a ≤ S100000x64.size a
  hwx5_3 : ∀ i : grid5.Coords, EltTy.bits .f32 = 32 ∨ (Rect.block (s := S100000x64) S5000x64.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x64.size a ≤ S100000x64.size a
  hwx5_4 : ∀ i : grid5.Coords, EltTy.bits .f32 = 32 ∨ (Rect.block (s := S100000x64) S5000x64.size (cc5_transform_4 i) (hinb5_4 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v33) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v34) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v50) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v53) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v56) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v57_0) S5000x64.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v57_1) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v57_1) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v60) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v57_1) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v73) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v76) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v79) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v82) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v83_0) S5000x64.size cc3_transform_5 reads3_5 true false 2 stage3_5 sem3_5
    hrank3 hreads3_5 hinb3_5 nbuf3_5 (Memref.isWhole_whole _) hwx3_5 hstage3_5

abbrev win3_6 : Pipeline.Window sig grid3 :=
  Pipeline.Window.ofSpec (Memref.whole main_v83_1) S5000x64.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v83_1) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v85) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v86) S10000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v83_1) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v99) S5000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v102) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v103_0) S5000x64.size cc5_transform_3 reads5_3 true false 2 stage5_3 sem5_3
    hrank5 hreads5_3 hinb5_3 nbuf5_3 (Memref.isWhole_whole _) hwx5_3 hstage5_3

abbrev win5_4 : Pipeline.Window sig grid5 :=
  Pipeline.Window.ofSpec (Memref.whole main_v103_1) S5000x64.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S3x64x64 : Shape := ⟨3, ![3, 64, 64]⟩
abbrev S3x64 : Shape := ⟨2, ![3, 64]⟩
abbrev S2x64 : Shape := ⟨2, ![2, 64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1x64x64 : Shape := ⟨3, ![1, 64, 64]⟩
abbrev S64x64 : Shape := ⟨2, ![64, 64]⟩
abbrev S1700000x64 : Shape := ⟨2, ![1700000, 64]⟩
abbrev S1x64 : Shape := ⟨2, ![1, 64]⟩
abbrev S64 : Shape := ⟨1, ![64]⟩
abbrev S100000x1 : Shape := ⟨2, ![100000, 1]⟩

abbrev nBuf : Space → Nat
  | .hbm => 229
  | .vmem => 0
  | .smem => 0
  | _ => 0

abbrev hbmTy0_0 (i : Nat) : BufTy := match i % 128 with
  | 0 => ⟨S100000x64, .f32⟩
  | 1 => ⟨S2x1600000, .i32⟩
  | 2 => ⟨S3x64x64, .f32⟩
  | 3 => ⟨S3x64, .f32⟩
  | 4 => ⟨S2x64, .f32⟩
  | 5 => ⟨S2x64, .f32⟩
  | 6 => ⟨S100000, .i32⟩
  | 7 => ⟨S1x1600000, .i32⟩
  | 8 => ⟨S1600000, .i32⟩
  | 9 => ⟨S1700000, .i32⟩
  | 10 => ⟨S1x1600000, .i32⟩
  | 11 => ⟨S1600000, .i32⟩
  | 12 => ⟨S1700000, .i32⟩
  | 13 => ⟨S_, .f32⟩
  | 14 => ⟨S1700000, .f32⟩
  | 15 => ⟨S_, .f32⟩
  | 16 => ⟨S100000, .f32⟩
  | 17 => ⟨S1700000x1, .i32⟩
  | 18 => ⟨S100000, .f32⟩
  | 19 => ⟨S_, .f32⟩
  | 20 => ⟨S100000, .f32⟩
  | 21 => ⟨S100000, .i1⟩
  | 22 => ⟨S100000, .f32⟩
  | 23 => ⟨S_, .f32⟩
  | 24 => ⟨S100000, .f32⟩
  | 25 => ⟨S100000, .f32⟩
  | 26 => ⟨S_, .f32⟩
  | 27 => ⟨S_, .f32⟩
  | 28 => ⟨S100000, .f32⟩
  | 29 => ⟨S100000, .f32⟩
  | 30 => ⟨S_, .i32⟩
  | 31 => ⟨S1700000, .i32⟩
  | 32 => ⟨S1700000, .i1⟩
  | 33 => ⟨S_, .i32⟩
  | 34 => ⟨S1700000, .i32⟩
  | 35 => ⟨S1700000, .i32⟩
  | 36 => ⟨S1700000, .i32⟩
  | 37 => ⟨S1700000x1, .i32⟩
  | 38 => ⟨S1700000, .f32⟩
  | 39 => ⟨S_, .i32⟩
  | 40 => ⟨S1700000, .i32⟩
  | 41 => ⟨S1700000, .i1⟩
  | 42 => ⟨S_, .i32⟩
  | 43 => ⟨S1700000, .i32⟩
  | 44 => ⟨S1700000, .i32⟩
  | 45 => ⟨S1700000, .i32⟩
  | 46 => ⟨S1700000x1, .i32⟩
  | 47 => ⟨S1700000, .f32⟩
  | 48 => ⟨S1700000, .f32⟩
  | 49 => ⟨S1x64x64, .f32⟩
  | 50 => ⟨S64x64, .f32⟩
  | 51 => ⟨S100000x64, .f32⟩
  | 52 => ⟨S_, .i32⟩
  | 53 => ⟨S1700000, .i32⟩
  | 54 => ⟨S1700000, .i1⟩
  | 55 => ⟨S_, .i32⟩
  | 56 => ⟨S1700000, .i32⟩
  | 57 => ⟨S1700000, .i32⟩
  | 58 => ⟨S1700000, .i32⟩
  | 59 => ⟨S1700000x1, .i32⟩
  | 60 => ⟨S1700000x64, .f32⟩
  | 61 => ⟨S1700000x1, .f32⟩
  | 62 => ⟨S1700000x64, .f32⟩
  | 63 => ⟨S1700000x64, .f32⟩
  | 64 => ⟨S_, .f32⟩
  | 65 => ⟨S100000x64, .f32⟩
  | 66 => ⟨S1700000x1, .i32⟩
  | 67 => ⟨S100000x64, .f32⟩
  | 68 => ⟨S1x64, .f32⟩
  | 69 => ⟨S64, .f32⟩
  | 70 => ⟨S1x64, .f32⟩
  | 71 => ⟨S100000x64, .f32⟩
  | 72 => ⟨S100000x64, .f32⟩
  | 73 => ⟨S100000x64, .f32⟩
  | 74 => ⟨S_, .f32⟩
  | 75 => ⟨S100000x64, .f32⟩
  | 76 => ⟨S100000x64, .f32⟩
  | 77 => ⟨S_, .f32⟩
  | 78 => ⟨S100000, .f32⟩
  | 79 => ⟨S100000x1, .f32⟩
  | 80 => ⟨S_, .f32⟩
  | 81 => ⟨S100000x1, .f32⟩
  | 82 => ⟨S100000x1, .f32⟩
  | 83 => ⟨S_, .i32⟩
  | 84 => ⟨S_, .f32⟩
  | 85 => ⟨S100000, .f32⟩
  | 86 => ⟨S100000x1, .f32⟩
  | 87 => ⟨S_, .f32⟩
  | 88 => ⟨S100000x1, .f32⟩
  | 89 => ⟨S100000x1, .f32⟩
  | 90 => ⟨S100000x64, .f32⟩
  | 91 => ⟨S100000x64, .f32⟩
  | 92 => ⟨S100000x64, .f32⟩
  | 93 => ⟨S_, .f32⟩
  | 94 => ⟨S_, .f32⟩
  | 95 => ⟨S_, .f32⟩
  | 96 => ⟨S_, .f32⟩
  | 97 => ⟨S100000, .f32⟩
  | 98 => ⟨S100000x1, .f32⟩
  | 99 => ⟨S100000x1, .f32⟩
  | 100 => ⟨S100000x1, .f32⟩
  | 101 => ⟨S_, .f32⟩
  | 102 => ⟨S_, .i1⟩
  | 103 => ⟨S_, .f32⟩
  | 104 => ⟨S_, .f32⟩
  | 105 => ⟨S100000x1, .f32⟩
  | 106 => ⟨S100000x1, .f32⟩
  | 107 => ⟨S100000x64, .f32⟩
  | 108 => ⟨S100000x64, .f32⟩
  | 109 => ⟨S_, .f32⟩
  | 110 => ⟨S100000x1, .f32⟩
  | 111 => ⟨S100000x1, .f32⟩
  | 112 => ⟨S100000x1, .f32⟩
  | 113 => ⟨S100000x64, .f32⟩
  | 114 => ⟨S100000x64, .f32⟩
  | 115 => ⟨S1x64, .f32⟩
  | 116 => ⟨S64, .f32⟩
  | 117 => ⟨S1x64, .f32⟩
  | 118 => ⟨S100000x64, .f32⟩
  | 119 => ⟨S100000x64, .f32⟩
  | 120 => ⟨S1x64, .f32⟩
  | 121 => ⟨S64, .f32⟩
  | 122 => ⟨S1x64, .f32⟩
  | 123 => ⟨S100000x64, .f32⟩
  | 124 => ⟨S100000x64, .f32⟩
  | 125 => ⟨S1x64x64, .f32⟩
  | 126 => ⟨S64x64, .f32⟩
  | 127 => ⟨S100000x64, .f32⟩
  | _ => ⟨S100000x64, .f32⟩

abbrev hbmTy0_1 (i : Nat) : BufTy := match i % 128 with
  | 0 => ⟨S_, .i32⟩
  | 1 => ⟨S1700000, .i32⟩
  | 2 => ⟨S1700000, .i1⟩
  | 3 => ⟨S_, .i32⟩
  | 4 => ⟨S1700000, .i32⟩
  | 5 => ⟨S1700000, .i32⟩
  | 6 => ⟨S1700000, .i32⟩
  | 7 => ⟨S1700000x1, .i32⟩
  | 8 => ⟨S1700000x64, .f32⟩
  | 9 => ⟨S1700000x1, .f32⟩
  | 10 => ⟨S1700000x64, .f32⟩
  | 11 => ⟨S1700000x64, .f32⟩
  | 12 => ⟨S_, .f32⟩
  | 13 => ⟨S100000x64, .f32⟩
  | 14 => ⟨S1700000x1, .i32⟩
  | 15 => ⟨S100000x64, .f32⟩
  | 16 => ⟨S1x64, .f32⟩
  | 17 => ⟨S64, .f32⟩
  | 18 => ⟨S1x64, .f32⟩
  | 19 => ⟨S100000x64, .f32⟩
  | 20 => ⟨S100000x64, .f32⟩
  | 21 => ⟨S100000x64, .f32⟩
  | 22 => ⟨S_, .f32⟩
  | 23 => ⟨S100000x64, .f32⟩
  | 24 => ⟨S100000x64, .f32⟩
  | 25 => ⟨S_, .f32⟩
  | 26 => ⟨S100000, .f32⟩
  | 27 => ⟨S100000x1, .f32⟩
  | 28 => ⟨S_, .f32⟩
  | 29 => ⟨S100000x1, .f32⟩
  | 30 => ⟨S100000x1, .f32⟩
  | 31 => ⟨S_, .i32⟩
  | 32 => ⟨S_, .f32⟩
  | 33 => ⟨S100000, .f32⟩
  | 34 => ⟨S100000x1, .f32⟩
  | 35 => ⟨S_, .f32⟩
  | 36 => ⟨S100000x1, .f32⟩
  | 37 => ⟨S100000x1, .f32⟩
  | 38 => ⟨S100000x64, .f32⟩
  | 39 => ⟨S100000x64, .f32⟩
  | 40 => ⟨S100000x64, .f32⟩
  | 41 => ⟨S_, .f32⟩
  | 42 => ⟨S_, .f32⟩
  | 43 => ⟨S_, .f32⟩
  | 44 => ⟨S_, .f32⟩
  | 45 => ⟨S100000, .f32⟩
  | 46 => ⟨S100000x1, .f32⟩
  | 47 => ⟨S100000x1, .f32⟩
  | 48 => ⟨S100000x1, .f32⟩
  | 49 => ⟨S_, .f32⟩
  | 50 => ⟨S_, .i1⟩
  | 51 => ⟨S_, .f32⟩
  | 52 => ⟨S_, .f32⟩
  | 53 => ⟨S100000x1, .f32⟩
  | 54 => ⟨S100000x1, .f32⟩
  | 55 => ⟨S100000x64, .f32⟩
  | 56 => ⟨S100000x64, .f32⟩
  | 57 => ⟨S_, .f32⟩
  | 58 => ⟨S100000x1, .f32⟩
  | 59 => ⟨S100000x1, .f32⟩
  | 60 => ⟨S100000x1, .f32⟩
  | 61 => ⟨S100000x64, .f32⟩
  | 62 => ⟨S100000x64, .f32⟩
  | 63 => ⟨S1x64, .f32⟩
  | 64 => ⟨S64, .f32⟩
  | 65 => ⟨S1x64, .f32⟩
  | 66 => ⟨S100000x64, .f32⟩
  | 67 => ⟨S100000x64, .f32⟩
  | 68 => ⟨S1x64, .f32⟩
  | 69 => ⟨S64, .f32⟩
  | 70 => ⟨S1x64, .f32⟩
  | 71 => ⟨S100000x64, .f32⟩
  | 72 => ⟨S100000x64, .f32⟩
  | 73 => ⟨S1x64x64, .f32⟩
  | 74 => ⟨S64x64, .f32⟩
  | 75 => ⟨S100000x64, .f32⟩
  | 76 => ⟨S_, .i32⟩
  | 77 => ⟨S1700000, .i32⟩
  | 78 => ⟨S1700000, .i1⟩
  | 79 => ⟨S_, .i32⟩
  | 80 => ⟨S1700000, .i32⟩
  | 81 => ⟨S1700000, .i32⟩
  | 82 => ⟨S1700000, .i32⟩
  | 83 => ⟨S1700000x1, .i32⟩
  | 84 => ⟨S1700000x64, .f32⟩
  | 85 => ⟨S1700000x1, .f32⟩
  | 86 => ⟨S1700000x64, .f32⟩
  | 87 => ⟨S1700000x64, .f32⟩
  | 88 => ⟨S_, .f32⟩
  | 89 => ⟨S100000x64, .f32⟩
  | 90 => ⟨S1700000x1, .i32⟩
  | 91 => ⟨S100000x64, .f32⟩
  | 92 => ⟨S1x64, .f32⟩
  | 93 => ⟨S64, .f32⟩
  | 94 => ⟨S1x64, .f32⟩
  | 95 => ⟨S100000x64, .f32⟩
  | 96 => ⟨S100000x64, .f32⟩
  | 97 => ⟨S100000x64, .f32⟩
  | 98 => ⟨S_, .f32⟩
  | 99 => ⟨S100000x64, .f32⟩
  | 100 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_c_7 : Ref sig .tc := ⟨.hbm, 52, rfl⟩
abbrev main_v35 : Ref sig .tc := ⟨.hbm, 53, rfl⟩
abbrev main_v36 : Ref sig .tc := ⟨.hbm, 54, rfl⟩
abbrev main_c_8 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_9 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_call1_cst : Ref sig .tc := ⟨.hbm, 74, rfl⟩
abbrev main_call1_v0 : Ref sig .tc := ⟨.hbm, 75, rfl⟩
abbrev main_v54 : Ref sig .tc := ⟨.hbm, 76, rfl⟩
abbrev main_cst_10 : Ref sig .tc := ⟨.hbm, 77, rfl⟩
abbrev main_v55 : Ref sig .tc := ⟨.hbm, 78, rfl⟩
abbrev main_v56 : Ref sig .tc := ⟨.hbm, 79, rfl⟩
abbrev main_cst_11 : Ref sig .tc := ⟨.hbm, 80, rfl⟩
abbrev main_v57 : Ref sig .tc := ⟨.hbm, 81, rfl⟩
abbrev main_v58 : Ref sig .tc := ⟨.hbm, 82, rfl⟩
abbrev main_c_12 : Ref sig .tc := ⟨.hbm, 83, rfl⟩
abbrev main_call2_cst : Ref sig .tc := ⟨.hbm, 84, rfl⟩
abbrev main_call2_v0 : Ref sig .tc := ⟨.hbm, 85, rfl⟩
abbrev main_call2_v1 : Ref sig .tc := ⟨.hbm, 86, rfl⟩
abbrev main_call2_cst_0 : Ref sig .tc := ⟨.hbm, 87, rfl⟩
abbrev main_call2_v2 : Ref sig .tc := ⟨.hbm, 88, rfl⟩
abbrev main_call2_v3 : Ref sig .tc := ⟨.hbm, 89, rfl⟩
abbrev main_call2_v4 : Ref sig .tc := ⟨.hbm, 90, rfl⟩
abbrev main_call2_v5 : Ref sig .tc := ⟨.hbm, 91, rfl⟩
abbrev main_call2_v6 : Ref sig .tc := ⟨.hbm, 92, rfl⟩
abbrev main_call2_v7 : Ref sig .tc := ⟨.hbm, 93, rfl⟩
abbrev main_call2_cst_1 : Ref sig .tc := ⟨.hbm, 94, rfl⟩
abbrev main_call2_v8 : Ref sig .tc := ⟨.hbm, 95, rfl⟩
abbrev main_call2_cst_2 : Ref sig .tc := ⟨.hbm, 96, rfl⟩
abbrev main_call2_v9 : Ref sig .tc := ⟨.hbm, 97, rfl⟩
abbrev main_call2_v10 : Ref sig .tc := ⟨.hbm, 98, rfl⟩
abbrev main_call2_v11 : Ref sig .tc := ⟨.hbm, 99, rfl⟩
abbrev main_call2_v12 : Ref sig .tc := ⟨.hbm, 100, rfl⟩
abbrev main_call2_cst_3 : Ref sig .tc := ⟨.hbm, 101, rfl⟩
abbrev main_call2_v13 : Ref sig .tc := ⟨.hbm, 102, rfl⟩
abbrev main_call2_cst_4 : Ref sig .tc := ⟨.hbm, 103, rfl⟩
abbrev main_call2_call0_v0 : Ref sig .tc := ⟨.hbm, 104, rfl⟩
abbrev main_call2_call0_v1 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_cst_13 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_c_14 : Ref sig .tc := ⟨.hbm, 128, rfl⟩
abbrev main_v80 : Ref sig .tc := ⟨.hbm, 129, rfl⟩
abbrev main_v81 : Ref sig .tc := ⟨.hbm, 130, rfl⟩
abbrev main_c_15 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_cst_16 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_call3_cst : Ref sig .tc := ⟨.hbm, 150, rfl⟩
abbrev main_call3_v0 : Ref sig .tc := ⟨.hbm, 151, rfl⟩
abbrev main_v99 : Ref sig .tc := ⟨.hbm, 152, rfl⟩
abbrev main_cst_17 : Ref sig .tc := ⟨.hbm, 153, rfl⟩
abbrev main_v100 : Ref sig .tc := ⟨.hbm, 154, rfl⟩
abbrev main_v101 : Ref sig .tc := ⟨.hbm, 155, rfl⟩
abbrev main_cst_18 : Ref sig .tc := ⟨.hbm, 156, rfl⟩
abbrev main_v102 : Ref sig .tc := ⟨.hbm, 157, rfl⟩
abbrev main_v103 : Ref sig .tc := ⟨.hbm, 158, rfl⟩
abbrev main_c_19 : Ref sig .tc := ⟨.hbm, 159, rfl⟩
abbrev main_call4_cst : Ref sig .tc := ⟨.hbm, 160, rfl⟩
abbrev main_call4_v0 : Ref sig .tc := ⟨.hbm, 161, rfl⟩
abbrev main_call4_v1 : Ref sig .tc := ⟨.hbm, 162, rfl⟩
abbrev main_call4_cst_0 : Ref sig .tc := ⟨.hbm, 163, rfl⟩
abbrev main_call4_v2 : Ref sig .tc := ⟨.hbm, 164, rfl⟩
abbrev main_call4_v3 : Ref sig .tc := ⟨.hbm, 165, rfl⟩
abbrev main_call4_v4 : Ref sig .tc := ⟨.hbm, 166, rfl⟩
abbrev main_call4_v5 : Ref sig .tc := ⟨.hbm, 167, rfl⟩
abbrev main_call4_v6 : Ref sig .tc := ⟨.hbm, 168, rfl⟩
abbrev main_call4_v7 : Ref sig .tc := ⟨.hbm, 169, rfl⟩
abbrev main_call4_cst_1 : Ref sig .tc := ⟨.hbm, 170, rfl⟩
abbrev main_call4_v8 : Ref sig .tc := ⟨.hbm, 171, rfl⟩
abbrev main_call4_cst_2 : Ref sig .tc := ⟨.hbm, 172, rfl⟩
abbrev main_call4_v9 : Ref sig .tc := ⟨.hbm, 173, rfl⟩
abbrev main_call4_v10 : Ref sig .tc := ⟨.hbm, 174, rfl⟩
abbrev main_call4_v11 : Ref sig .tc := ⟨.hbm, 175, rfl⟩
abbrev main_call4_v12 : Ref sig .tc := ⟨.hbm, 176, rfl⟩
abbrev main_call4_cst_3 : Ref sig .tc := ⟨.hbm, 177, rfl⟩
abbrev main_call4_v13 : Ref sig .tc := ⟨.hbm, 178, rfl⟩
abbrev main_call4_cst_4 : Ref sig .tc := ⟨.hbm, 179, rfl⟩
abbrev main_call4_call0_v0 : Ref sig .tc := ⟨.hbm, 180, rfl⟩
abbrev main_call4_call0_v1 : Ref sig .tc := ⟨.hbm, 181, rfl⟩
abbrev main_v104 : Ref sig .tc := ⟨.hbm, 182, rfl⟩
abbrev main_v105 : Ref sig .tc := ⟨.hbm, 183, rfl⟩
abbrev main_v106 : Ref sig .tc := ⟨.hbm, 184, rfl⟩
abbrev main_cst_20 : Ref sig .tc := ⟨.hbm, 185, rfl⟩
abbrev main_v107 : Ref sig .tc := ⟨.hbm, 186, rfl⟩
abbrev main_v108 : Ref sig .tc := ⟨.hbm, 187, rfl⟩
abbrev main_v109 : Ref sig .tc := ⟨.hbm, 188, rfl⟩
abbrev main_v110 : Ref sig .tc := ⟨.hbm, 189, rfl⟩
abbrev main_v111 : Ref sig .tc := ⟨.hbm, 190, rfl⟩
abbrev main_v112 : Ref sig .tc := ⟨.hbm, 191, rfl⟩
abbrev main_v113 : Ref sig .tc := ⟨.hbm, 192, rfl⟩
abbrev main_v114 : Ref sig .tc := ⟨.hbm, 193, rfl⟩
abbrev main_v115 : Ref sig .tc := ⟨.hbm, 194, rfl⟩
abbrev main_v116 : Ref sig .tc := ⟨.hbm, 195, rfl⟩
abbrev main_v117 : Ref sig .tc := ⟨.hbm, 196, rfl⟩
abbrev main_v118 : Ref sig .tc := ⟨.hbm, 197, rfl⟩
abbrev main_v119 : Ref sig .tc := ⟨.hbm, 198, rfl⟩
abbrev main_v120 : Ref sig .tc := ⟨.hbm, 199, rfl⟩
abbrev main_v121 : Ref sig .tc := ⟨.hbm, 200, rfl⟩
abbrev main_v122 : Ref sig .tc := ⟨.hbm, 201, rfl⟩
abbrev main_v123 : Ref sig .tc := ⟨.hbm, 202, rfl⟩
abbrev main_v124 : Ref sig .tc := ⟨.hbm, 203, rfl⟩
abbrev main_c_21 : Ref sig .tc := ⟨.hbm, 204, rfl⟩
abbrev main_v125 : Ref sig .tc := ⟨.hbm, 205, rfl⟩
abbrev main_v126 : Ref sig .tc := ⟨.hbm, 206, rfl⟩
abbrev main_c_22 : Ref sig .tc := ⟨.hbm, 207, rfl⟩
abbrev main_v127 : Ref sig .tc := ⟨.hbm, 208, rfl⟩
abbrev main_v128 : Ref sig .tc := ⟨.hbm, 209, rfl⟩
abbrev main_v129 : Ref sig .tc := ⟨.hbm, 210, rfl⟩
abbrev main_v130 : Ref sig .tc := ⟨.hbm, 211, rfl⟩
abbrev main_v131 : Ref sig .tc := ⟨.hbm, 212, rfl⟩
abbrev main_v132 : Ref sig .tc := ⟨.hbm, 213, rfl⟩
abbrev main_v133 : Ref sig .tc := ⟨.hbm, 214, rfl⟩
abbrev main_v134 : Ref sig .tc := ⟨.hbm, 215, rfl⟩
abbrev main_cst_23 : Ref sig .tc := ⟨.hbm, 216, rfl⟩
abbrev main_v135 : Ref sig .tc := ⟨.hbm, 217, rfl⟩
abbrev main_v136 : Ref sig .tc := ⟨.hbm, 218, rfl⟩
abbrev main_v137 : Ref sig .tc := ⟨.hbm, 219, rfl⟩
abbrev main_v138 : Ref sig .tc := ⟨.hbm, 220, rfl⟩
abbrev main_v139 : Ref sig .tc := ⟨.hbm, 221, rfl⟩
abbrev main_v140 : Ref sig .tc := ⟨.hbm, 222, rfl⟩
abbrev main_v141 : Ref sig .tc := ⟨.hbm, 223, rfl⟩
abbrev main_v142 : Ref sig .tc := ⟨.hbm, 224, rfl⟩
abbrev main_v143 : Ref sig .tc := ⟨.hbm, 225, rfl⟩
abbrev main_call5_cst : Ref sig .tc := ⟨.hbm, 226, rfl⟩
abbrev main_call5_v0 : Ref sig .tc := ⟨.hbm, 227, rfl⟩
abbrev main_v144 : Ref sig .tc := ⟨.hbm, 228, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  slices_S3x64x64_S1x64x64_0_0_0 : S3x64x64.Slices ![0, 0, 0] S1x64x64
  shapeCasts_S1x64x64_S64x64 : S1x64x64.ShapeCasts S64x64
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  slices_S3x64_S1x64_0_0 : S3x64.Slices ![0, 0] S1x64
  shapeCasts_S1x64_S64 : S1x64.ShapeCasts S64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  slices_S2x64_S1x64_0_0 : S2x64.Slices ![0, 0] S1x64
  slices_S3x64x64_S1x64x64_1_0_0 : S3x64x64.Slices ![1, 0, 0] S1x64x64
  slices_S3x64_S1x64_1_0 : S3x64.Slices ![1, 0] S1x64
  slices_S2x64_S1x64_1_0 : S2x64.Slices ![1, 0] S1x64
  slices_S3x64x64_S1x64x64_2_0_0 : S3x64x64.Slices ![2, 0, 0] S1x64x64
  slices_S3x64_S1x64_2_0 : S3x64.Slices ![2, 0] S1x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x64_S64x64_S100000x64_1_0_0_1_n_n_wf : DotDims.WF S100000x64 S64x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.KRun.lean ====
/-
  The idealized kernel's whole run, with its two result arrays named.

  The program is six tiled regions among stretches of host operations. Its run ends with every array at the last
  boundary's contents `W14` — a fold from the launch memory: each stretch applies its operations, each region replaces
  its output arrays by what its grid points wrote back. Here the run is stated with the two result arrays read at that
  fold (and the six argument arrays unchanged); what the fold holds there is computed in the modules that follow.
-/
import proofs.«151697_j9594956939369_2_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the results end at the last boundary's contents and the
    arguments as launched. -/
theorem run_values : θ_run defs (onTc (τ := τ) (main (F := F))) ⟨m, fun _ => 0, ρ⟩ (fun r => ∀ c : Dev nD,
      r.2.mem ((c.tc : Thread nD τ).loc main_v103_0) = W14 m ρ c (Proc.devRef .tc main_v103_0)
      ∧ r.2.mem ((c.tc : Thread nD τ).loc main_v103_1) = W14 m ρ c (Proc.devRef .tc main_v103_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v103_0 (by decide)),
       h c _ (mem_uc main_v103_1 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c)⟩)

end Cert.KernelIdeal.KRun

end
-- ==== Proof.Spec.lean ====
/-
  The mathematics both programs compute, written once over whole arrays.

  A graph of N = 100000 nodes and E = 1600000 directed edges, with one self loop added per node, gives two index
  vectors of length E + N: `row` (where a message is accumulated) and `col` (where it is read). The degree of a node
  is the number of entries of `row` equal to it, `dinv = 1 / sqrt deg` where the degree is positive, and an edge's
  weight is `norm e = dinv (row e) * dinv (col e)`.

  One layer takes node features `x : [N, 64]`, a weight `w : [64, 64]`, and rows `bias, g, b : [1, 64]`:
    h    = x · w
    conv = the accumulation into `row e` of `h (col e) * norm e` over all edges e
    emb  = x + (conv + bias)
    r    = max emb 0
    out  = (r - mean r) / sqrt (var r + ε) * g + b      (mean and variance along each row of 64 entries)
  Three layers are chained (the last one without the normalisation); the results are the last layer's `emb` and `r`.
-/
import proofs.«151697_j9594956939369_2_alg».proof.Proof.Gen.ReferenceIdeal
import Idealize.ShloMosaic.PureOps.Ideal

noncomputable section

namespace Cert.Spec

open Idealize.ShloMosaic Cert.ReferenceIdeal Cert.ReferenceIdeal.Facts₀

abbrev Mat := FVec Ideal S100000x64 .f32
abbrev Row := FVec Ideal S1x64 .f32
abbrev EdgeIdx := IVec S1700000 32
abbrev EdgeVec := FVec Ideal S1700000 .f32

/-! ## The edge lists and their weights -/

/-- Accumulation indices: the first row of the edge array, then the self loops 0 … N-1. -/
def rowOf (ei : IVec S2x1600000 32) : EdgeIdx :=
  concatenate S1700000 0
    [⟨S1600000, shapeCast S1600000 (extractStridedSlice S1x1600000 ![0, 0] ei slices_S2x1600000_S1x1600000_0_0) shapeCasts_S1x1600000_S1600000⟩,
     ⟨S100000, iotaInDim S100000 32 0⟩] concatenates_S1600000_S100000_S1700000_d0

/-- Source indices: the second row of the edge array, then the self loops 0 … N-1. -/
def colOf (ei : IVec S2x1600000 32) : EdgeIdx :=
  concatenate S1700000 0
    [⟨S1600000, shapeCast S1600000 (extractStridedSlice S1x1600000 ![1, 0] ei slices_S2x1600000_S1x1600000_1_0) shapeCasts_S1x1600000_S1600000⟩,
     ⟨S100000, iotaInDim S100000 32 0⟩] concatenates_S1600000_S100000_S1700000_d0

/-- An index vector made ready for a gather: a negative entry is shifted up by N, and the vector stood up as a column. -/
def wrapIdx (v : EdgeIdx) : IVec S1700000x1 32 :=
  broadcastInDim S1700000x1 ![0] bcast_S1700000_S1700000x1_0
    (select (cmpi .slt v (broadcastInDim S1700000 ![] bcast_S_S1700000 (constantI S_ 32 0#32)))
      (addi v (broadcastInDim S1700000 ![] bcast_S_S1700000 (constantI S_ 32 100000#32))) v)

/-- The degree of each node: how many accumulation indices name it. -/
def degOf (row : EdgeIdx) : FVec Ideal S100000 .f32 :=
  Host.scatterAdd scatter_S100000_S1700000x1_S1700000_n_0_0_1
    (broadcastInDim S100000 ![] bcast_S_S100000 (constant S_ .f32 0x00000000#32))
    (broadcastInDim S1700000x1 ![0] bcast_S1700000_S1700000x1_0 row)
    (broadcastInDim S1700000 ![] bcast_S_S1700000 (constant S_ .f32 0x3F800000#32))

/-- Where the degree is positive. -/
def degPosOf (row : EdgeIdx) : IVec S100000 1 :=
  cmpf .ogt (degOf row) (broadcastInDim S100000 ![] bcast_S_S100000 (constant S_ .f32 0x00000000#32))

/-- `1 / sqrt deg`. -/
def rdegOf (row : EdgeIdx) : FVec Ideal S100000 .f32 :=
  Host.divf (broadcastInDim S100000 ![] bcast_S_S100000 (constant S_ .f32 0x3F800000#32)) (Host.sqrt (degOf row))

/-- `1 / sqrt deg` where the degree is positive, 0 elsewhere. -/
def dinvOf (row : EdgeIdx) : FVec Ideal S100000 .f32 :=
  select (degPosOf row) (rdegOf row) (broadcastInDim S100000 ![] bcast_S_S100000 (id (constant S_ .f32 0x00000000#32)))

/-- The weight of each edge: `dinv` at its two ends, multiplied. -/
def normOf (row col : EdgeIdx) : EdgeVec :=
  mulf (Host.gather gather_S100000_S1700000x1_S1700000_n_0_n_n_0_1_1 (dinvOf row) (wrapIdx row))
    (Host.gather gather_S100000_S1700000x1_S1700000_n_0_n_n_0_1_1 (dinvOf row) (wrapIdx col))

/-! ## One layer -/

/-- `x · w`. -/
def hOf (x : Mat) (w : FVec Ideal S64x64 .f32) : Mat :=
  Host.dotGeneral dot_S100000x64_S64x64_S100000x64_1_0_0_1_n_n none x w

/-- Message passing: `h` read at each edge's source, scaled by the edge's weight, accumulated at the edge's target. -/
def convOf (h : Mat) (row col : EdgeIdx) (norm : EdgeVec) : Mat :=
  Host.scatterAdd scatter_S100000x64_S1700000x1_S1700000x64_1_0_0_1
    (broadcastInDim S100000x64 ![] bcast_S_S100000x64 (constant S_ .f32 0x00000000#32))
    (broadcastInDim S1700000x1 ![0] bcast_S1700000_S1700000x1_0 row)
    (mulf (Host.gather gather_S100000x64_S1700000x1_S1700000x64_1_0_n_n_0_1_164 h (wrapIdx col))
      (broadcastInDim S1700000x64 ![0, 1] bcast_S1700000x1_S1700000x64_0_1
        (broadcastInDim S1700000x1 ![0] bcast_S1700000_S1700000x1_0 norm)))

/-- A [1, 64] row repeated down the N rows. -/
def spreadRow (v : Row) : Mat := broadcastInDim S100000x64 ![0, 1] bcast_S1x64_S100000x64_0_1 v

/-- A [N, 1] column repeated across the 64 columns. -/
def spreadCol (v : FVec Ideal S100000x1 .f32) : Mat := broadcastInDim S100000x64 ![0, 1] bcast_S100000x1_S100000x64_0_1 v

/-- The layer's pre-activation: `x + (conv + bias)`. -/
def embOf (x conv : Mat) (bias : Row) : Mat := addf x (addf conv (spreadRow bias))

/-- `max e 0`. -/
def reluOf (e : Mat) : Mat := maximumf e (broadcastInDim S100000x64 ![] bcast_S_S100000x64 (constant S_ .f32 0x00000000#32))

/-- Row sums, as a column. -/
def rowSumCol (r : Mat) : FVec Ideal S100000x1 .f32 :=
  broadcastInDim S100000x1 ![0] bcast_S100000_S100000x1_0
    (Host.reduceAdd r (constant S_ .f32 0x00000000#32) reducesTo_S100000x64_S100000_d1 h_S_)

/-- Row means: the row sums divided by 64. -/
def meanCol (r : Mat) : FVec Ideal S100000x1 .f32 :=
  Host.divf (rowSumCol r) (broadcastInDim S100000x1 ![] bcast_S_S100000x1 (constant S_ .f32 0x42800000#32))

/-- The divisor of the variance, `64 - 0` (no degrees of freedom removed). -/
def varDiv : FVec Ideal S_ .f32 := subf (constant S_ .f32 0x42800000#32) (sitofp .f32 (constantI S_ 32 0#32))

/-- Row variances: the mean of the squared deviations from the row mean (guarded by `64 - 0 > 0`). -/
def varCol (r : Mat) : FVec Ideal S100000x1 .f32 :=
  select (broadcastInDim S100000x1 ![] bcast_S_S100000x1 (cmpf .ogt varDiv (constant S_ .f32 0x00000000#32)))
    (Host.divf (rowSumCol (mulf (subf r (spreadCol (meanCol r))) (subf r (spreadCol (meanCol r)))))
      (broadcastInDim S100000x1 ![] bcast_S_S100000x1 varDiv))
    (broadcastInDim S100000x1 ![] bcast_S_S100000x1 (id (constant S_ .f32 0x7FC00000#32)))

/-- Row-wise normalisation with gain `g` and offset `b`: `(r - mean) / sqrt (var + ε) * g + b`. -/
def lnOf (r : Mat) (g b : Row) : Mat :=
  addf (mulf (Host.divf (subf r (spreadCol (meanCol r)))
      (spreadCol (Host.sqrt (addf (varCol r) (broadcastInDim S100000x1 ![] bcast_S_S100000x1 (constant S_ .f32 0x3727C5AC#32))))))
    (spreadRow g)) (spreadRow b)

/-! ## The stacked parameters, one layer at a time -/

/-- Weight matrix 0 of the stacked [3, 64, 64] weights. -/
def w0 (ws : FVec Ideal S3x64x64 .f32) : FVec Ideal S64x64 .f32 :=
  shapeCast S64x64 (extractStridedSlice S1x64x64 ![0, 0, 0] ws slices_S3x64x64_S1x64x64_0_0_0) shapeCasts_S1x64x64_S64x64

/-- Weight matrix 1 of the stacked [3, 64, 64] weights. -/
def w1 (ws : FVec Ideal S3x64x64 .f32) : FVec Ideal S64x64 .f32 :=
  shapeCast S64x64 (extractStridedSlice S1x64x64 ![1, 0, 0] ws slices_S3x64x64_S1x64x64_1_0_0) shapeCasts_S1x64x64_S64x64

/-- Weight matrix 2 of the stacked [3, 64, 64] weights. -/
def w2 (ws : FVec Ideal S3x64x64 .f32) : FVec Ideal S64x64 .f32 :=
  shapeCast S64x64 (extractStridedSlice S1x64x64 ![2, 0, 0] ws slices_S3x64x64_S1x64x64_2_0_0) shapeCasts_S1x64x64_S64x64

/-- Row 0 of a stacked [3, 64] parameter, stood up as a [1, 64] row. -/
def bias0 (v : FVec Ideal S3x64 .f32) : FVec Ideal S1x64 .f32 :=
  broadcastInDim S1x64 ![1] bcast_S64_S1x64_1
    (shapeCast S64 (extractStridedSlice S1x64 ![0, 0] v slices_S3x64_S1x64_0_0) shapeCasts_S1x64_S64)

/-- Row 1 of a stacked [3, 64] parameter, stood up as a [1, 64] row. -/
def bias1 (v : FVec Ideal S3x64 .f32) : FVec Ideal S1x64 .f32 :=
  broadcastInDim S1x64 ![1] bcast_S64_S1x64_1
    (shapeCast S64 (extractStridedSlice S1x64 ![1, 0] v slices_S3x64_S1x64_1_0) shapeCasts_S1x64_S64)

/-- Row 2 of a stacked [3, 64] parameter, stood up as a [1, 64] row. -/
def bias2 (v : FVec Ideal S3x64 .f32) : FVec Ideal S1x64 .f32 :=
  broadcastInDim S1x64 ![1] bcast_S64_S1x64_1
    (shapeCast S64 (extractStridedSlice S1x64 ![2, 0] v slices_S3x64_S1x64_2_0) shapeCasts_S1x64_S64)

/-- Row 0 of a stacked [2, 64] parameter, stood up as a [1, 64] row. -/
def lnRow0 (v : FVec Ideal S2x64 .f32) : FVec Ideal S1x64 .f32 :=
  broadcastInDim S1x64 ![1] bcast_S64_S1x64_1
    (shapeCast S64 (extractStridedSlice S1x64 ![0, 0] v slices_S2x64_S1x64_0_0) shapeCasts_S1x64_S64)

/-- Row 1 of a stacked [2, 64] parameter, stood up as a [1, 64] row. -/
def lnRow1 (v : FVec Ideal S2x64 .f32) : FVec Ideal S1x64 .f32 :=
  broadcastInDim S1x64 ![1] bcast_S64_S1x64_1
    (shapeCast S64 (extractStridedSlice S1x64 ![1, 0] v slices_S2x64_S1x64_1_0) shapeCasts_S1x64_S64)

/-! ## The three layers chained -/

/-- One layer's pre-activation from its inputs. -/
def layerEmb (x : Mat) (w : FVec Ideal S64x64 .f32) (bias : Row) (row col : EdgeIdx) (norm : EdgeVec) : Mat :=
  embOf x (convOf (hOf x w) row col norm) bias

variable (x : Mat) (ei : IVec S2x1600000 32) (ws : FVec Ideal S3x64x64 .f32) (bs : FVec Ideal S3x64 .f32)
  (g b : FVec Ideal S2x64 .f32)

def emb1 : Mat := layerEmb x (w0 ws) (bias0 bs) (rowOf ei) (colOf ei) (normOf (rowOf ei) (colOf ei))
def x1 : Mat := lnOf (reluOf (emb1 x ei ws bs)) (lnRow0 g) (lnRow0 b)
def emb2 : Mat := layerEmb (x1 x ei ws bs g b) (w1 ws) (bias1 bs) (rowOf ei) (colOf ei) (normOf (rowOf ei) (colOf ei))
def x2 : Mat := lnOf (reluOf (emb2 x ei ws bs g b)) (lnRow1 g) (lnRow1 b)
/-- First result: the last layer's pre-activation. -/
def emb3 : Mat := layerEmb (x2 x ei ws bs g b) (w2 ws) (bias2 bs) (rowOf ei) (colOf ei) (normOf (rowOf ei) (colOf ei))
/-- Second result: its rectification. -/
def x3 : Mat := reluOf (emb3 x ei ws bs g b)

end Cert.Spec

end
-- ==== Proof.LibHostLine.lean ====
/-
  Reading a long straight line of host operations a stretch at a time.

  What an array holds after a line of operations is a fold over the line. Three facts make a long line readable in short
  stretches: a line cut in two is run by running the first part and then the second; a stretch leaves alone every array
  none of its operations writes; and a join of six operands written as one operation over a literal family of six
  arrays reads each operand at its own array (the library states this for four operands). Independent of any program.
-/
import Idealize.ShloMosaic.Lib.StableHlo.Run

noncomputable section

namespace Cert.Lib

open Idealize.ShloMosaic Idealize.ShloMosaic.StableHlo Idealize.SL.Sem

variable {τ : Topo} {sig : RefSig} {Val : EltTy → Type}

/-- Running one stretch after another: the line `l₁ ++ l₂` from `V` is `l₂` from what `l₁` leaves. -/
theorem after_append (l₁ l₂ : List (HloOp τ sig Val)) (V : Valuation τ sig Val) :
    StableHlo.after (l₁ ++ l₂) V = StableHlo.after l₂ (StableHlo.after l₁ V) := by
  induction l₁ generalizing V with
  | nil => rfl
  | cons op ops ih => exact ih (op.result V)

/-- A stretch leaves alone every array none of its operations writes (the hypothesis as a `List.Forall`, which a literal
    stretch discharges operation by operation: each operation writes only its own result array). -/
theorem after_keeps {seg : List (HloOp τ sig Val)} {b : Ref sig .tc} (ν : Valuation τ sig Val)
    (h : seg.Forall fun op => Proc.devRef .tc b ∉ op.writes) :
    StableHlo.after seg ν (Proc.devRef .tc b) = ν (Proc.devRef .tc b) :=
  StableHlo.after_of_forall_not_mem _ _ (List.forall_iff_forall_mem.mp h)

variable {x0 x1 x2 x3 x4 x5 y : Ref sig .tc}

/-- An operation over a LITERAL family of six arrays (a join of six operands), read at its result array: its function of
    the six operands' contents, each at its own array — so that reading can go on into the operands. -/
theorem nary6_result
    (f : ((k : Fin 6) → ((![x0, x1, x2, x3, x4, x5] : Fin 6 → Ref sig .tc) k).ty.Contents Val) → y.ty.Contents Val) (hxs hy)
    (V : Valuation τ sig Val) :
    (nary (τ := τ) ![x0, x1, x2, x3, x4, x5] y f hxs hy).result V (Proc.devRef .tc y)
      = f (Fin.cons (V (Proc.devRef .tc x0)) (Fin.cons (V (Proc.devRef .tc x1)) (Fin.cons (V (Proc.devRef .tc x2))
          (Fin.cons (V (Proc.devRef .tc x3)) (Fin.cons (V (Proc.devRef .tc x4)) (Fin.cons (V (Proc.devRef .tc x5))
            (fun i => i.elim0))))))) := by
  rw [nary_result]; congr 1; funext k; fin_cases k <;> rfl

end Cert.Lib

end
-- ==== Proof.LibRowLayout.lean ====
/-
  A row vector's layout operations read at coordinates. Independent of any program.

  A vector [b] re-laid as the row [1, b] keeps its entries in order, so the row at (0, q) is the vector at q; a row
  [1, b] broadcast down a rows repeats it, so the result at (p, q) is the row at (0, q); and the one entry of a [1, 1]
  array extracted at position (0, 0) is the array at (0, 0).
-/
import Idealize.ShloMosaic.Lib.ValueIdx
import Idealize.ShloMosaic.Lib.Pipeline.Value

noncomputable section

namespace Cert.Lib

open Idealize.ShloMosaic Idealize.ShloMosaic.ValueIdx

/-- A vector [b] shape-cast to the row [1, b], read at (0, q), is the vector at q (any b; with b = 1 this is a [1]
    array re-laid as [1, 1]). -/
theorem vecToRow_apply {α : Type} {b : Nat} (x : (⟨1, ![b]⟩ : Shape).Idx → α)
    (h : (⟨1, ![b]⟩ : Shape).ShapeCasts ⟨2, ![1, b]⟩) (q : Fin b) :
    shapeCast ⟨2, ![1, b]⟩ x h (ix2 0 q) = x (ix1 q) :=
  shapeCast_apply x h (ix2 0 q) (ix1 q) (by
    rw [Shape.rowMajor_val_two, Shape.rowMajor_val_one]; show q.val = 0 * b + q.val; omega)

/-- A row [1, b] broadcast to [a, b], read at (p, q), is the row at (0, q). -/
theorem rowBroadcast_apply {α : Type} {a b : Nat} (x : (⟨2, ![1, b]⟩ : Shape).Idx → α)
    (h : (⟨2, ![1, b]⟩ : Shape).Broadcasts ⟨2, ![a, b]⟩) (p : Fin a) (q : Fin b) :
    broadcastTo ⟨2, ![a, b]⟩ x h (ix2 p q) = x (ix2 0 q) :=
  broadcastTo_apply x h (ix2 p q) (ix2 0 q) (fun d => by
    match d with
    | ⟨0, _⟩ => show (0 : Nat) = if (1 : Nat) = 1 then 0 else p.val; rw [if_pos rfl]
    | ⟨1, _⟩ => show q.val = if b = 1 then 0 else q.val; have := q.isLt; split <;> omega)

/-- The entry of a [1, 1] array extracted at position (0, 0) is the array at (0, 0). -/
theorem extract_one_one {α : Type} (x : (⟨2, ![1, 1]⟩ : Shape).Idx → α)
    (h : ∀ d, (![0, 0] : Fin 2 → Nat) d < (⟨2, ![1, 1]⟩ : Shape).size d) :
    extractAt ![0, 0] x h = x (ix2 0 0) :=
  congrArg x (funext fun d => Fin.ext (by match d with | ⟨0, _⟩ => rfl | ⟨1, _⟩ => rfl))

end Cert.Lib

end
-- ==== Proof.KHost.lean ====
/-
  The kernel program's host stretches, read at the arrays the tiled regions take.

  Between its regions the program prepares, with the reference's own operations, the edge lists and their weights, each
  layer's weight matrix and parameter rows, and the message passing `conv` of the product a region left. Each array a
  region takes is here one of the specification's functions of the arrays before the stretch. (A parameter row is cut out
  of its stack and reshaped [64] → [1, 64], where the reference stands the vector up as a row: the same [1, 64] array.)
-/
import proofs.«151697_j9594956939369_2_alg».proof.Proof.Gen.KernelIdeal.Launch
import proofs.«151697_j9594956939369_2_alg».proof.Proof.Spec
import proofs.«151697_j9594956939369_2_alg».proof.Proof.LibHostLine
import proofs.«151697_j9594956939369_2_alg».proof.Proof.LibRowLayout
import Idealize.ShloMosaic.Lib.StableHlo.Run
import Idealize.ShloMosaic.Lib.Pipeline.Value

set_option maxRecDepth 100000

noncomputable section

namespace Cert.KHost

open Idealize.ShloMosaic Idealize.ShloMosaic.TcCoe Idealize.SL.Sem Idealize.ShloMosaic.StableHlo Idealize.ShloMosaic.ValueIdx
open Cert.KernelIdeal Cert.KernelIdeal.Gen

/-- A vector [64] reshaped to [1, 64] is the vector stood up as a row. -/
theorem row_eq (v : FVec Ideal S64 .f32) (h : S64.ShapeCasts S1x64) :
    shapeCast S1x64 v h
      = broadcastInDim Cert.ReferenceIdeal.S1x64 ![1] Cert.ReferenceIdeal.Facts₀.bcast_S64_S1x64_1 v := by
  funext i
  obtain ⟨p, q, rfl⟩ : ∃ (p : Fin 1) (q : Fin 64), i = ix2 p q := ⟨i 0, i 1, eq_ix2 i⟩
  have hp : p = 0 := Subsingleton.elim _ _
  subst hp
  rw [broadcastInDim_apply _ _ v (ix2 (0 : Fin 1) q) (ix1 q) (fun a => by match a with | ⟨0, _⟩ => rfl)]
  exact Cert.Lib.vecToRow_apply v h q

variable (V : Valuation τ sig (Elt Ideal))

/-! ## Before the first region: the edge lists, their weights, the first weight matrix -/

/-- The three stretches before the first region, as one line. -/
abbrev pre : List (HloOp τ sig (Elt Ideal)) := hostOps0 ++ (hostOps0_1 ++ hostOps0_2)

theorem pre_eq : after pre V = after hostOps0_2 (after hostOps0_1 (after hostOps0 V)) := by
  unfold pre; rw [Cert.Lib.after_append, Cert.Lib.after_append]

/-! ### First stretch: the edge lists, the degrees -/

set_option maxHeartbeats 1000000 in
theorem s0_row : after (hostOps0 (F := Ideal)) V (Proc.devRef .tc main_v3) = Spec.rowOf (V (Proc.devRef .tc main_arg1)) := by
  after_results_simp; rfl
set_option maxHeartbeats 1000000 in
theorem s0_col : after (hostOps0 (F := Ideal)) V (Proc.devRef .tc main_v6) = Spec.colOf (V (Proc.devRef .tc main_arg1)) := by
  after_results_simp; rfl
set_option maxHeartbeats 1000000 in
theorem s0_pos : after (hostOps0 (F := Ideal)) V (Proc.devRef .tc main_v12) = Spec.degPosOf (Spec.rowOf (V (Proc.devRef .tc main_arg1))) := by
  after_results_simp; rfl
set_option maxHeartbeats 1000000 in
theorem s0_rdeg : after (hostOps0 (F := Ideal)) V (Proc.devRef .tc main_v15) = Spec.rdegOf (Spec.rowOf (V (Proc.devRef .tc main_arg1))) := by
  after_results_simp; rfl
theorem s0_zero : after (hostOps0 (F := Ideal)) V (Proc.devRef .tc main_cst_3) = constant (F := Ideal) S_ .f32 0x00000000#32 := by
  after_results_simp
theorem s0_keep_main_arg0 : after (hostOps0 (F := Ideal)) V (Proc.devRef .tc main_arg0) = V (Proc.devRef .tc main_arg0) := by after_results_simp
theorem s0_keep_main_arg1 : after (hostOps0 (F := Ideal)) V (Proc.devRef .tc main_arg1) = V (Proc.devRef .tc main_arg1) := by after_results_simp
theorem s0_keep_main_arg2 : after (hostOps0 (F := Ideal)) V (Proc.devRef .tc main_arg2) = V (Proc.devRef .tc main_arg2) := by after_results_simp
theorem s0_keep_main_arg3 : after (hostOps0 (F := Ideal)) V (Proc.devRef .tc main_arg3) = V (Proc.devRef .tc main_arg3) := by after_results_simp
theorem s0_keep_main_arg4 : after (hostOps0 (F := Ideal)) V (Proc.devRef .tc main_arg4) = V (Proc.devRef .tc main_arg4) := by after_results_simp
theorem s0_keep_main_arg5 : after (hostOps0 (F := Ideal)) V (Proc.devRef .tc main_arg5) = V (Proc.devRef .tc main_arg5) := by after_results_simp

/-! ### Second stretch: the guarded reciprocal square root of the degrees -/

theorem s1_dinv : after (hostOps0_1 (F := Ideal)) V (Proc.devRef .tc main_v16)
    = select (V (Proc.devRef .tc main_v12)) (V (Proc.devRef .tc main_v15)) (broadcastInDim S100000 ![] bcast_S_S100000 (id (V (Proc.devRef .tc main_cst_3)))) := by
  after_results_simp; rfl
theorem s1_keep_main_v3 : after (hostOps0_1 (F := Ideal)) V (Proc.devRef .tc main_v3) = V (Proc.devRef .tc main_v3) := by after_results_simp
theorem s1_keep_main_v6 : after (hostOps0_1 (F := Ideal)) V (Proc.devRef .tc main_v6) = V (Proc.devRef .tc main_v6) := by after_results_simp
theorem s1_keep_main_arg0 : after (hostOps0_1 (F := Ideal)) V (Proc.devRef .tc main_arg0) = V (Proc.devRef .tc main_arg0) := by after_results_simp
theorem s1_keep_main_arg1 : after (hostOps0_1 (F := Ideal)) V (Proc.devRef .tc main_arg1) = V (Proc.devRef .tc main_arg1) := by after_results_simp
theorem s1_keep_main_arg2 : after (hostOps0_1 (F := Ideal)) V (Proc.devRef .tc main_arg2) = V (Proc.devRef .tc main_arg2) := by after_results_simp
theorem s1_keep_main_arg3 : after (hostOps0_1 (F := Ideal)) V (Proc.devRef .tc main_arg3) = V (Proc.devRef .tc main_arg3) := by after_results_simp
theorem s1_keep_main_arg4 : after (hostOps0_1 (F := Ideal)) V (Proc.devRef .tc main_arg4) = V (Proc.devRef .tc main_arg4) := by after_results_simp
theorem s1_keep_main_arg5 : after (hostOps0_1 (F := Ideal)) V (Proc.devRef .tc main_arg5) = V (Proc.devRef .tc main_arg5) := by after_results_simp

/-! ### Third stretch: the edge weights, the first weight matrix -/

set_option maxHeartbeats 1000000 in
theorem s2_norm : after (hostOps0_2 (F := Ideal)) V (Proc.devRef .tc main_v31)
    = (mulf (Host.gather gather_S100000_S1700000x1_S1700000_n_0_n_n_0_1_1 (V (Proc.devRef .tc main_v16) : FVec Ideal S100000 .f32) (Spec.wrapIdx (V (Proc.devRef .tc main_v3))))
        (Host.gather gather_S100000_S1700000x1_S1700000_n_0_n_n_0_1_1 (V (Proc.devRef .tc main_v16) : FVec Ideal S100000 .f32) (Spec.wrapIdx (V (Proc.devRef .tc main_v6)))) : FVec Ideal S1700000 .f32) := by
  after_results_simp; rfl
theorem s2_w : after (hostOps0_2 (F := Ideal)) V (Proc.devRef .tc main_v33) = Spec.w0 (V (Proc.devRef .tc main_arg2)) := by
  after_results_simp; rfl
theorem s2_keep_main_v3 : after (hostOps0_2 (F := Ideal)) V (Proc.devRef .tc main_v3) = V (Proc.devRef .tc main_v3) := by after_results_simp
theorem s2_keep_main_v6 : after (hostOps0_2 (F := Ideal)) V (Proc.devRef .tc main_v6) = V (Proc.devRef .tc main_v6) := by after_results_simp
theorem s2_keep_main_arg0 : after (hostOps0_2 (F := Ideal)) V (Proc.devRef .tc main_arg0) = V (Proc.devRef .tc main_arg0) := by after_results_simp
theorem s2_keep_main_arg1 : after (hostOps0_2 (F := Ideal)) V (Proc.devRef .tc main_arg1) = V (Proc.devRef .tc main_arg1) := by after_results_simp
theorem s2_keep_main_arg2 : after (hostOps0_2 (F := Ideal)) V (Proc.devRef .tc main_arg2) = V (Proc.devRef .tc main_arg2) := by after_results_simp
theorem s2_keep_main_arg3 : after (hostOps0_2 (F := Ideal)) V (Proc.devRef .tc main_arg3) = V (Proc.devRef .tc main_arg3) := by after_results_simp
theorem s2_keep_main_arg4 : after (hostOps0_2 (F := Ideal)) V (Proc.devRef .tc main_arg4) = V (Proc.devRef .tc main_arg4) := by after_results_simp
theorem s2_keep_main_arg5 : after (hostOps0_2 (F := Ideal)) V (Proc.devRef .tc main_arg5) = V (Proc.devRef .tc main_arg5) := by after_results_simp

/-! ### The three composed -/

theorem pre_row : after pre V (Proc.devRef .tc main_v3) = Spec.rowOf (V (Proc.devRef .tc main_arg1)) := by
  rw [pre_eq, s2_keep_main_v3, s1_keep_main_v3, s0_row]
theorem pre_col : after pre V (Proc.devRef .tc main_v6) = Spec.colOf (V (Proc.devRef .tc main_arg1)) := by
  rw [pre_eq, s2_keep_main_v6, s1_keep_main_v6, s0_col]
theorem pre_norm : after pre V (Proc.devRef .tc main_v31)
    = Spec.normOf (Spec.rowOf (V (Proc.devRef .tc main_arg1))) (Spec.colOf (V (Proc.devRef .tc main_arg1))) := by
  rw [pre_eq, s2_norm, s1_dinv, s1_keep_main_v3, s1_keep_main_v6, s0_pos, s0_rdeg, s0_zero, s0_row, s0_col]
  rfl
theorem pre_w : after pre V (Proc.devRef .tc main_v33) = Spec.w0 (V (Proc.devRef .tc main_arg2)) := by
  rw [pre_eq, s2_w, s1_keep_main_arg2, s0_keep_main_arg2]
theorem pre_arg0 : after pre V (Proc.devRef .tc main_arg0) = V (Proc.devRef .tc main_arg0) := by
  rw [pre_eq, s2_keep_main_arg0, s1_keep_main_arg0, s0_keep_main_arg0]
theorem pre_arg1 : after pre V (Proc.devRef .tc main_arg1) = V (Proc.devRef .tc main_arg1) := by
  rw [pre_eq, s2_keep_main_arg1, s1_keep_main_arg1, s0_keep_main_arg1]
theorem pre_arg2 : after pre V (Proc.devRef .tc main_arg2) = V (Proc.devRef .tc main_arg2) := by
  rw [pre_eq, s2_keep_main_arg2, s1_keep_main_arg2, s0_keep_main_arg2]
theorem pre_arg3 : after pre V (Proc.devRef .tc main_arg3) = V (Proc.devRef .tc main_arg3) := by
  rw [pre_eq, s2_keep_main_arg3, s1_keep_main_arg3, s0_keep_main_arg3]
theorem pre_arg4 : after pre V (Proc.devRef .tc main_arg4) = V (Proc.devRef .tc main_arg4) := by
  rw [pre_eq, s2_keep_main_arg4, s1_keep_main_arg4, s0_keep_main_arg4]
theorem pre_arg5 : after pre V (Proc.devRef .tc main_arg5) = V (Proc.devRef .tc main_arg5) := by
  rw [pre_eq, s2_keep_main_arg5, s1_keep_main_arg5, s0_keep_main_arg5]

/-! ## Layer 1 -/

set_option maxHeartbeats 2000000 in
theorem h1_conv : after (hostOps1 (F := Ideal)) V (Proc.devRef .tc main_v47)
    = Spec.convOf (V (Proc.devRef .tc main_v34)) (V (Proc.devRef .tc main_v3)) (V (Proc.devRef .tc main_v6)) (V (Proc.devRef .tc main_v31)) := by
  after_results_simp
  rfl

theorem h1_bias : after (hostOps1 (F := Ideal)) V (Proc.devRef .tc main_v50) = Spec.bias0 (V (Proc.devRef .tc main_arg3)) := by
  after_results_simp
  refine Eq.trans ?_ (row_eq (shapeCast S64 (extractStridedSlice S1x64 ![0, 0] (V (Proc.devRef .tc main_arg3)) slices_S3x64_S1x64_0_0) shapeCasts_S1x64_S64) shapeCasts_S64_S1x64)
  rfl

theorem h1_g : after (hostOps1 (F := Ideal)) V (Proc.devRef .tc main_v53) = Spec.lnRow0 (V (Proc.devRef .tc main_arg4)) := by
  after_results_simp
  refine Eq.trans ?_ (row_eq (shapeCast S64 (extractStridedSlice S1x64 ![0, 0] (V (Proc.devRef .tc main_arg4)) slices_S2x64_S1x64_0_0) shapeCasts_S1x64_S64) shapeCasts_S64_S1x64)
  rfl

theorem h1_b : after (hostOps1 (F := Ideal)) V (Proc.devRef .tc main_v56) = Spec.lnRow0 (V (Proc.devRef .tc main_arg5)) := by
  after_results_simp
  refine Eq.trans ?_ (row_eq (shapeCast S64 (extractStridedSlice S1x64 ![0, 0] (V (Proc.devRef .tc main_arg5)) slices_S2x64_S1x64_0_0) shapeCasts_S1x64_S64) shapeCasts_S64_S1x64)
  rfl

/-! ## Layer 2 -/

theorem h2_w : after (hostOps2 (F := Ideal)) V (Proc.devRef .tc main_v59) = Spec.w1 (V (Proc.devRef .tc main_arg2)) := by
  after_results_simp
  rfl

set_option maxHeartbeats 2000000 in
theorem h3_conv : after (hostOps3 (F := Ideal)) V (Proc.devRef .tc main_v73)
    = Spec.convOf (V (Proc.devRef .tc main_v60)) (V (Proc.devRef .tc main_v3)) (V (Proc.devRef .tc main_v6)) (V (Proc.devRef .tc main_v31)) := by
  after_results_simp
  rfl

theorem h3_bias : after (hostOps3 (F := Ideal)) V (Proc.devRef .tc main_v76) = Spec.bias1 (V (Proc.devRef .tc main_arg3)) := by
  after_results_simp
  refine Eq.trans ?_ (row_eq (shapeCast S64 (extractStridedSlice S1x64 ![1, 0] (V (Proc.devRef .tc main_arg3)) slices_S3x64_S1x64_1_0) shapeCasts_S1x64_S64) shapeCasts_S64_S1x64)
  rfl

theorem h3_g : after (hostOps3 (F := Ideal)) V (Proc.devRef .tc main_v79) = Spec.lnRow1 (V (Proc.devRef .tc main_arg4)) := by
  after_results_simp
  refine Eq.trans ?_ (row_eq (shapeCast S64 (extractStridedSlice S1x64 ![1, 0] (V (Proc.devRef .tc main_arg4)) slices_S2x64_S1x64_1_0) shapeCasts_S1x64_S64) shapeCasts_S64_S1x64)
  rfl

theorem h3_b : after (hostOps3 (F := Ideal)) V (Proc.devRef .tc main_v82) = Spec.lnRow1 (V (Proc.devRef .tc main_arg5)) := by
  after_results_simp
  refine Eq.trans ?_ (row_eq (shapeCast S64 (extractStridedSlice S1x64 ![1, 0] (V (Proc.devRef .tc main_arg5)) slices_S2x64_S1x64_1_0) shapeCasts_S1x64_S64) shapeCasts_S64_S1x64)
  rfl

/-! ## Layer 3 -/

theorem h4_w : after (hostOps4 (F := Ideal)) V (Proc.devRef .tc main_v85) = Spec.w2 (V (Proc.devRef .tc main_arg2)) := by
  after_results_simp
  rfl

set_option maxHeartbeats 2000000 in
theorem h5_conv : after (hostOps5 (F := Ideal)) V (Proc.devRef .tc main_v99)
    = Spec.convOf (V (Proc.devRef .tc main_v86)) (V (Proc.devRef .tc main_v3)) (V (Proc.devRef .tc main_v6)) (V (Proc.devRef .tc main_v31)) := by
  after_results_simp
  rfl

theorem h5_bias : after (hostOps5 (F := Ideal)) V (Proc.devRef .tc main_v102) = Spec.bias2 (V (Proc.devRef .tc main_arg3)) := by
  after_results_simp
  refine Eq.trans ?_ (row_eq (shapeCast S64 (extractStridedSlice S1x64 ![2, 0] (V (Proc.devRef .tc main_arg3)) slices_S3x64_S1x64_2_0) shapeCasts_S1x64_S64) shapeCasts_S64_S1x64)
  rfl

end Cert.KHost

end
-- ==== Proof.LibPlainDot.lean ====
/-
  The product of an [M, K] matrix with a [K, N] matrix, contracted on the left operand's second axis and the right
  operand's first, read at an output index. Independent of any program.

  With no batch axis the contraction index has one coordinate, running over the K shared positions; at the output index
  (p, q) the left operand is read at (p, k) and the right at (k, q). So the contraction's sum over its own index type is
  the familiar sum over k of l (p, k) · r (k, q).
-/
import Idealize.ShloMosaic.Lib.ValueIdx
import Idealize.ShloMosaic.PureOps.Ideal
import Idealize.ShloMosaic.PureOps.Ideal.Laws

noncomputable section

namespace Cert.Lib

open Idealize.ShloMosaic Idealize.ShloMosaic.ValueIdx

/-- The dimension numbers of a plain matrix product [M, K] × [K, N] → [M, N]. -/
abbrev plainDot (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- THE CONTRACTION AS A SUM OVER k: at the output index (p, q) the product's terms are l (p, k) · r (k, q). -/
theorem plainDot_sum {M K N : Nat}
    (wf : DotDims.WF ⟨2, ![M, K]⟩ ⟨2, ![K, N]⟩ ⟨2, ![M, N]⟩ [1] [0] [0] [1] [] [])
    (l : (⟨2, ![M, K]⟩ : Shape).Idx → EReal) (r : (⟨2, ![K, N]⟩ : Shape).Idx → EReal) (p : Fin M) (q : Fin N) :
    ∑ k : (plainDot M K N wf).contr.Idx,
        l ((plainDot M K N wf).lhsIdx (ix2 p q) k) * r ((plainDot M K N wf).rhsIdx (ix2 p q) k)
      = ∑ k : Fin K, l (ix2 p k) * r (ix2 k q) := by
  rw [← Equiv.sum_comp (contrEquiv1 (plainDot M K N wf) K rfl rfl).symm]
  refine Finset.sum_congr rfl fun k _ => ?_
  have hk := contrEquiv1_symm_val (plainDot M K N wf) K rfl rfl k
  have el : (plainDot M K N wf).lhsIdx (ix2 p q) ((contrEquiv1 (plainDot M K N wf) K rfl rfl).symm k) = ix2 p k :=
    funext fun a => Fin.ext (by
      match a with
      | ⟨0, _⟩ =>
        show ((plainDot M K N wf).lhsIdx (ix2 p q) ((contrEquiv1 (plainDot M K N wf) K rfl rfl).symm k) 0).val = p.val
        unfold DotDims.lhsIdx
        rw [dif_neg (show ¬ (0 : Fin 2) ∈ ([] : List (Fin 2)) from List.not_mem_nil),
          dif_pos (show (0 : Fin 2) ∈ ([0] : List (Fin 2)) from List.mem_singleton.mpr rfl)]
        rfl
      | ⟨1, _⟩ => exact ((plainDot M K N wf).lhsIdx_val_of_single rfl (ix2 p q) _).trans hk)
  have er : (plainDot M K N wf).rhsIdx (ix2 p q) ((contrEquiv1 (plainDot M K N wf) K rfl rfl).symm k) = ix2 k q :=
    funext fun a => Fin.ext (by
      match a with
      | ⟨0, _⟩ => exact ((plainDot M K N wf).rhsIdx_val_of_single rfl (ix2 p q) _).trans hk
      | ⟨1, _⟩ =>
        show ((plainDot M K N wf).rhsIdx (ix2 p q) ((contrEquiv1 (plainDot M K N wf) K rfl rfl).symm k) 1).val = q.val
        unfold DotDims.rhsIdx
        rw [dif_neg (show ¬ (1 : Fin 2) ∈ ([] : List (Fin 2)) from List.not_mem_nil),
          dif_pos (show (1 : Fin 2) ∈ ([1] : List (Fin 2)) from List.mem_singleton.mpr rfl)]
        rfl)
  rw [el, er]

/-- A kernel's matrix product into a zero accumulator, at (p, q). -/
theorem matmul_zero_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (plainDot M K N wf) prec l r (constant (F := Ideal) ⟨2, ![M, N]⟩ .f32 0x00000000#32) (ix2 p q)
      = ∑ k : Fin K, l (ix2 p k) * r (ix2 k q) := by
  rw [Ideal.matmul_constant_zero_apply]
  exact plainDot_sum wf l r p q

/-- The host's matrix product, at (p, q). -/
theorem dotGeneral_plain_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule) (l : FVec Ideal ⟨2, ![M, K]⟩ φ₁) (r : FVec Ideal ⟨2, ![K, N]⟩ φ₂)
    (p : Fin M) (q : Fin N) :
    FloatOps.dotGeneral (plainDot M K N wf) prec sched l r (ix2 p q)
      = ∑ k : Fin K, l (ix2 p k) * r (ix2 k q) := by
  rw [Ideal.dotGeneral_apply]
  exact plainDot_sum wf l r p q

end Cert.Lib

end
-- ==== Proof.KPayloadMM.lean ====
/-
  What the product bodies store, read at one entry of a block: the sum over k of x (p, k) · w (k, q).
-/
import proofs.«151697_j9594956939369_2_alg».proof.Proof.Gen.KernelIdeal.Skeleton
import proofs.«151697_j9594956939369_2_alg».proof.Proof.LibPlainDot
import Idealize.ShloMosaic.Lib.Pipeline.Value

noncomputable section

namespace Cert.KPayload

open Idealize.ShloMosaic Idealize.ShloMosaic.ValueIdx Cert.KernelIdeal Cert.KernelIdeal.Facts₀ Cert.KernelIdeal.Gen

/-- The product body's entry (p, q) of a block of 10000 rows (region 0): the two roundings are the identity on the extended reals. -/
theorem pay_mm0 (x0 : Vec Ideal S10000x64 .f32) (x1 : Vec Ideal S64x64 .f32) (p : Fin 10000) (q : Fin 64) :
    k0_pay1 (F := Ideal) x0 x1 (ix2 p q) = ∑ k : Fin 64, x0 (ix2 p k) * x1 (ix2 k q) := by
  unfold k0_pay1
  refine (Cert.Lib.matmul_zero_apply Facts₀.dot_S10000x64_S64x64_S10000x64_1_0_0_1_n_n_wf none _ _ p q).trans ?_
  simp only [truncf, Ideal.truncf_def, shapeCast_self]

/-- The product body's entry (p, q) of a block of 10000 rows (region 2): the two roundings are the identity on the extended reals. -/
theorem pay_mm2 (x0 : Vec Ideal S10000x64 .f32) (x1 : Vec Ideal S64x64 .f32) (p : Fin 10000) (q : Fin 64) :
    k2_pay1 (F := Ideal) x0 x1 (ix2 p q) = ∑ k : Fin 64, x0 (ix2 p k) * x1 (ix2 k q) := by
  unfold k2_pay1
  refine (Cert.Lib.matmul_zero_apply Facts₀.dot_S10000x64_S64x64_S10000x64_1_0_0_1_n_n_wf none _ _ p q).trans ?_
  simp only [truncf, Ideal.truncf_def, shapeCast_self]

/-- The product body's entry (p, q) of a block of 10000 rows (region 4): the two roundings are the identity on the extended reals. -/
theorem pay_mm4 (x0 : Vec Ideal S10000x64 .f32) (x1 : Vec Ideal S64x64 .f32) (p : Fin 10000) (q : Fin 64) :
    k4_pay1 (F := Ideal) x0 x1 (ix2 p q) = ∑ k : Fin 64, x0 (ix2 p k) * x1 (ix2 k q) := by
  unfold k4_pay1
  refine (Cert.Lib.matmul_zero_apply Facts₀.dot_S10000x64_S64x64_S10000x64_1_0_0_1_n_n_wf none _ _ p q).trans ?_
  simp only [truncf, Ideal.truncf_def, shapeCast_self]

end Cert.KPayload

end
-- ==== Proof.LibRsqrtDiv.lean ====
/-
  Multiplying by a reciprocal square root against dividing by a square root, over the extended reals.

  `d * rsqrt v = d / sqrt v` (`Ideal.div d (Ideal.sqrt v)`) for every `d` whenever `0 < v` — also at `v = +∞`, where both
  sides are `d · 0`; it fails at `v = 0`, at negative `v` and at `-∞`. The usual `v` is a variance plus a positive
  `ε`: a product `d · d` is never negative on the extended reals (`(±∞)·(±∞) = +∞`), so `(Σ_k d_k · d_k) / n + ε > 0` for
  any real `n > 0` and any `ε > 0`, whatever the `d_k` are (no finiteness needed). Also here: the f32 words of 64.0, +0.0 and
  of the float nearest 1e-5 (a layer normalisation's usual ε) as extended reals.
-/
import Idealize.ShloMosaic.PureOps.Ideal

noncomputable section

namespace Cert.RowLaw

open Idealize.ShloMosaic

/-- The f32 word of `64.0` denotes the real 64. -/
theorem ofBits_64 : Ideal.ofBits .f32 0x42800000#32 = ((64 : ℝ) : EReal) := by
  simp [Ideal.ofBits, Ideal.ieee, -EReal.coe_mul]; norm_num

/-- The f32 word of `+0.0` denotes 0. -/
theorem ofBits_zero : Ideal.ofBits .f32 0x00000000#32 = 0 := by
  simp [Ideal.ofBits, Ideal.ieee]

/-- The f32 word nearest to `1e-5` denotes a positive number. -/
theorem eps_pos : (0 : EReal) < Ideal.ofBits .f32 0x3727C5AC#32 := by
  simp [Ideal.ofBits, Ideal.ieee, -EReal.coe_mul]

/-- A square is never negative on the extended reals. -/
theorem mul_self_nonneg (d : EReal) : 0 ≤ d * d := by
  induction d using EReal.rec with
  | bot => simp
  | top => simp
  | coe r => rw [← EReal.coe_mul]; exact_mod_cast _root_.mul_self_nonneg r

/-- The n-th part of a sum of squares, plus a positive `ε`, is positive. -/
theorem var_eps_pos {ι : Type} [Fintype ι] (d : ι → EReal) (e : EReal) (he : 0 < e) (n : ℝ) (hn : 0 < n) :
    0 < Ideal.div (∑ k, d k * d k) (n : EReal) + e := by
  rw [Ideal.div_coe hn.ne']
  have h1 : (0 : EReal) ≤ ((1 / n : ℝ) : EReal) := by exact_mod_cast (one_div_pos.mpr hn).le
  exact he.trans_le (le_add_of_nonneg_left (EReal.mul_nonneg (Finset.sum_nonneg fun k _ => mul_self_nonneg (d k)) h1))

/-- At every positive `v`, multiplying by `rsqrt v` is dividing by `sqrt v`. -/
theorem mul_rsqrt_eq_div_sqrt (d v : EReal) (hv : 0 < v) : d * Ideal.rsqrt v = Ideal.div d (Ideal.sqrt v) := by
  induction v using EReal.rec with
  | bot => exact absurd hv (by simp)
  | top => simp [Ideal.div]
  | coe r =>
    have hr : 0 < r := by exact_mod_cast hv
    have hs : Real.sqrt r ≠ 0 := (Real.sqrt_pos.mpr hr).ne'
    rw [Ideal.rsqrt_coe, Ideal.sqrt_coe, if_neg (not_lt.mpr hr.le), if_neg hr.ne', if_neg (not_lt.mpr hr.le),
      Ideal.div_coe hs, one_div]

end Cert.RowLaw

end
-- ==== Proof.LibHostRowSum.lean ====
/-
  The host's sum of each row of an [a, b] matrix (a one-operand reduce with an add body over axis 1), read at a row on the
  extended reals: the initial value's one element plus the sum over k of the matrix at (p, k). Any a, b, any float format.
-/
import Idealize.ShloMosaic.Lib.ValueIdx
import Idealize.ShloMosaic.PureOps.Ideal
import Idealize.ShloMosaic.PureOps.Ideal.Laws

noncomputable section

namespace Cert.Lib

open Idealize.ShloMosaic Idealize.ShloMosaic.ValueIdx

/-- HOST ROW SUMS: at row p, the initial value plus the sum over k of the matrix at (p, k). -/
theorem hostRowSum_apply {a b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduceAdd x init h' hu (ix1 p) = init (Shape.Idx.first hu) + ∑ k : Fin b, x (ix2 p k) := by
  simp only [Host.reduceAdd, Ideal.hostReduceAdd_def]
  rw [Ideal.hostReduceAdd_single h' h]
  refine congrArg (_ + ·) (Finset.sum_congr rfl fun k _ => ?_)
  exact congrArg x (funext fun c => Fin.ext (by match c with | ⟨0, _⟩ => rfl | ⟨1, _⟩ => rfl))

end Cert.Lib

end
-- ==== Proof.SpecRead.lean ====
/-
  The layer's whole-array functions read at one entry (P, q) of the [N, 64] arrays.

  Every function of the specification is pointwise except three: the matrix product (entry (P, q) is the sum over k of
  x (P, k) · w (k, q)), the row mean and the row variance (entry P of the column is a sum over the 64 entries of row P).
  Reading them at an index turns the arrays into the 64 numbers of one row, where the two programs are compared.
-/
import proofs.«151697_j9594956939369_2_alg».proof.Proof.Spec
import proofs.«151697_j9594956939369_2_alg».proof.Proof.LibRsqrtDiv
import proofs.«151697_j9594956939369_2_alg».proof.Proof.LibHostRowSum
import proofs.«151697_j9594956939369_2_alg».proof.Proof.LibPlainDot
import Idealize.ShloMosaic.Lib.Pipeline.Value
import Idealize.ShloMosaic.Lib.ValueIdx
import Idealize.ShloMosaic.Lib.IdealHost

noncomputable section

namespace Cert.Spec

open Idealize.ShloMosaic Idealize.ShloMosaic.ValueIdx Cert.ReferenceIdeal Cert.ReferenceIdeal.Facts₀

/-- The row mean of the 64 numbers `r`. -/
def mean64 (r : Fin 64 → EReal) : EReal := Ideal.div (∑ k, r k) ((64 : ℝ) : EReal)

/-- The row variance of the 64 numbers `r`: the mean of the squared deviations from the mean. -/
def var64 (r : Fin 64 → EReal) : EReal :=
  Ideal.div (∑ k, (r k - mean64 r) * (r k - mean64 r)) ((64 : ℝ) : EReal)

/-- One entry of the normalised row, as the reference spells it: a division by the square root. -/
def lnEntry (r : Fin 64 → EReal) (q : Fin 64) (g b : EReal) : EReal :=
  Ideal.div (r q - mean64 r) (Ideal.sqrt (var64 r + Ideal.ofBits .f32 0x3727C5AC#32)) * g + b

theorem spreadRow_apply (v : Row) (P : Fin 100000) (q : Fin 64) : spreadRow v (ix2 P q) = v (ix2 (0 : Fin 1) q) := by
  unfold spreadRow
  exact broadcastInDim_apply _ _ v (ix2 P q) (ix2 (0 : Fin 1) q) (fun a => by match a with | ⟨0, _⟩ => rfl | ⟨1, _⟩ => rfl)

theorem spreadCol_apply (v : FVec Ideal S100000x1 .f32) (P : Fin 100000) (q : Fin 64) :
    spreadCol v (ix2 P q) = v (ix2 P (0 : Fin 1)) := by
  unfold spreadCol
  exact broadcastInDim_apply _ _ v (ix2 P q) (ix2 P (0 : Fin 1)) (fun a => by match a with | ⟨0, _⟩ => rfl | ⟨1, _⟩ => rfl)

theorem scalarMat_apply (x : FVec Ideal S_ .f32) (i : S100000x64.Idx) :
    broadcastInDim S100000x64 ![] bcast_S_S100000x64 x i = x ix0 := broadcastInDim_scalar_apply _ x i

theorem scalarCol_apply {α : Type} (x : S_.Idx → α) (i : S100000x1.Idx) :
    broadcastInDim S100000x1 ![] bcast_S_S100000x1 x i = x ix0 := broadcastInDim_scalar_apply _ x i

theorem embOf_apply (x conv : Mat) (bias : Row) (P : Fin 100000) (q : Fin 64) :
    embOf x conv bias (ix2 P q) = x (ix2 P q) + (conv (ix2 P q) + bias (ix2 (0 : Fin 1) q)) := by
  simp only [embOf, addf, Ideal.addf_def, spreadRow_apply]

theorem reluOf_apply (e : Mat) (i : S100000x64.Idx) : reluOf e i = max (e i) 0 := by
  simp only [reluOf, maximumf, Ideal.maximumf_def]
  rw [scalarMat_apply]
  simp only [constant, Ideal.ofBits_def, RowLaw.ofBits_zero]

theorem rowSumCol_apply (r : Mat) (P : Fin 100000) : rowSumCol r (ix2 P (0 : Fin 1)) = ∑ k : Fin 64, r (ix2 P k) := by
  unfold rowSumCol
  rw [broadcastInDim_apply _ _ _ (ix2 P (0 : Fin 1)) (ix1 P) (fun a => by match a with | ⟨0, _⟩ => rfl)]
  rw [Cert.Lib.hostRowSum_apply r _ reducesTo_S100000x64_S100000_d1 (by decide) h_S_ P]
  simp only [constant, Ideal.ofBits_def, RowLaw.ofBits_zero, zero_add]

theorem meanCol_apply (r : Mat) (P : Fin 100000) : meanCol r (ix2 P (0 : Fin 1)) = mean64 fun k => r (ix2 P k) := by
  simp only [meanCol, Host.divf, Ideal.hostDivf_def, rowSumCol_apply]
  rw [scalarCol_apply]
  simp only [constant, Ideal.ofBits_def, RowLaw.ofBits_64, mean64]

theorem varDiv_apply : varDiv ix0 = ((64 : ℝ) : EReal) := by
  simp only [varDiv, subf, constant, sitofp, constantI, Ideal.subf_def, Ideal.ofBits_def, RowLaw.ofBits_64]
  show ((64 : ℝ) : EReal) - (((0#32 : BitVec 32).toInt : ℝ) : EReal) = _
  simp

theorem varCol_apply (r : Mat) (P : Fin 100000) : varCol r (ix2 P (0 : Fin 1)) = var64 fun k => r (ix2 P k) := by
  have hsel : (broadcastInDim S100000x1 ![] bcast_S_S100000x1 (cmpf .ogt varDiv (constant (F := Ideal) S_ .f32 0x00000000#32)))
      (ix2 P (0 : Fin 1)) = 1#1 := by
    rw [scalarCol_apply]
    simp only [cmpf, constant, Ideal.ofBits_def, RowLaw.ofBits_zero, varDiv_apply]
    show Ideal.cmp .ogt ((64 : ℝ) : EReal) 0 = 1#1
    simp [Ideal.cmp]
  unfold varCol
  simp only [select]
  rw [hsel]
  simp only [Scalar.select]
  rw [if_pos (by decide : (1#1 : BitVec 1) = 1)]
  simp only [Host.divf, Ideal.hostDivf_def, rowSumCol_apply, mulf, subf, Ideal.mulf_def, Ideal.subf_def, spreadCol_apply, meanCol_apply]
  rw [scalarCol_apply, varDiv_apply]
  rfl

theorem lnOf_apply (r : Mat) (g b : Row) (P : Fin 100000) (q : Fin 64) :
    lnOf r g b (ix2 P q) = lnEntry (fun k => r (ix2 P k)) q (g (ix2 (0 : Fin 1) q)) (b (ix2 (0 : Fin 1) q)) := by
  simp only [lnOf, addf, mulf, subf, Host.divf, Host.sqrt, Ideal.addf_def, Ideal.mulf_def, Ideal.subf_def, Ideal.hostDivf_def,
    Ideal.hostUnary_sqrt_def, spreadRow_apply, spreadCol_apply, meanCol_apply, varCol_apply]
  rw [scalarCol_apply]
  simp only [constant, Ideal.ofBits_def, lnEntry]

/-- One entry of the normalised row, as the kernel spells it: a product with the reciprocal square root. -/
def lnEntryK (r : Fin 64 → EReal) (q : Fin 64) (g b : EReal) : EReal :=
  ((r q - mean64 r) * Ideal.rsqrt (var64 r + Ideal.ofBits .f32 0x3727C5AC#32)) * g + b

/-- The two spellings agree: the variance plus `ε` is positive, where multiplying by `rsqrt` is dividing by `sqrt`. -/
theorem lnEntryK_eq (r : Fin 64 → EReal) (q : Fin 64) (g b : EReal) : lnEntryK r q g b = lnEntry r q g b := by
  unfold lnEntryK lnEntry
  exact congrArg (· * g + b)
    (RowLaw.mul_rsqrt_eq_div_sqrt (r q - mean64 r) _ (RowLaw.var_eps_pos (fun k => r k - mean64 r) _ RowLaw.eps_pos 64 (by norm_num)))

theorem hOf_apply (x : Mat) (w : FVec Ideal S64x64 .f32) (P : Fin 100000) (q : Fin 64) :
    hOf x w (ix2 P q) = ∑ k : Fin 64, x (ix2 P k) * w (ix2 k q) := by
  unfold hOf
  simp only [Host.dotGeneral]
  exact Cert.Lib.dotGeneral_plain_apply dot_S100000x64_S64x64_S100000x64_1_0_0_1_n_n_wf _ _ x w P q

end Cert.Spec

end
-- ==== Proof.KRegion0.lean ====
/-
  Region 0 (the per-node linear map over row tiles), from blocks to the whole array.

  The grid has 10 points; point t takes rows 10000·t … 10000·t + 9999 of the feature array and the whole [64, 64] weight and
  stores their product, so each output block is the restriction of `x · w` to those rows; the 10 blocks cover the array.
-/
import proofs.«151697_j9594956939369_2_alg».proof.Proof.Gen.KernelIdeal.Frame
import proofs.«151697_j9594956939369_2_alg».proof.Proof.KPayloadMM
import proofs.«151697_j9594956939369_2_alg».proof.Proof.SpecRead
import Idealize.ShloMosaic.Lib.Pipeline.Value

set_option maxRecDepth 16384

noncomputable section

namespace Cert.KRegion0

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Facts₀ Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 10 points: the row-tiled windows sit at block (t, 0), the weight at (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The array row that row p of block t is. -/
def gRow (t : Fin cfg0.N) (p : Fin 10000) : Fin 100000 :=
  ⟨t.val * 10000 + p.val, by have := t.isLt; have hN : cfg0.N = 10 := N_0; have := p.isLt; omega⟩

theorem emb0 (t : Fin cfg0.N) (p : Fin 10000) (k : Fin 64) :
    ((cfg0.win 0).blk t).view.emb (ix2 p k) = ix2 (gRow t p) k := by
  obtain ⟨e00, e01, e10, e11, e20, e21⟩ := idx_facts t
  funext a; apply Fin.ext
  match a with
  | ⟨0, _⟩ => show win0_0.index t (0 : Fin 2) * 10000 + 1 * p.val = t.val * 10000 + p.val; omega
  | ⟨1, _⟩ => show win0_0.index t (1 : Fin 2) * 64 + 1 * k.val = k.val; omega

theorem emb2 (t : Fin cfg0.N) (p : Fin 10000) (k : Fin 64) :
    ((cfg0.win 2).blk t).view.emb (ix2 p k) = ix2 (gRow t p) k := by
  obtain ⟨e00, e01, e10, e11, e20, e21⟩ := idx_facts t
  funext a; apply Fin.ext
  match a with
  | ⟨0, _⟩ => show win0_2.index t (0 : Fin 2) * 10000 + 1 * p.val = t.val * 10000 + p.val; omega
  | ⟨1, _⟩ => show win0_2.index t (1 : Fin 2) * 64 + 1 * k.val = k.val; omega

theorem emb1 (t : Fin cfg0.N) (k q : Fin 64) :
    ((cfg0.win 1).blk t).view.emb (ix2 k q) = ix2 k q := by
  obtain ⟨e00, e01, e10, e11, e20, e21⟩ := idx_facts t
  funext a; apply Fin.ext
  match a with
  | ⟨0, _⟩ => show win0_1.index t (0 : Fin 2) * 64 + 1 * k.val = k.val; omega
  | ⟨1, _⟩ => show win0_1.index t (1 : Fin 2) * 64 + 1 * q.val = q.val; omega

theorem blk0 (c : Dev nD) (t : Fin cfg0.N) (p : Fin 10000) (k : Fin 64) :
    iblk0 V c 0 t (ix2 p k) = V c (Pipeline.arrRef spec0 0) (ix2 (gRow t p) k) := by
  show V c (Pipeline.arrRef spec0 0) (((cfg0.win 0).blk t).view.emb (ix2 p k)) = _
  rw [emb0]

theorem blk1 (c : Dev nD) (t : Fin cfg0.N) (k q : Fin 64) :
    iblk0 V c 1 t (ix2 k q) = V c (Pipeline.arrRef spec0 1) (ix2 k q) := by
  show V c (Pipeline.arrRef spec0 1) (((cfg0.win 1).blk t).view.emb (ix2 k q)) = _
  rw [emb1]

/-- The product the region computes, as one function of the arrays it found. -/
abbrev G2 (c : Dev nD) : Spec.Mat := Spec.hOf (V c (Pipeline.arrRef spec0 0)) (V c (Pipeline.arrRef spec0 1))

/-- What point t writes back is block t of the product. -/
theorem flushed2 (c : Dev nD) (t : Fin cfg0.N) :
    (dat0 V c).flushed 2 t = ((cfg0.win 2).blk t).view.read (Elt Ideal) (G2 V c) := by
  show (cfg0.win 2).cut (grid0.coords t) ((dat0 V c).after 2 t) = _
  rw [after0_2]
  unfold out0_2
  rw [View.canon_unit_zero hz]
  simp only [View.ld_unit_zero (S := S10000x64) hz, View.ld_unit_zero (S := S64x64) hz]
  funext j
  obtain ⟨p, q, rfl⟩ : ∃ (p : Fin 10000) (q : Fin 64), j = ix2 p q := ⟨j 0, j 1, eq_ix2 j⟩
  show k0_pay1 (F := Ideal) (iblk0 V c 0 t) (iblk0 V c 1 t) (ix2 p q) = G2 V c (((cfg0.win 2).blk t).view.emb (ix2 p q))
  rw [emb2]
  refine (KPayload.pay_mm0 _ _ p q).trans ?_
  unfold G2
  rw [Spec.hOf_apply]
  exact Finset.sum_congr rfl fun k _ => by rw [blk0 V c t p k, blk1 V c t k q]

theorem mem_blk2 (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v34).slice (win0_2.rect t)).set ↔ _
  rw [View.set_slice_whole, Rect.mem_set_unit]
  exact Iff.rfl

/-- Every entry of the array lies in the block of the point its row belongs to. -/
theorem cover2 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 10 := N_0
  have ht : (i 0).val / 10000 < cfg0.N := by omega
  obtain ⟨e00, e01, e10, e11, e20, e21⟩ := idx_facts ⟨(i 0).val / 10000, ht⟩
  refine ⟨⟨(i 0).val / 10000, ht⟩, flush0_2 _, ?_⟩
  rw [mem_blk2]
  intro a
  match a with
  | ⟨0, _⟩ =>
    show win0_2.index ⟨(i 0).val / 10000, ht⟩ (0 : Fin 2) * 10000 ≤ (i 0).val ∧ (i 0).val < win0_2.index ⟨(i 0).val / 10000, ht⟩ (0 : Fin 2) * 10000 + 10000
    rw [e20]; show (i 0).val / 10000 * 10000 ≤ (i 0).val ∧ (i 0).val < (i 0).val / 10000 * 10000 + 10000; omega
  | ⟨1, _⟩ =>
    show win0_2.index ⟨(i 0).val / 10000, ht⟩ (1 : Fin 2) * 64 ≤ (i 1).val ∧ (i 1).val < win0_2.index ⟨(i 0).val / 10000, ht⟩ (1 : Fin 2) * 64 + 64
    rw [e21]; omega

/-- After the region the output array is the product of the arrays the region found. -/
theorem final2 (c : Dev nD) : (dat0 V c).arrAt 2 cfg0.N = G2 V c :=
  (dat0 V c).arrAt_eq_of_cover 2 (G2 V c) (fun t _ => flushed2 V c t) cover2

end Cert.KRegion0

end
-- ==== Proof.LibAxisSums.lean ====
/-
  The sum of a matrix along one of its two axes, read at an index. Independent of any program.

  A float add-reduction of an [a, b] matrix over its second axis leaves an [a] vector whose entry p is the sum over
  k : Fin b of the matrix at (p, k) — a row sum; over its first axis it leaves a [b] vector whose entry q is the sum
  over k : Fin a of the matrix at (k, q) — a column sum. Over the extended reals the reduction's neutral start value
  contributes nothing, so each is the plain finite sum.
-/
import Idealize.ShloMosaic.Lib.ValueIdx
import Idealize.ShloMosaic.PureOps.Ideal
import Idealize.ShloMosaic.PureOps.Ideal.Laws

noncomputable section

namespace Cert.Lib

open Idealize.ShloMosaic Idealize.ShloMosaic.ValueIdx

/-- ROW SUMS: an add-reduction of an [a, b] matrix over axis 1, at row p, is the sum over k of the matrix at (p, k). -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src (funext fun c => Fin.ext ?_)
  match c with
  | ⟨0, _⟩ => rfl
  | ⟨1, _⟩ => rfl

/-- COLUMN SUMS: an add-reduction of an [a, b] matrix over axis 0, at column q, is the sum over k of the matrix at (k, q). -/
theorem colSum_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (q : Fin b) :
    multiReduction .add [0] ⟨1, ![b]⟩ src acc h hφ hacc (ix1 q) = ∑ k : Fin a, src (ix2 k q) := by
  refine (Ideal.multiReduction_add_single src acc h hφ hacc (ix1 q)).trans ?_
  refine Finset.sum_congr rfl fun k _ => congrArg src (funext fun c => Fin.ext ?_)
  match c with
  | ⟨0, _⟩ => rfl
  | ⟨1, _⟩ => rfl

end Cert.Lib

end
-- ==== Proof.LibColumnBroadcast.lean ====
/-
  A column broadcast over the columns: a [a, 1] array broadcast to [a, b] reads, at (p, c), the operand's row p.
-/
import Idealize.ShloMosaic.Lib.Pipeline.Value
import Idealize.ShloMosaic.Lib.ValueIdx

noncomputable section

namespace Cert.Lib

open Idealize.ShloMosaic Idealize.ShloMosaic.ValueIdx

variable {α : Type}

/-- A `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib

end
-- ==== Proof.LibColumnCast.lean ====
/-
  A vector as a column: an [a] array cast to [a, 1] reads, at (i, 0), the operand at i.
-/
import Idealize.ShloMosaic.Lib.Pipeline.Value
import Idealize.ShloMosaic.Lib.ValueIdx

noncomputable section

namespace Cert.Lib

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.Lib

end
-- ==== Proof.KPayload.lean ====
/-
  What the kernel bodies store, read at one entry of a block.

  The update body with normalisation works on a block of 5000 whole rows: at entry (p, q) of the block it stores
  `(x + conv) + bias` in its first output and, in its second, the normalised rectified row — the row's mean and variance
  are lane sums over the block's own 64 columns, so they are sums over the whole row of the array. The product body
  stores, at (p, q) of a block of 10000 rows, the sum over k of x (p, k) · w (k, q); its roundings of the two factors to a
  shorter format are the identity on the extended reals.
-/
import proofs.«151697_j9594956939369_2_alg».proof.Proof.Gen.KernelIdeal.Skeleton
import proofs.«151697_j9594956939369_2_alg».proof.Proof.SpecRead
import proofs.«151697_j9594956939369_2_alg».proof.Proof.LibAxisSums
import proofs.«151697_j9594956939369_2_alg».proof.Proof.LibColumnBroadcast
import proofs.«151697_j9594956939369_2_alg».proof.Proof.LibColumnCast
import Idealize.ShloMosaic.Lib.ValueLayout

noncomputable section

namespace Cert.KPayload

open Idealize.ShloMosaic Idealize.ShloMosaic.ValueIdx Cert.KernelIdeal Cert.KernelIdeal.Facts₀ Cert.KernelIdeal.Gen

/-- A lane sum of a block of 5000 rows, at row p. -/
theorem rowSum5000 (src : FVec Ideal S5000x64 .f32) (h : S5000x64.Reduces [1] S5000) (hφ : FKind.Formats .f32)
    (hacc : (0x00000000#32 : BitVec 32) = 0x00000000#32) (p : Fin 5000) :
    multiReduction .add [1] S5000 src 0x00000000#32 h hφ hacc (ix1 p) = ∑ k : Fin 64, src (ix2 p k) :=
  Cert.Lib.rowSum_apply src _ h hφ hacc p

/-- The pre-activation at an entry of the block (region 1). -/
theorem pay_emb1 (x0 x1 : Vec Ideal S5000x64 .f32) (x4 : Vec Ideal S1x64 .f32) (p : Fin 5000) (q : Fin 64) :
    k1_pay1 (F := Ideal) x0 x1 x4 (ix2 p q) = (x0 (ix2 p q) + x1 (ix2 p q)) + x4 (ix2 (0 : Fin 1) q) := by
  simp only [k1_pay1, addf, Ideal.addf_def, shapeCast_self, broadcastTo_1b_ab_apply]

/-- The normalised entry of the block, over the rectified row of pre-activations (region 1). -/
theorem pay_ln1 (x0 x1 : Vec Ideal S5000x64 .f32) (x4 x27 x31 : Vec Ideal S1x64 .f32) (p : Fin 5000) (q : Fin 64) :
    k1_pay2 (F := Ideal) x0 x1 x4 x27 x31 (ix2 p q)
      = Spec.lnEntryK (fun k => max (k1_pay1 (F := Ideal) x0 x1 x4 (ix2 p k)) 0) q (x27 (ix2 (0 : Fin 1) q)) (x31 (ix2 (0 : Fin 1) q)) := by
  simp only [k1_pay2, addf, mulf, subf, divf, rsqrt, maximumf, broadcast, Ideal.addf_def, Ideal.mulf_def, Ideal.subf_def, Ideal.divf_def,
    Ideal.rsqrt_def, Ideal.maximumf_def, shapeCast_self, broadcastTo_1b_ab_apply, Cert.Lib.broadcastTo_a1_ab_apply,
    Cert.Lib.shapeCast_a_a1_apply, Ideal.ofBits_def, RowLaw.ofBits_zero, RowLaw.ofBits_64]
  rw [rowSum5000]
  rw [rowSum5000]
  simp only [addf, mulf, subf, divf, rsqrt, maximumf, broadcast, Ideal.addf_def, Ideal.mulf_def, Ideal.subf_def, Ideal.divf_def,
    Ideal.rsqrt_def, Ideal.maximumf_def, shapeCast_self, broadcastTo_1b_ab_apply, Cert.Lib.broadcastTo_a1_ab_apply,
    Cert.Lib.shapeCast_a_a1_apply, Ideal.ofBits_def, RowLaw.ofBits_zero, RowLaw.ofBits_64]
  rw [rowSum5000]
  simp only [maximumf, broadcast, Ideal.maximumf_def, Spec.lnEntryK, Spec.mean64, Spec.var64]

/-- The pre-activation at an entry of the block (region 3). -/
theorem pay_emb3 (x0 x1 : Vec Ideal S5000x64 .f32) (x4 : Vec Ideal S1x64 .f32) (p : Fin 5000) (q : Fin 64) :
    k3_pay1 (F := Ideal) x0 x1 x4 (ix2 p q) = (x0 (ix2 p q) + x1 (ix2 p q)) + x4 (ix2 (0 : Fin 1) q) := by
  simp only [k3_pay1, addf, Ideal.addf_def, shapeCast_self, broadcastTo_1b_ab_apply]

/-- The normalised entry of the block, over the rectified row of pre-activations (region 3). -/
theorem pay_ln3 (x0 x1 : Vec Ideal S5000x64 .f32) (x4 x27 x31 : Vec Ideal S1x64 .f32) (p : Fin 5000) (q : Fin 64) :
    k3_pay2 (F := Ideal) x0 x1 x4 x27 x31 (ix2 p q)
      = Spec.lnEntryK (fun k => max (k3_pay1 (F := Ideal) x0 x1 x4 (ix2 p k)) 0) q (x27 (ix2 (0 : Fin 1) q)) (x31 (ix2 (0 : Fin 1) q)) := by
  simp only [k3_pay2, addf, mulf, subf, divf, rsqrt, maximumf, broadcast, Ideal.addf_def, Ideal.mulf_def, Ideal.subf_def, Ideal.divf_def,
    Ideal.rsqrt_def, Ideal.maximumf_def, shapeCast_self, broadcastTo_1b_ab_apply, Cert.Lib.broadcastTo_a1_ab_apply,
    Cert.Lib.shapeCast_a_a1_apply, Ideal.ofBits_def, RowLaw.ofBits_zero, RowLaw.ofBits_64]
  rw [rowSum5000]
  rw [rowSum5000]
  simp only [addf, mulf, subf, divf, rsqrt, maximumf, broadcast, Ideal.addf_def, Ideal.mulf_def, Ideal.subf_def, Ideal.divf_def,
    Ideal.rsqrt_def, Ideal.maximumf_def, shapeCast_self, broadcastTo_1b_ab_apply, Cert.Lib.broadcastTo_a1_ab_apply,
    Cert.Lib.shapeCast_a_a1_apply, Ideal.ofBits_def, RowLaw.ofBits_zero, RowLaw.ofBits_64]
  rw [rowSum5000]
  simp only [maximumf, broadcast, Ideal.maximumf_def, Spec.lnEntryK, Spec.mean64, Spec.var64]

/-- The pre-activation at an entry of the block (region 5). -/
theorem pay_emb5 (x0 x1 : Vec Ideal S5000x64 .f32) (x4 : Vec Ideal S1x64 .f32) (p : Fin 5000) (q : Fin 64) :
    k5_pay1 (F := Ideal) x0 x1 x4 (ix2 p q) = (x0 (ix2 p q) + x1 (ix2 p q)) + x4 (ix2 (0 : Fin 1) q) := by
  simp only [k5_pay1, addf, Ideal.addf_def, shapeCast_self, broadcastTo_1b_ab_apply]

/-- The rectified entry of the block (region 5). -/
theorem pay_relu5 (x0 x1 : Vec Ideal S5000x64 .f32) (x4 : Vec Ideal S1x64 .f32) (p : Fin 5000) (q : Fin 64) :
    k5_pay2 (F := Ideal) x0 x1 x4 (ix2 p q) = max (k5_pay1 (F := Ideal) x0 x1 x4 (ix2 p q)) 0 := by
  simp only [k5_pay2, maximumf, broadcast, Ideal.maximumf_def, Ideal.ofBits_def, RowLaw.ofBits_zero]

end Cert.KPayload

end
-- ==== Proof.KRegion1.lean ====
/-
  Region 1 (a normalising update over row tiles), from blocks to whole arrays.

  The grid has 20 points; point t works on rows 5000·t … 5000·t + 4999 of the [N, 64] arrays (all 64 columns) and on the
  three [1, 64] parameter rows whole. Each output block is therefore the restriction of one whole-array function to those
  rows — the pre-activation `x + (conv + bias)` for the first output, its rectified and normalised rows for the second —
  and the 20 blocks cover the array, so after the region each output array IS that function of the arrays the region found.
-/
import proofs.«151697_j9594956939369_2_alg».proof.Proof.Gen.KernelIdeal.Frame
import proofs.«151697_j9594956939369_2_alg».proof.Proof.KPayload
import Idealize.ShloMosaic.Lib.Pipeline.Value

set_option maxRecDepth 16384

noncomputable section

namespace Cert.KRegion1

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Facts₀ Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 20 points: the row-tiled windows sit at block (t, 0), the parameter rows at (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0 :=
  (by decide +kernel : ∀ t : Fin grid1.N, _)

/-- The array row that row p of block t is. -/
def gRow (t : Fin cfg1.N) (p : Fin 5000) : Fin 100000 :=
  ⟨t.val * 5000 + p.val, by have := t.isLt; have hN : cfg1.N = 20 := N_1; have := p.isLt; omega⟩

theorem emb0 (t : Fin cfg1.N) (p : Fin 5000) (k : Fin 64) :
    ((cfg1.win 0).blk t).view.emb (ix2 p k) = ix2 (gRow t p) k := by
  obtain ⟨e00, e01, e10, e11, e20, e21, e30, e31, e40, e41, e50, e51, e60, e61⟩ := idx_facts t
  funext a; apply Fin.ext
  match a with
  | ⟨0, _⟩ => show win1_0.index t (0 : Fin 2) * 5000 + 1 * p.val = t.val * 5000 + p.val; omega
  | ⟨1, _⟩ => show win1_0.index t (1 : Fin 2) * 64 + 1 * k.val = k.val; omega

theorem emb1 (t : Fin cfg1.N) (p : Fin 5000) (k : Fin 64) :
    ((cfg1.win 1).blk t).view.emb (ix2 p k) = ix2 (gRow t p) k := by
  obtain ⟨e00, e01, e10, e11, e20, e21, e30, e31, e40, e41, e50, e51, e60, e61⟩ := idx_facts t
  funext a; apply Fin.ext
  match a with
  | ⟨0, _⟩ => show win1_1.index t (0 : Fin 2) * 5000 + 1 * p.val = t.val * 5000 + p.val; omega
  | ⟨1, _⟩ => show win1_1.index t (1 : Fin 2) * 64 + 1 * k.val = k.val; omega

theorem emb5 (t : Fin cfg1.N) (p : Fin 5000) (k : Fin 64) :
    ((cfg1.win 5).blk t).view.emb (ix2 p k) = ix2 (gRow t p) k := by
  obtain ⟨e00, e01, e10, e11, e20, e21, e30, e31, e40, e41, e50, e51, e60, e61⟩ := idx_facts t
  funext a; apply Fin.ext
  match a with
  | ⟨0, _⟩ => show win1_5.index t (0 : Fin 2) * 5000 + 1 * p.val = t.val * 5000 + p.val; omega
  | ⟨1, _⟩ => show win1_5.index t (1 : Fin 2) * 64 + 1 * k.val = k.val; omega

theorem emb6 (t : Fin cfg1.N) (p : Fin 5000) (k : Fin 64) :
    ((cfg1.win 6).blk t).view.emb (ix2 p k) = ix2 (gRow t p) k := by
  obtain ⟨e00, e01, e10, e11, e20, e21, e30, e31, e40, e41, e50, e51, e60, e61⟩ := idx_facts t
  funext a; apply Fin.ext
  match a with
  | ⟨0, _⟩ => show win1_6.index t (0 : Fin 2) * 5000 + 1 * p.val = t.val * 5000 + p.val; omega
  | ⟨1, _⟩ => show win1_6.index t (1 : Fin 2) * 64 + 1 * k.val = k.val; omega

theorem emb2 (t : Fin cfg1.N) (k : Fin 64) :
    ((cfg1.win 2).blk t).view.emb (ix2 (0 : Fin 1) k) = ix2 (0 : Fin 1) k := by
  obtain ⟨e00, e01, e10, e11, e20, e21, e30, e31, e40, e41, e50, e51, e60, e61⟩ := idx_facts t
  funext a; apply Fin.ext
  match a with
  | ⟨0, _⟩ => show win1_2.index t (0 : Fin 2) * 1 + 1 * 0 = 0; omega
  | ⟨1, _⟩ => show win1_2.index t (1 : Fin 2) * 64 + 1 * k.val = k.val; omega

theorem emb3 (t : Fin cfg1.N) (k : Fin 64) :
    ((cfg1.win 3).blk t).view.emb (ix2 (0 : Fin 1) k) = ix2 (0 : Fin 1) k := by
  obtain ⟨e00, e01, e10, e11, e20, e21, e30, e31, e40, e41, e50, e51, e60, e61⟩ := idx_facts t
  funext a; apply Fin.ext
  match a with
  | ⟨0, _⟩ => show win1_3.index t (0 : Fin 2) * 1 + 1 * 0 = 0; omega
  | ⟨1, _⟩ => show win1_3.index t (1 : Fin 2) * 64 + 1 * k.val = k.val; omega

theorem emb4 (t : Fin cfg1.N) (k : Fin 64) :
    ((cfg1.win 4).blk t).view.emb (ix2 (0 : Fin 1) k) = ix2 (0 : Fin 1) k := by
  obtain ⟨e00, e01, e10, e11, e20, e21, e30, e31, e40, e41, e50, e51, e60, e61⟩ := idx_facts t
  funext a; apply Fin.ext
  match a with
  | ⟨0, _⟩ => show win1_4.index t (0 : Fin 2) * 1 + 1 * 0 = 0; omega
  | ⟨1, _⟩ => show win1_4.index t (1 : Fin 2) * 64 + 1 * k.val = k.val; omega

/-- A row-tiled input block read at (p, k) is the array at the global row. -/
theorem blk0 (c : Dev nD) (t : Fin cfg1.N) (p : Fin 5000) (k : Fin 64) :
    iblk1 V c 0 t (ix2 p k) = V c (Pipeline.arrRef spec1 0) (ix2 (gRow t p) k) := by
  show V c (Pipeline.arrRef spec1 0) (((cfg1.win 0).blk t).view.emb (ix2 p k)) = _
  rw [emb0]

theorem blk1 (c : Dev nD) (t : Fin cfg1.N) (p : Fin 5000) (k : Fin 64) :
    iblk1 V c 1 t (ix2 p k) = V c (Pipeline.arrRef spec1 1) (ix2 (gRow t p) k) := by
  show V c (Pipeline.arrRef spec1 1) (((cfg1.win 1).blk t).view.emb (ix2 p k)) = _
  rw [emb1]

/-- A parameter row's block is the row. -/
theorem blk2 (c : Dev nD) (t : Fin cfg1.N) (k : Fin 64) :
    iblk1 V c 2 t (ix2 (0 : Fin 1) k) = V c (Pipeline.arrRef spec1 2) (ix2 (0 : Fin 1) k) := by
  show V c (Pipeline.arrRef spec1 2) (((cfg1.win 2).blk t).view.emb (ix2 (0 : Fin 1) k)) = _
  rw [emb2]

theorem blk3 (c : Dev nD) (t : Fin cfg1.N) (k : Fin 64) :
    iblk1 V c 3 t (ix2 (0 : Fin 1) k) = V c (Pipeline.arrRef spec1 3) (ix2 (0 : Fin 1) k) := by
  show V c (Pipeline.arrRef spec1 3) (((cfg1.win 3).blk t).view.emb (ix2 (0 : Fin 1) k)) = _
  rw [emb3]

theorem blk4 (c : Dev nD) (t : Fin cfg1.N) (k : Fin 64) :
    iblk1 V c 4 t (ix2 (0 : Fin 1) k) = V c (Pipeline.arrRef spec1 4) (ix2 (0 : Fin 1) k) := by
  show V c (Pipeline.arrRef spec1 4) (((cfg1.win 4).blk t).view.emb (ix2 (0 : Fin 1) k)) = _
  rw [emb4]

/-- The pre-activation the region computes, as one function of the arrays it found. -/
abbrev G5 (c : Dev nD) : Spec.Mat :=
  Spec.embOf (V c (Pipeline.arrRef spec1 0)) (V c (Pipeline.arrRef spec1 1)) (V c (Pipeline.arrRef spec1 2))

/-- The normalised output, likewise. -/
abbrev G6 (c : Dev nD) : Spec.Mat :=
  Spec.lnOf (Spec.reluOf (G5 V c)) (V c (Pipeline.arrRef spec1 3)) (V c (Pipeline.arrRef spec1 4))

/-- The body's pre-activation at a block entry is the whole-array one at the global entry. -/
theorem pre_entry (c : Dev nD) (t : Fin cfg1.N) (p : Fin 5000) (k : Fin 64) :
    k1_pay1 (F := Ideal) (iblk1 V c 0 t) (iblk1 V c 1 t) (iblk1 V c 2 t) (ix2 p k) = G5 V c (ix2 (gRow t p) k) := by
  refine (KPayload.pay_emb1 _ _ _ p k).trans ?_
  unfold G5
  rw [blk0 V c t p k, blk1 V c t p k, blk2 V c t k, Spec.embOf_apply, add_assoc]

/-- What point t writes back to the first output is block t of the pre-activation. -/
theorem flushed5 (c : Dev nD) (t : Fin cfg1.N) :
    (dat1 V c).flushed 5 t = ((cfg1.win 5).blk t).view.read (Elt Ideal) (G5 V c) := by
  show (cfg1.win 5).cut (grid1.coords t) ((dat1 V c).after 5 t) = _
  rw [after1_5]
  unfold out1_5
  rw [View.canon_unit_zero hz]
  simp only [View.ld_unit_zero (S := S5000x64) hz, View.ld_unit_zero (S := S1x64) hz]
  funext j
  obtain ⟨p, q, rfl⟩ : ∃ (p : Fin 5000) (q : Fin 64), j = ix2 p q := ⟨j 0, j 1, eq_ix2 j⟩
  show k1_pay1 (F := Ideal) (iblk1 V c 0 t) (iblk1 V c 1 t) (iblk1 V c 2 t) (ix2 p q)
    = G5 V c (((cfg1.win 5).blk t).view.emb (ix2 p q))
  rw [emb5]
  exact pre_entry V c t p q

/-- What point t writes back to the second output is block t of the normalised array. -/
theorem flushed6 (c : Dev nD) (t : Fin cfg1.N) :
    (dat1 V c).flushed 6 t = ((cfg1.win 6).blk t).view.read (Elt Ideal) (G6 V c) := by
  show (cfg1.win 6).cut (grid1.coords t) ((dat1 V c).after 6 t) = _
  rw [after1_6]
  unfold out1_6
  rw [View.canon_unit_zero hz]
  simp only [View.ld_unit_zero (S := S5000x64) hz, View.ld_unit_zero (S := S1x64) hz]
  funext j
  obtain ⟨p, q, rfl⟩ : ∃ (p : Fin 5000) (q : Fin 64), j = ix2 p q := ⟨j 0, j 1, eq_ix2 j⟩
  show k1_pay2 (F := Ideal) (iblk1 V c 0 t) (iblk1 V c 1 t) (iblk1 V c 2 t) (iblk1 V c 3 t) (iblk1 V c 4 t) (ix2 p q)
    = G6 V c (((cfg1.win 6).blk t).view.emb (ix2 p q))
  rw [emb6]
  refine (KPayload.pay_ln1 _ _ _ _ _ p q).trans ?_
  unfold G6
  rw [Spec.lnEntryK_eq, Spec.lnOf_apply, blk3 V c t q, blk4 V c t q]
  refine congrArg (fun r => Spec.lnEntry r q _ _) (funext fun k => ?_)
  rw [Spec.reluOf_apply, pre_entry V c t p k]

theorem mem_blk5 (t : Fin cfg1.N) (i : S100000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v57_0).slice (win1_5.rect t)).set ↔ _
  rw [View.set_slice_whole, Rect.mem_set_unit]
  exact Iff.rfl

/-- Every entry of the array lies in the block of the point its row belongs to. -/
theorem cover5 (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  have hN : cfg1.N = 20 := N_1
  have ht : (i 0).val / 5000 < cfg1.N := by omega
  obtain ⟨e00, e01, e10, e11, e20, e21, e30, e31, e40, e41, e50, e51, e60, e61⟩ := idx_facts ⟨(i 0).val / 5000, ht⟩
  refine ⟨⟨(i 0).val / 5000, ht⟩, flush1_5 _, ?_⟩
  rw [mem_blk5]
  intro a
  match a with
  | ⟨0, _⟩ =>
    show win1_5.index ⟨(i 0).val / 5000, ht⟩ (0 : Fin 2) * 5000 ≤ (i 0).val ∧ (i 0).val < win1_5.index ⟨(i 0).val / 5000, ht⟩ (0 : Fin 2) * 5000 + 5000
    rw [e50]; show (i 0).val / 5000 * 5000 ≤ (i 0).val ∧ (i 0).val < (i 0).val / 5000 * 5000 + 5000; omega
  | ⟨1, _⟩ =>
    show win1_5.index ⟨(i 0).val / 5000, ht⟩ (1 : Fin 2) * 64 ≤ (i 1).val ∧ (i 1).val < win1_5.index ⟨(i 0).val / 5000, ht⟩ (1 : Fin 2) * 64 + 64
    rw [e51]; omega

theorem mem_blk6 (t : Fin cfg1.N) (i : S100000x64.Idx) :
    i ∈ ((cfg1.win 6).blk t).view.set ↔ ∀ a : Fin 2, win1_6.index t a * S5000x64.size a ≤ (i a).val ∧ (i a).val < win1_6.index t a * S5000x64.size a + S5000x64.size a := by
  show i ∈ ((View.whole main_v57_1).slice (win1_6.rect t)).set ↔ _
  rw [View.set_slice_whole, Rect.mem_set_unit]
  exact Iff.rfl

/-- Every entry of the array lies in the block of the point its row belongs to. -/
theorem cover6 (i : S100000x64.Idx) :
    ∃ t : Fin cfg1.N, (cfg1.win 6).flush t = true ∧ i ∈ ((cfg1.win 6).blk t).view.set := by
  have hi0 : (i 0).val < 100000 := (i 0).isLt
  have hi1 : (i 1).val < 64 := (i 1).isLt
  have hN : cfg1.N = 20 := N_1
  have ht : (i 0).val / 5000 < cfg1.N := by omega
  obtain ⟨e00, e01, e10, e11, e20, e21, e30, e31, e40, e41, e50, e51, e60, e61⟩ := idx_facts ⟨(i 0).val / 5000, ht⟩
  refine ⟨⟨(i 0).val / 5000, ht⟩, flush1_6 _, ?_⟩
  rw [mem_blk6]
  intro a
  match a with
  | ⟨0, _⟩ =>
    show win1_6.index ⟨(i 0).val / 5000, ht⟩ (0 : Fin 2) * 5000 ≤ (i 0).val ∧ (i 0).val < win1_6.index ⟨(i 0).val / 5000, ht⟩ (0 : Fin 2) * 5000 + 5000
    rw [e60]; show (i 0).val / 5000 * 5000 ≤ (i 0).val ∧ (i 0).val < (i 0).val / 5000 * 5000 + 5000; omega
  | ⟨1, _⟩ =>
    show win1_6.index ⟨(i 0).val / 5000, ht⟩ (1 : Fin 2) * 64 ≤ (i 1).val ∧ (i 1).val < win1_6.index ⟨(i 0).val / 5000, ht⟩ (1 : Fin 2) * 64 + 64
    rw [e61]; omega

/-- After the region the first output array is the pre-activation of the arrays the region found. -/
theorem final5 (c : Dev nD) : (dat1 V c).arrAt 5 cfg1.N = G5 V c :=
  (dat1 V c).arrAt_eq_of_cover 5 (G5 V c) (fun t _ => flushed5 V c t) cover5

/-- After the region the second output array is the normalised rectification of that pre-activation. -/
theorem final6 (c : Dev nD) : (dat1 V c).arrAt 6 cfg1.N = G6 V c :=
  (dat1 V c).arrAt_eq_of_cover 6 (G6 V c) (fun t _ => flushed6 V c t) cover6

end Cert.KRegion1

end
-- ==== Proof.KRegion2.lean ====
/-
  Region 2 (the per-node linear map over row tiles), from blocks to the whole array.

  The grid has 10 points; point t takes rows 10000·t … 10000·t + 9999 of the feature array and the whole [64, 64] weight and
  stores their product, so each output block is the restriction of `x · w` to those rows; the 10 blocks cover the array.
-/
import proofs.«151697_j9594956939369_2_alg».proof.Proof.Gen.KernelIdeal.Frame
import proofs.«151697_j9594956939369_2_alg».proof.Proof.KPayloadMM
import proofs.«151697_j9594956939369_2_alg».proof.Proof.SpecRead
import Idealize.ShloMosaic.Lib.Pipeline.Value

set_option maxRecDepth 16384

noncomputable section

namespace Cert.KRegion2

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Facts₀ Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 10 points: the row-tiled windows sit at block (t, 0), the weight at (0, 0). -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The array row that row p of block t is. -/
def gRow (t : Fin cfg2.N) (p : Fin 10000) : Fin 100000 :=
  ⟨t.val * 10000 + p.val, by have := t.isLt; have hN : cfg2.N = 10 := N_2; have := p.isLt; omega⟩

theorem emb0 (t : Fin cfg2.N) (p : Fin 10000) (k : Fin 64) :
    ((cfg2.win 0).blk t).view.emb (ix2 p k) = ix2 (gRow t p) k := by
  obtain ⟨e00, e01, e10, e11, e20, e21⟩ := idx_facts t
  funext a; apply Fin.ext
  match a with
  | ⟨0, _⟩ => show win2_0.index t (0 : Fin 2) * 10000 + 1 * p.val = t.val * 10000 + p.val; omega
  | ⟨1, _⟩ => show win2_0.index t (1 : Fin 2) * 64 + 1 * k.val = k.val; omega

theorem emb2 (t : Fin cfg2.N) (p : Fin 10000) (k : Fin 64) :
    ((cfg2.win 2).blk t).view.emb (ix2 p k) = ix2 (gRow t p) k := by
  obtain ⟨e00, e01, e10, e11, e20, e21⟩ := idx_facts t
  funext a; apply Fin.ext
  match a with
  | ⟨0, _⟩ => show win2_2.index t (0 : Fin 2) * 10000 + 1 * p.val = t.val * 10000 + p.val; omega
  | ⟨1, _⟩ => show win2_2.index t (1 : Fin 2) * 64 + 1 * k.val = k.val; omega

theorem emb1 (t : Fin cfg2.N) (k q : Fin 64) :
    ((cfg2.win 1).blk t).view.emb (ix2 k q) = ix2 k q := by
  obtain ⟨e00, e01, e10, e11, e20, e21⟩ := idx_facts t
  funext a; apply Fin.ext
  match a with
  | ⟨0, _⟩ => show win2_1.index t (0 : Fin 2) * 64 + 1 * k.val = k.val; omega
  | ⟨1, _⟩ => show win2_1.index t (1 : Fin 2) * 64 + 1 * q.val = q.val; omega

theorem blk0 (c : Dev nD) (t : Fin cfg2.N) (p : Fin 10000) (k : Fin 64) :
    iblk2 V c 0 t (ix2 p k) = V c (Pipeline.arrRef spec2 0) (ix2 (gRow t p) k) := by
  show V c (Pipeline.arrRef spec2 0) (((cfg2.win 0).blk t).view.emb (ix2 p k)) = _
  rw [emb0]

theorem blk1 (c : Dev nD) (t : Fin cfg2.N) (k q : Fin 64) :
    iblk2 V c 1 t (ix2 k q) = V c (Pipeline.arrRef spec2 1) (ix2 k q) := by
  show V c (Pipeline.arrRef spec2 1) (((cfg2.win 1).blk t).view.emb (ix2 k q)) = _
  rw [emb1]

/-- The product the region computes, as one function of the arrays it found. -/
abbrev G2 (c : Dev nD) : Spec.Mat := Spec.hOf (V c (Pipeline.arrRef spec2 0)) (V c (Pipeline.arrRef spec2 1))

/-- What point t writes back is block t of the product. -/
theorem flushed2 (c : Dev nD) (t : Fin cfg2.N) :
    (dat2 V c).flushed 2 t = ((cfg2.win 2).blk t).view.read (Elt Ideal) (G2 V c) := by
  show (cfg2.win 2).cut (grid2.coords t) ((dat2 V c).after 2 t) = _
  rw [after2_2]
  unfold out2_2
  rw [View.canon_unit_zero hz]
  simp only [View.ld_unit_zero (S := S10000x64) hz, View.ld_unit_zero (S := S64x64) hz]
  funext j
  obtain ⟨p, q, rfl⟩ : ∃ (p : Fin 10000) (q : Fin 64), j = ix2 p q := ⟨j 0, j 1, eq_ix2 j⟩
  show k2_pay1 (F := Ideal) (iblk2 V c 0 t) (iblk2 V c 1 t) (ix2 p q) = G2 V c (((cfg2.win 2).blk t).view.emb (ix2 p q))
  rw [emb2]
  refine (KPayload.pay_mm2 _ _ p q).trans ?_
  unfold G2
  rw [Spec.hOf_apply]
  exact Finset.sum_congr rfl fun k _ => by rw [blk0 V c t p k, blk1 V c t k q]

theorem mem_blk2 (t : Fin cfg2.N) (i : S100000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v60).slice (win2_2.rect t)).set ↔ _
  rw [View.set_slice_whole, Rect.mem_set_unit]
  exact Iff.rfl

/-- Every entry of the array lies in the block of the point its row belongs to. -/
theorem cover2 (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  have hN : cfg2.N = 10 := N_2
  have ht : (i 0).val / 10000 < cfg2.N := by omega
  obtain ⟨e00, e01, e10, e11, e20, e21⟩ := idx_facts ⟨(i 0).val / 10000, ht⟩
  refine ⟨⟨(i 0).val / 10000, ht⟩, flush2_2 _, ?_⟩
  rw [mem_blk2]
  intro a
  match a with
  | ⟨0, _⟩ =>
    show win2_2.index ⟨(i 0).val / 10000, ht⟩ (0 : Fin 2) * 10000 ≤ (i 0).val ∧ (i 0).val < win2_2.index ⟨(i 0).val / 10000, ht⟩ (0 : Fin 2) * 10000 + 10000
    rw [e20]; show (i 0).val / 10000 * 10000 ≤ (i 0).val ∧ (i 0).val < (i 0).val / 10000 * 10000 + 10000; omega
  | ⟨1, _⟩ =>
    show win2_2.index ⟨(i 0).val / 10000, ht⟩ (1 : Fin 2) * 64 ≤ (i 1).val ∧ (i 1).val < win2_2.index ⟨(i 0).val / 10000, ht⟩ (1 : Fin 2) * 64 + 64
    rw [e21]; omega

/-- After the region the output array is the product of the arrays the region found. -/
theorem final2 (c : Dev nD) : (dat2 V c).arrAt 2 cfg2.N = G2 V c :=
  (dat2 V c).arrAt_eq_of_cover 2 (G2 V c) (fun t _ => flushed2 V c t) cover2

end Cert.KRegion2

end
-- ==== Proof.KRegion3.lean ====
/-
  Region 3 (a normalising update over row tiles), from blocks to whole arrays.

  The grid has 20 points; point t works on rows 5000·t … 5000·t + 4999 of the [N, 64] arrays (all 64 columns) and on the
  three [1, 64] parameter rows whole. Each output block is therefore the restriction of one whole-array function to those
  rows — the pre-activation `x + (conv + bias)` for the first output, its rectified and normalised rows for the second —
  and the 20 blocks cover the array, so after the region each output array IS that function of the arrays the region found.
-/
import proofs.«151697_j9594956939369_2_alg».proof.Proof.Gen.KernelIdeal.Frame
import proofs.«151697_j9594956939369_2_alg».proof.Proof.KPayload
import Idealize.ShloMosaic.Lib.Pipeline.Value

set_option maxRecDepth 16384

noncomputable section

namespace Cert.KRegion3

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Facts₀ Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 20 points: the row-tiled windows sit at block (t, 0), the parameter rows at (0, 0). -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0
    ∧ win3_6.index t (0 : Fin 2) = t.val ∧ win3_6.index t (1 : Fin 2) = 0 :=
  (by decide +kernel : ∀ t : Fin grid3.N, _)

/-- The array row that row p of block t is. -/
def gRow (t : Fin cfg3.N) (p : Fin 5000) : Fin 100000 :=
  ⟨t.val * 5000 + p.val, by have := t.isLt; have hN : cfg3.N = 20 := N_3; have := p.isLt; omega⟩

theorem emb0 (t : Fin cfg3.N) (p : Fin 5000) (k : Fin 64) :
    ((cfg3.win 0).blk t).view.emb (ix2 p k) = ix2 (gRow t p) k := by
  obtain ⟨e00, e01, e10, e11, e20, e21, e30, e31, e40, e41, e50, e51, e60, e61⟩ := idx_facts t
  funext a; apply Fin.ext
  match a with
  | ⟨0, _⟩ => show win3_0.index t (0 : Fin 2) * 5000 + 1 * p.val = t.val * 5000 + p.val; omega
  | ⟨1, _⟩ => show win3_0.index t (1 : Fin 2) * 64 + 1 * k.val = k.val; omega

theorem emb1 (t : Fin cfg3.N) (p : Fin 5000) (k : Fin 64) :
    ((cfg3.win 1).blk t).view.emb (ix2 p k) = ix2 (gRow t p) k := by
  obtain ⟨e00, e01, e10, e11, e20, e21, e30, e31, e40, e41, e50, e51, e60, e61⟩ := idx_facts t
  funext a; apply Fin.ext
  match a with
  | ⟨0, _⟩ => show win3_1.index t (0 : Fin 2) * 5000 + 1 * p.val = t.val * 5000 + p.val; omega
  | ⟨1, _⟩ => show win3_1.index t (1 : Fin 2) * 64 + 1 * k.val = k.val; omega

theorem emb5 (t : Fin cfg3.N) (p : Fin 5000) (k : Fin 64) :
    ((cfg3.win 5).blk t).view.emb (ix2 p k) = ix2 (gRow t p) k := by
  obtain ⟨e00, e01, e10, e11, e20, e21, e30, e31, e40, e41, e50, e51, e60, e61⟩ := idx_facts t
  funext a; apply Fin.ext
  match a with
  | ⟨0, _⟩ => show win3_5.index t (0 : Fin 2) * 5000 + 1 * p.val = t.val * 5000 + p.val; omega
  | ⟨1, _⟩ => show win3_5.index t (1 : Fin 2) * 64 + 1 * k.val = k.val; omega

theorem emb6 (t : Fin cfg3.N) (p : Fin 5000) (k : Fin 64) :
    ((cfg3.win 6).blk t).view.emb (ix2 p k) = ix2 (gRow t p) k := by
  obtain ⟨e00, e01, e10, e11, e20, e21, e30, e31, e40, e41, e50, e51, e60, e61⟩ := idx_facts t
  funext a; apply Fin.ext
  match a with
  | ⟨0, _⟩ => show win3_6.index t (0 : Fin 2) * 5000 + 1 * p.val = t.val * 5000 + p.val; omega
  | ⟨1, _⟩ => show win3_6.index t (1 : Fin 2) * 64 + 1 * k.val = k.val; omega

theorem emb2 (t : Fin cfg3.N) (k : Fin 64) :
    ((cfg3.win 2).blk t).view.emb (ix2 (0 : Fin 1) k) = ix2 (0 : Fin 1) k := by
  obtain ⟨e00, e01, e10, e11, e20, e21, e30, e31, e40, e41, e50, e51, e60, e61⟩ := idx_facts t
  funext a; apply Fin.ext
  match a with
  | ⟨0, _⟩ => show win3_2.index t (0 : Fin 2) * 1 + 1 * 0 = 0; omega
  | ⟨1, _⟩ => show win3_2.index t (1 : Fin 2) * 64 + 1 * k.val = k.val; omega

theorem emb3 (t : Fin cfg3.N) (k : Fin 64) :
    ((cfg3.win 3).blk t).view.emb (ix2 (0 : Fin 1) k) = ix2 (0 : Fin 1) k := by
  obtain ⟨e00, e01, e10, e11, e20, e21, e30, e31, e40, e41, e50, e51, e60, e61⟩ := idx_facts t
  funext a; apply Fin.ext
  match a with
  | ⟨0, _⟩ => show win3_3.index t (0 : Fin 2) * 1 + 1 * 0 = 0; omega
  | ⟨1, _⟩ => show win3_3.index t (1 : Fin 2) * 64 + 1 * k.val = k.val; omega

theorem emb4 (t : Fin cfg3.N) (k : Fin 64) :
    ((cfg3.win 4).blk t).view.emb (ix2 (0 : Fin 1) k) = ix2 (0 : Fin 1) k := by
  obtain ⟨e00, e01, e10, e11, e20, e21, e30, e31, e40, e41, e50, e51, e60, e61⟩ := idx_facts t
  funext a; apply Fin.ext
  match a with
  | ⟨0, _⟩ => show win3_4.index t (0 : Fin 2) * 1 + 1 * 0 = 0; omega
  | ⟨1, _⟩ => show win3_4.index t (1 : Fin 2) * 64 + 1 * k.val = k.val; omega

/-- A row-tiled input block read at (p, k) is the array at the global row. -/
theorem blk0 (c : Dev nD) (t : Fin cfg3.N) (p : Fin 5000) (k : Fin 64) :
    iblk3 V c 0 t (ix2 p k) = V c (Pipeline.arrRef spec3 0) (ix2 (gRow t p) k) := by
  show V c (Pipeline.arrRef spec3 0) (((cfg3.win 0).blk t).view.emb (ix2 p k)) = _
  rw [emb0]

theorem blk1 (c : Dev nD) (t : Fin cfg3.N) (p : Fin 5000) (k : Fin 64) :
    iblk3 V c 1 t (ix2 p k) = V c (Pipeline.arrRef spec3 1) (ix2 (gRow t p) k) := by
  show V c (Pipeline.arrRef spec3 1) (((cfg3.win 1).blk t).view.emb (ix2 p k)) = _
  rw [emb1]

/-- A parameter row's block is the row. -/
theorem blk2 (c : Dev nD) (t : Fin cfg3.N) (k : Fin 64) :
    iblk3 V c 2 t (ix2 (0 : Fin 1) k) = V c (Pipeline.arrRef spec3 2) (ix2 (0 : Fin 1) k) := by
  show V c (Pipeline.arrRef spec3 2) (((cfg3.win 2).blk t).view.emb (ix2 (0 : Fin 1) k)) = _
  rw [emb2]

theorem blk3 (c : Dev nD) (t : Fin cfg3.N) (k : Fin 64) :
    iblk3 V c 3 t (ix2 (0 : Fin 1) k) = V c (Pipeline.arrRef spec3 3) (ix2 (0 : Fin 1) k) := by
  show V c (Pipeline.arrRef spec3 3) (((cfg3.win 3).blk t).view.emb (ix2 (0 : Fin 1) k)) = _
  rw [emb3]

theorem blk4 (c : Dev nD) (t : Fin cfg3.N) (k : Fin 64) :
    iblk3 V c 4 t (ix2 (0 : Fin 1) k) = V c (Pipeline.arrRef spec3 4) (ix2 (0 : Fin 1) k) := by
  show V c (Pipeline.arrRef spec3 4) (((cfg3.win 4).blk t).view.emb (ix2 (0 : Fin 1) k)) = _
  rw [emb4]

/-- The pre-activation the region computes, as one function of the arrays it found. -/
abbrev G5 (c : Dev nD) : Spec.Mat :=
  Spec.embOf (V c (Pipeline.arrRef spec3 0)) (V c (Pipeline.arrRef spec3 1)) (V c (Pipeline.arrRef spec3 2))

/-- The normalised output, likewise. -/
abbrev G6 (c : Dev nD) : Spec.Mat :=
  Spec.lnOf (Spec.reluOf (G5 V c)) (V c (Pipeline.arrRef spec3 3)) (V c (Pipeline.arrRef spec3 4))

/-- The body's pre-activation at a block entry is the whole-array one at the global entry. -/
theorem pre_entry (c : Dev nD) (t : Fin cfg3.N) (p : Fin 5000) (k : Fin 64) :
    k3_pay1 (F := Ideal) (iblk3 V c 0 t) (iblk3 V c 1 t) (iblk3 V c 2 t) (ix2 p k) = G5 V c (ix2 (gRow t p) k) := by
  refine (KPayload.pay_emb3 _ _ _ p k).trans ?_
  unfold G5
  rw [blk0 V c t p k, blk1 V c t p k, blk2 V c t k, Spec.embOf_apply, add_assoc]

/-- What point t writes back to the first output is block t of the pre-activation. -/
theorem flushed5 (c : Dev nD) (t : Fin cfg3.N) :
    (dat3 V c).flushed 5 t = ((cfg3.win 5).blk t).view.read (Elt Ideal) (G5 V c) := by
  show (cfg3.win 5).cut (grid3.coords t) ((dat3 V c).after 5 t) = _
  rw [after3_5]
  unfold out3_5
  rw [View.canon_unit_zero hz]
  simp only [View.ld_unit_zero (S := S5000x64) hz, View.ld_unit_zero (S := S1x64) hz]
  funext j
  obtain ⟨p, q, rfl⟩ : ∃ (p : Fin 5000) (q : Fin 64), j = ix2 p q := ⟨j 0, j 1, eq_ix2 j⟩
  show k3_pay1 (F := Ideal) (iblk3 V c 0 t) (iblk3 V c 1 t) (iblk3 V c 2 t) (ix2 p q)
    = G5 V c (((cfg3.win 5).blk t).view.emb (ix2 p q))
  rw [emb5]
  exact pre_entry V c t p q

/-- What point t writes back to the second output is block t of the normalised array. -/
theorem flushed6 (c : Dev nD) (t : Fin cfg3.N) :
    (dat3 V c).flushed 6 t = ((cfg3.win 6).blk t).view.read (Elt Ideal) (G6 V c) := by
  show (cfg3.win 6).cut (grid3.coords t) ((dat3 V c).after 6 t) = _
  rw [after3_6]
  unfold out3_6
  rw [View.canon_unit_zero hz]
  simp only [View.ld_unit_zero (S := S5000x64) hz, View.ld_unit_zero (S := S1x64) hz]
  funext j
  obtain ⟨p, q, rfl⟩ : ∃ (p : Fin 5000) (q : Fin 64), j = ix2 p q := ⟨j 0, j 1, eq_ix2 j⟩
  show k3_pay2 (F := Ideal) (iblk3 V c 0 t) (iblk3 V c 1 t) (iblk3 V c 2 t) (iblk3 V c 3 t) (iblk3 V c 4 t) (ix2 p q)
    = G6 V c (((cfg3.win 6).blk t).view.emb (ix2 p q))
  rw [emb6]
  refine (KPayload.pay_ln3 _ _ _ _ _ p q).trans ?_
  unfold G6
  rw [Spec.lnEntryK_eq, Spec.lnOf_apply, blk3 V c t q, blk4 V c t q]
  refine congrArg (fun r => Spec.lnEntry r q _ _) (funext fun k => ?_)
  rw [Spec.reluOf_apply, pre_entry V c t p k]

theorem mem_blk5 (t : Fin cfg3.N) (i : S100000x64.Idx) :
    i ∈ ((cfg3.win 5).blk t).view.set ↔ ∀ a : Fin 2, win3_5.index t a * S5000x64.size a ≤ (i a).val ∧ (i a).val < win3_5.index t a * S5000x64.size a + S5000x64.size a := by
  show i ∈ ((View.whole main_v83_0).slice (win3_5.rect t)).set ↔ _
  rw [View.set_slice_whole, Rect.mem_set_unit]
  exact Iff.rfl

/-- Every entry of the array lies in the block of the point its row belongs to. -/
theorem cover5 (i : S100000x64.Idx) :
    ∃ t : Fin cfg3.N, (cfg3.win 5).flush t = true ∧ i ∈ ((cfg3.win 5).blk t).view.set := by
  have hi0 : (i 0).val < 100000 := (i 0).isLt
  have hi1 : (i 1).val < 64 := (i 1).isLt
  have hN : cfg3.N = 20 := N_3
  have ht : (i 0).val / 5000 < cfg3.N := by omega
  obtain ⟨e00, e01, e10, e11, e20, e21, e30, e31, e40, e41, e50, e51, e60, e61⟩ := idx_facts ⟨(i 0).val / 5000, ht⟩
  refine ⟨⟨(i 0).val / 5000, ht⟩, flush3_5 _, ?_⟩
  rw [mem_blk5]
  intro a
  match a with
  | ⟨0, _⟩ =>
    show win3_5.index ⟨(i 0).val / 5000, ht⟩ (0 : Fin 2) * 5000 ≤ (i 0).val ∧ (i 0).val < win3_5.index ⟨(i 0).val / 5000, ht⟩ (0 : Fin 2) * 5000 + 5000
    rw [e50]; show (i 0).val / 5000 * 5000 ≤ (i 0).val ∧ (i 0).val < (i 0).val / 5000 * 5000 + 5000; omega
  | ⟨1, _⟩ =>
    show win3_5.index ⟨(i 0).val / 5000, ht⟩ (1 : Fin 2) * 64 ≤ (i 1).val ∧ (i 1).val < win3_5.index ⟨(i 0).val / 5000, ht⟩ (1 : Fin 2) * 64 + 64
    rw [e51]; omega

theorem mem_blk6 (t : Fin cfg3.N) (i : S100000x64.Idx) :
    i ∈ ((cfg3.win 6).blk t).view.set ↔ ∀ a : Fin 2, win3_6.index t a * S5000x64.size a ≤ (i a).val ∧ (i a).val < win3_6.index t a * S5000x64.size a + S5000x64.size a := by
  show i ∈ ((View.whole main_v83_1).slice (win3_6.rect t)).set ↔ _
  rw [View.set_slice_whole, Rect.mem_set_unit]
  exact Iff.rfl

/-- Every entry of the array lies in the block of the point its row belongs to. -/
theorem cover6 (i : S100000x64.Idx) :
    ∃ t : Fin cfg3.N, (cfg3.win 6).flush t = true ∧ i ∈ ((cfg3.win 6).blk t).view.set := by
  have hi0 : (i 0).val < 100000 := (i 0).isLt
  have hi1 : (i 1).val < 64 := (i 1).isLt
  have hN : cfg3.N = 20 := N_3
  have ht : (i 0).val / 5000 < cfg3.N := by omega
  obtain ⟨e00, e01, e10, e11, e20, e21, e30, e31, e40, e41, e50, e51, e60, e61⟩ := idx_facts ⟨(i 0).val / 5000, ht⟩
  refine ⟨⟨(i 0).val / 5000, ht⟩, flush3_6 _, ?_⟩
  rw [mem_blk6]
  intro a
  match a with
  | ⟨0, _⟩ =>
    show win3_6.index ⟨(i 0).val / 5000, ht⟩ (0 : Fin 2) * 5000 ≤ (i 0).val ∧ (i 0).val < win3_6.index ⟨(i 0).val / 5000, ht⟩ (0 : Fin 2) * 5000 + 5000
    rw [e60]; show (i 0).val / 5000 * 5000 ≤ (i 0).val ∧ (i 0).val < (i 0).val / 5000 * 5000 + 5000; omega
  | ⟨1, _⟩ =>
    show win3_6.index ⟨(i 0).val / 5000, ht⟩ (1 : Fin 2) * 64 ≤ (i 1).val ∧ (i 1).val < win3_6.index ⟨(i 0).val / 5000, ht⟩ (1 : Fin 2) * 64 + 64
    rw [e61]; omega

/-- After the region the first output array is the pre-activation of the arrays the region found. -/
theorem final5 (c : Dev nD) : (dat3 V c).arrAt 5 cfg3.N = G5 V c :=
  (dat3 V c).arrAt_eq_of_cover 5 (G5 V c) (fun t _ => flushed5 V c t) cover5

/-- After the region the second output array is the normalised rectification of that pre-activation. -/
theorem final6 (c : Dev nD) : (dat3 V c).arrAt 6 cfg3.N = G6 V c :=
  (dat3 V c).arrAt_eq_of_cover 6 (G6 V c) (fun t _ => flushed6 V c t) cover6

end Cert.KRegion3

end
-- ==== Proof.KRegion4.lean ====
/-
  Region 4 (the per-node linear map over row tiles), from blocks to the whole array.

  The grid has 10 points; point t takes rows 10000·t … 10000·t + 9999 of the feature array and the whole [64, 64] weight and
  stores their product, so each output block is the restriction of `x · w` to those rows; the 10 blocks cover the array.
-/
import proofs.«151697_j9594956939369_2_alg».proof.Proof.Gen.KernelIdeal.Frame
import proofs.«151697_j9594956939369_2_alg».proof.Proof.KPayloadMM
import proofs.«151697_j9594956939369_2_alg».proof.Proof.SpecRead
import Idealize.ShloMosaic.Lib.Pipeline.Value

set_option maxRecDepth 16384

noncomputable section

namespace Cert.KRegion4

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Facts₀ Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 10 points: the row-tiled windows sit at block (t, 0), the weight at (0, 0). -/
theorem idx_facts : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The array row that row p of block t is. -/
def gRow (t : Fin cfg4.N) (p : Fin 10000) : Fin 100000 :=
  ⟨t.val * 10000 + p.val, by have := t.isLt; have hN : cfg4.N = 10 := N_4; have := p.isLt; omega⟩

theorem emb0 (t : Fin cfg4.N) (p : Fin 10000) (k : Fin 64) :
    ((cfg4.win 0).blk t).view.emb (ix2 p k) = ix2 (gRow t p) k := by
  obtain ⟨e00, e01, e10, e11, e20, e21⟩ := idx_facts t
  funext a; apply Fin.ext
  match a with
  | ⟨0, _⟩ => show win4_0.index t (0 : Fin 2) * 10000 + 1 * p.val = t.val * 10000 + p.val; omega
  | ⟨1, _⟩ => show win4_0.index t (1 : Fin 2) * 64 + 1 * k.val = k.val; omega

theorem emb2 (t : Fin cfg4.N) (p : Fin 10000) (k : Fin 64) :
    ((cfg4.win 2).blk t).view.emb (ix2 p k) = ix2 (gRow t p) k := by
  obtain ⟨e00, e01, e10, e11, e20, e21⟩ := idx_facts t
  funext a; apply Fin.ext
  match a with
  | ⟨0, _⟩ => show win4_2.index t (0 : Fin 2) * 10000 + 1 * p.val = t.val * 10000 + p.val; omega
  | ⟨1, _⟩ => show win4_2.index t (1 : Fin 2) * 64 + 1 * k.val = k.val; omega

theorem emb1 (t : Fin cfg4.N) (k q : Fin 64) :
    ((cfg4.win 1).blk t).view.emb (ix2 k q) = ix2 k q := by
  obtain ⟨e00, e01, e10, e11, e20, e21⟩ := idx_facts t
  funext a; apply Fin.ext
  match a with
  | ⟨0, _⟩ => show win4_1.index t (0 : Fin 2) * 64 + 1 * k.val = k.val; omega
  | ⟨1, _⟩ => show win4_1.index t (1 : Fin 2) * 64 + 1 * q.val = q.val; omega

theorem blk0 (c : Dev nD) (t : Fin cfg4.N) (p : Fin 10000) (k : Fin 64) :
    iblk4 V c 0 t (ix2 p k) = V c (Pipeline.arrRef spec4 0) (ix2 (gRow t p) k) := by
  show V c (Pipeline.arrRef spec4 0) (((cfg4.win 0).blk t).view.emb (ix2 p k)) = _
  rw [emb0]

theorem blk1 (c : Dev nD) (t : Fin cfg4.N) (k q : Fin 64) :
    iblk4 V c 1 t (ix2 k q) = V c (Pipeline.arrRef spec4 1) (ix2 k q) := by
  show V c (Pipeline.arrRef spec4 1) (((cfg4.win 1).blk t).view.emb (ix2 k q)) = _
  rw [emb1]

/-- The product the region computes, as one function of the arrays it found. -/
abbrev G2 (c : Dev nD) : Spec.Mat := Spec.hOf (V c (Pipeline.arrRef spec4 0)) (V c (Pipeline.arrRef spec4 1))

/-- What point t writes back is block t of the product. -/
theorem flushed2 (c : Dev nD) (t : Fin cfg4.N) :
    (dat4 V c).flushed 2 t = ((cfg4.win 2).blk t).view.read (Elt Ideal) (G2 V c) := by
  show (cfg4.win 2).cut (grid4.coords t) ((dat4 V c).after 2 t) = _
  rw [after4_2]
  unfold out4_2
  rw [View.canon_unit_zero hz]
  simp only [View.ld_unit_zero (S := S10000x64) hz, View.ld_unit_zero (S := S64x64) hz]
  funext j
  obtain ⟨p, q, rfl⟩ : ∃ (p : Fin 10000) (q : Fin 64), j = ix2 p q := ⟨j 0, j 1, eq_ix2 j⟩
  show k4_pay1 (F := Ideal) (iblk4 V c 0 t) (iblk4 V c 1 t) (ix2 p q) = G2 V c (((cfg4.win 2).blk t).view.emb (ix2 p q))
  rw [emb2]
  refine (KPayload.pay_mm4 _ _ p q).trans ?_
  unfold G2
  rw [Spec.hOf_apply]
  exact Finset.sum_congr rfl fun k _ => by rw [blk0 V c t p k, blk1 V c t k q]

theorem mem_blk2 (t : Fin cfg4.N) (i : S100000x64.Idx) :
    i ∈ ((cfg4.win 2).blk t).view.set ↔ ∀ a : Fin 2, win4_2.index t a * S10000x64.size a ≤ (i a).val ∧ (i a).val < win4_2.index t a * S10000x64.size a + S10000x64.size a := by
  show i ∈ ((View.whole main_v86).slice (win4_2.rect t)).set ↔ _
  rw [View.set_slice_whole, Rect.mem_set_unit]
  exact Iff.rfl

/-- Every entry of the array lies in the block of the point its row belongs to. -/
theorem cover2 (i : S100000x64.Idx) :
    ∃ t : Fin cfg4.N, (cfg4.win 2).flush t = true ∧ i ∈ ((cfg4.win 2).blk t).view.set := by
  have hi0 : (i 0).val < 100000 := (i 0).isLt
  have hi1 : (i 1).val < 64 := (i 1).isLt
  have hN : cfg4.N = 10 := N_4
  have ht : (i 0).val / 10000 < cfg4.N := by omega
  obtain ⟨e00, e01, e10, e11, e20, e21⟩ := idx_facts ⟨(i 0).val / 10000, ht⟩
  refine ⟨⟨(i 0).val / 10000, ht⟩, flush4_2 _, ?_⟩
  rw [mem_blk2]
  intro a
  match a with
  | ⟨0, _⟩ =>
    show win4_2.index ⟨(i 0).val / 10000, ht⟩ (0 : Fin 2) * 10000 ≤ (i 0).val ∧ (i 0).val < win4_2.index ⟨(i 0).val / 10000, ht⟩ (0 : Fin 2) * 10000 + 10000
    rw [e20]; show (i 0).val / 10000 * 10000 ≤ (i 0).val ∧ (i 0).val < (i 0).val / 10000 * 10000 + 10000; omega
  | ⟨1, _⟩ =>
    show win4_2.index ⟨(i 0).val / 10000, ht⟩ (1 : Fin 2) * 64 ≤ (i 1).val ∧ (i 1).val < win4_2.index ⟨(i 0).val / 10000, ht⟩ (1 : Fin 2) * 64 + 64
    rw [e21]; omega

/-- After the region the output array is the product of the arrays the region found. -/
theorem final2 (c : Dev nD) : (dat4 V c).arrAt 2 cfg4.N = G2 V c :=
  (dat4 V c).arrAt_eq_of_cover 2 (G2 V c) (fun t _ => flushed2 V c t) cover2

end Cert.KRegion4

end
-- ==== Proof.KRegion5.lean ====
/-
  Region 5 (the last update, without normalisation), from blocks to whole arrays.

  As in the normalising updates, point t of 20 works on rows 5000·t … 5000·t + 4999: the first output block is the
  pre-activation `x + (conv + bias)` on those rows, the second its rectification `max · 0`; the blocks cover the arrays.
-/
import proofs.«151697_j9594956939369_2_alg».proof.Proof.Gen.KernelIdeal.Frame
import proofs.«151697_j9594956939369_2_alg».proof.Proof.KPayload
import Idealize.ShloMosaic.Lib.Pipeline.Value

set_option maxRecDepth 16384

noncomputable section

namespace Cert.KRegion5

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Facts₀ Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 20 points. -/
theorem idx_facts : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0
    ∧ win5_4.index t (0 : Fin 2) = t.val ∧ win5_4.index t (1 : Fin 2) = 0 :=
  (by decide +kernel : ∀ t : Fin grid5.N, _)

/-- The array row that row p of block t is. -/
def gRow (t : Fin cfg5.N) (p : Fin 5000) : Fin 100000 :=
  ⟨t.val * 5000 + p.val, by have := t.isLt; have hN : cfg5.N = 20 := N_5; have := p.isLt; omega⟩

theorem emb0 (t : Fin cfg5.N) (p : Fin 5000) (k : Fin 64) :
    ((cfg5.win 0).blk t).view.emb (ix2 p k) = ix2 (gRow t p) k := by
  obtain ⟨e00, e01, e10, e11, e20, e21, e30, e31, e40, e41⟩ := idx_facts t
  funext a; apply Fin.ext
  match a with
  | ⟨0, _⟩ => show win5_0.index t (0 : Fin 2) * 5000 + 1 * p.val = t.val * 5000 + p.val; omega
  | ⟨1, _⟩ => show win5_0.index t (1 : Fin 2) * 64 + 1 * k.val = k.val; omega

theorem emb1 (t : Fin cfg5.N) (p : Fin 5000) (k : Fin 64) :
    ((cfg5.win 1).blk t).view.emb (ix2 p k) = ix2 (gRow t p) k := by
  obtain ⟨e00, e01, e10, e11, e20, e21, e30, e31, e40, e41⟩ := idx_facts t
  funext a; apply Fin.ext
  match a with
  | ⟨0, _⟩ => show win5_1.index t (0 : Fin 2) * 5000 + 1 * p.val = t.val * 5000 + p.val; omega
  | ⟨1, _⟩ => show win5_1.index t (1 : Fin 2) * 64 + 1 * k.val = k.val; omega

theorem emb3 (t : Fin cfg5.N) (p : Fin 5000) (k : Fin 64) :
    ((cfg5.win 3).blk t).view.emb (ix2 p k) = ix2 (gRow t p) k := by
  obtain ⟨e00, e01, e10, e11, e20, e21, e30, e31, e40, e41⟩ := idx_facts t
  funext a; apply Fin.ext
  match a with
  | ⟨0, _⟩ => show win5_3.index t (0 : Fin 2) * 5000 + 1 * p.val = t.val * 5000 + p.val; omega
  | ⟨1, _⟩ => show win5_3.index t (1 : Fin 2) * 64 + 1 * k.val = k.val; omega

theorem emb4 (t : Fin cfg5.N) (p : Fin 5000) (k : Fin 64) :
    ((cfg5.win 4).blk t).view.emb (ix2 p k) = ix2 (gRow t p) k := by
  obtain ⟨e00, e01, e10, e11, e20, e21, e30, e31, e40, e41⟩ := idx_facts t
  funext a; apply Fin.ext
  match a with
  | ⟨0, _⟩ => show win5_4.index t (0 : Fin 2) * 5000 + 1 * p.val = t.val * 5000 + p.val; omega
  | ⟨1, _⟩ => show win5_4.index t (1 : Fin 2) * 64 + 1 * k.val = k.val; omega

theorem emb2 (t : Fin cfg5.N) (k : Fin 64) :
    ((cfg5.win 2).blk t).view.emb (ix2 (0 : Fin 1) k) = ix2 (0 : Fin 1) k := by
  obtain ⟨e00, e01, e10, e11, e20, e21, e30, e31, e40, e41⟩ := idx_facts t
  funext a; apply Fin.ext
  match a with
  | ⟨0, _⟩ => show win5_2.index t (0 : Fin 2) * 1 + 1 * 0 = 0; omega
  | ⟨1, _⟩ => show win5_2.index t (1 : Fin 2) * 64 + 1 * k.val = k.val; omega

theorem blk0 (c : Dev nD) (t : Fin cfg5.N) (p : Fin 5000) (k : Fin 64) :
    iblk5 V c 0 t (ix2 p k) = V c (Pipeline.arrRef spec5 0) (ix2 (gRow t p) k) := by
  show V c (Pipeline.arrRef spec5 0) (((cfg5.win 0).blk t).view.emb (ix2 p k)) = _
  rw [emb0]

theorem blk1 (c : Dev nD) (t : Fin cfg5.N) (p : Fin 5000) (k : Fin 64) :
    iblk5 V c 1 t (ix2 p k) = V c (Pipeline.arrRef spec5 1) (ix2 (gRow t p) k) := by
  show V c (Pipeline.arrRef spec5 1) (((cfg5.win 1).blk t).view.emb (ix2 p k)) = _
  rw [emb1]

theorem blk2 (c : Dev nD) (t : Fin cfg5.N) (k : Fin 64) :
    iblk5 V c 2 t (ix2 (0 : Fin 1) k) = V c (Pipeline.arrRef spec5 2) (ix2 (0 : Fin 1) k) := by
  show V c (Pipeline.arrRef spec5 2) (((cfg5.win 2).blk t).view.emb (ix2 (0 : Fin 1) k)) = _
  rw [emb2]

/-- The pre-activation the region computes, as one function of the arrays it found. -/
abbrev G3 (c : Dev nD) : Spec.Mat :=
  Spec.embOf (V c (Pipeline.arrRef spec5 0)) (V c (Pipeline.arrRef spec5 1)) (V c (Pipeline.arrRef spec5 2))

/-- Its rectification. -/
abbrev G4 (c : Dev nD) : Spec.Mat := Spec.reluOf (G3 V c)

theorem pre_entry (c : Dev nD) (t : Fin cfg5.N) (p : Fin 5000) (k : Fin 64) :
    k5_pay1 (F := Ideal) (iblk5 V c 0 t) (iblk5 V c 1 t) (iblk5 V c 2 t) (ix2 p k) = G3 V c (ix2 (gRow t p) k) := by
  refine (KPayload.pay_emb5 _ _ _ p k).trans ?_
  unfold G3
  rw [blk0 V c t p k, blk1 V c t p k, blk2 V c t k, Spec.embOf_apply, add_assoc]

theorem flushed3 (c : Dev nD) (t : Fin cfg5.N) :
    (dat5 V c).flushed 3 t = ((cfg5.win 3).blk t).view.read (Elt Ideal) (G3 V c) := by
  show (cfg5.win 3).cut (grid5.coords t) ((dat5 V c).after 3 t) = _
  rw [after5_3]
  unfold out5_3
  rw [View.canon_unit_zero hz]
  simp only [View.ld_unit_zero (S := S5000x64) hz, View.ld_unit_zero (S := S1x64) hz]
  funext j
  obtain ⟨p, q, rfl⟩ : ∃ (p : Fin 5000) (q : Fin 64), j = ix2 p q := ⟨j 0, j 1, eq_ix2 j⟩
  show k5_pay1 (F := Ideal) (iblk5 V c 0 t) (iblk5 V c 1 t) (iblk5 V c 2 t) (ix2 p q)
    = G3 V c (((cfg5.win 3).blk t).view.emb (ix2 p q))
  rw [emb3]
  exact pre_entry V c t p q

theorem flushed4 (c : Dev nD) (t : Fin cfg5.N) :
    (dat5 V c).flushed 4 t = ((cfg5.win 4).blk t).view.read (Elt Ideal) (G4 V c) := by
  show (cfg5.win 4).cut (grid5.coords t) ((dat5 V c).after 4 t) = _
  rw [after5_4]
  unfold out5_4
  rw [View.canon_unit_zero hz]
  simp only [View.ld_unit_zero (S := S5000x64) hz, View.ld_unit_zero (S := S1x64) hz]
  funext j
  obtain ⟨p, q, rfl⟩ : ∃ (p : Fin 5000) (q : Fin 64), j = ix2 p q := ⟨j 0, j 1, eq_ix2 j⟩
  show k5_pay2 (F := Ideal) (iblk5 V c 0 t) (iblk5 V c 1 t) (iblk5 V c 2 t) (ix2 p q)
    = G4 V c (((cfg5.win 4).blk t).view.emb (ix2 p q))
  rw [emb4]
  refine (KPayload.pay_relu5 _ _ _ p q).trans ?_
  unfold G4
  rw [Spec.reluOf_apply, pre_entry V c t p q]

theorem mem_blk3 (t : Fin cfg5.N) (i : S100000x64.Idx) :
    i ∈ ((cfg5.win 3).blk t).view.set ↔ ∀ a : Fin 2, win5_3.index t a * S5000x64.size a ≤ (i a).val ∧ (i a).val < win5_3.index t a * S5000x64.size a + S5000x64.size a := by
  show i ∈ ((View.whole main_v103_0).slice (win5_3.rect t)).set ↔ _
  rw [View.set_slice_whole, Rect.mem_set_unit]
  exact Iff.rfl

theorem cover3 (i : S100000x64.Idx) :
    ∃ t : Fin cfg5.N, (cfg5.win 3).flush t = true ∧ i ∈ ((cfg5.win 3).blk t).view.set := by
  have hi0 : (i 0).val < 100000 := (i 0).isLt
  have hi1 : (i 1).val < 64 := (i 1).isLt
  have hN : cfg5.N = 20 := N_5
  have ht : (i 0).val / 5000 < cfg5.N := by omega
  obtain ⟨e00, e01, e10, e11, e20, e21, e30, e31, e40, e41⟩ := idx_facts ⟨(i 0).val / 5000, ht⟩
  refine ⟨⟨(i 0).val / 5000, ht⟩, flush5_3 _, ?_⟩
  rw [mem_blk3]
  intro a
  match a with
  | ⟨0, _⟩ =>
    show win5_3.index ⟨(i 0).val / 5000, ht⟩ (0 : Fin 2) * 5000 ≤ (i 0).val ∧ (i 0).val < win5_3.index ⟨(i 0).val / 5000, ht⟩ (0 : Fin 2) * 5000 + 5000
    rw [e30]; show (i 0).val / 5000 * 5000 ≤ (i 0).val ∧ (i 0).val < (i 0).val / 5000 * 5000 + 5000; omega
  | ⟨1, _⟩ =>
    show win5_3.index ⟨(i 0).val / 5000, ht⟩ (1 : Fin 2) * 64 ≤ (i 1).val ∧ (i 1).val < win5_3.index ⟨(i 0).val / 5000, ht⟩ (1 : Fin 2) * 64 + 64
    rw [e31]; omega

theorem mem_blk4 (t : Fin cfg5.N) (i : S100000x64.Idx) :
    i ∈ ((cfg5.win 4).blk t).view.set ↔ ∀ a : Fin 2, win5_4.index t a * S5000x64.size a ≤ (i a).val ∧ (i a).val < win5_4.index t a * S5000x64.size a + S5000x64.size a := by
  show i ∈ ((View.whole main_v103_1).slice (win5_4.rect t)).set ↔ _
  rw [View.set_slice_whole, Rect.mem_set_unit]
  exact Iff.rfl

theorem cover4 (i : S100000x64.Idx) :
    ∃ t : Fin cfg5.N, (cfg5.win 4).flush t = true ∧ i ∈ ((cfg5.win 4).blk t).view.set := by
  have hi0 : (i 0).val < 100000 := (i 0).isLt
  have hi1 : (i 1).val < 64 := (i 1).isLt
  have hN : cfg5.N = 20 := N_5
  have ht : (i 0).val / 5000 < cfg5.N := by omega
  obtain ⟨e00, e01, e10, e11, e20, e21, e30, e31, e40, e41⟩ := idx_facts ⟨(i 0).val / 5000, ht⟩
  refine ⟨⟨(i 0).val / 5000, ht⟩, flush5_4 _, ?_⟩
  rw [mem_blk4]
  intro a
  match a with
  | ⟨0, _⟩ =>
    show win5_4.index ⟨(i 0).val / 5000, ht⟩ (0 : Fin 2) * 5000 ≤ (i 0).val ∧ (i 0).val < win5_4.index ⟨(i 0).val / 5000, ht⟩ (0 : Fin 2) * 5000 + 5000
    rw [e40]; show (i 0).val / 5000 * 5000 ≤ (i 0).val ∧ (i 0).val < (i 0).val / 5000 * 5000 + 5000; omega
  | ⟨1, _⟩ =>
    show win5_4.index ⟨(i 0).val / 5000, ht⟩ (1 : Fin 2) * 64 ≤ (i 1).val ∧ (i 1).val < win5_4.index ⟨(i 0).val / 5000, ht⟩ (1 : Fin 2) * 64 + 64
    rw [e41]; omega

theorem final3 (c : Dev nD) : (dat5 V c).arrAt 3 cfg5.N = G3 V c :=
  (dat5 V c).arrAt_eq_of_cover 3 (G3 V c) (fun t _ => flushed3 V c t) cover3

theorem final4 (c : Dev nD) : (dat5 V c).arrAt 4 cfg5.N = G4 V c :=
  (dat5 V c).arrAt_eq_of_cover 4 (G4 V c) (fun t _ => flushed4 V c t) cover4

end Cert.KRegion5

end
-- ==== Proof.KChain.lean ====
/-
  The kernel program's two results as the specification's functions of its arguments.

  The run's last boundary `W14` is a fold: stretch, region, stretch, … Each stretch leaves alone the arrays it does not
  write; each region leaves alone every array that is not one of its outputs. Walking the fold: the edge lists, their
  weights and the parameters stay what the first stretches made them; region 0 leaves `x · w₀`; the next stretch its
  message passing; region 1 the first layer's pre-activation and its normalised rectification; and so on through three
  layers, down to `emb3` and `x3` of the six argument arrays.
-/
import proofs.«151697_j9594956939369_2_alg».proof.Proof.Gen.KernelIdeal.Frame
import proofs.«151697_j9594956939369_2_alg».proof.Proof.KHost
import proofs.«151697_j9594956939369_2_alg».proof.Proof.KRegion0
import proofs.«151697_j9594956939369_2_alg».proof.Proof.KRegion1
import proofs.«151697_j9594956939369_2_alg».proof.Proof.KRegion2
import proofs.«151697_j9594956939369_2_alg».proof.Proof.KRegion3
import proofs.«151697_j9594956939369_2_alg».proof.Proof.KRegion4
import proofs.«151697_j9594956939369_2_alg».proof.Proof.KRegion5

set_option maxRecDepth 100000

noncomputable section

namespace Cert.KChain

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Facts₀ Cert.KernelIdeal.Gen

variable (m : (ℓ : Loc nD τ sig) → Buf (Elt Ideal) ℓ) (ρ : Dev nD → PrngReg) (c : Dev nD)

/-- A stretch leaves alone an array none of its operations writes. -/
macro "host_keep" : tactic => `(tactic| exact StableHlo.after_of_forall_not_mem _ _ (List.forall_iff_forall_mem.mp (by
    simp only [hostOps1, hostOps2, hostOps3, hostOps4, hostOps5, List.Forall, StableHlo.nullary_writes, StableHlo.unary_writes,
      StableHlo.binary_writes, StableHlo.ternary_writes, StableHlo.quaternary_writes, StableHlo.reshape_writes,
      StableHlo.binaryIndexed_writes, Finset.mem_singleton]
    repeat' apply And.intro
    all_goals exact StableHlo.devRef_ne_of_ne (by decide))))

/-! ## The six arguments as launched -/
abbrev A0 : Spec.Mat := m ((c : Thread nD τ).loc main_arg0)
abbrev A1 : IVec Cert.ReferenceIdeal.S2x1600000 32 := m ((c : Thread nD τ).loc main_arg1)
abbrev A2 : FVec Ideal Cert.ReferenceIdeal.S3x64x64 .f32 := m ((c : Thread nD τ).loc main_arg2)
abbrev A3 : FVec Ideal Cert.ReferenceIdeal.S3x64 .f32 := m ((c : Thread nD τ).loc main_arg3)
abbrev A4 : FVec Ideal Cert.ReferenceIdeal.S2x64 .f32 := m ((c : Thread nD τ).loc main_arg4)
abbrev A5 : FVec Ideal Cert.ReferenceIdeal.S2x64 .f32 := m ((c : Thread nD τ).loc main_arg5)

/-! ## What every later step leaves alone: the edge lists, their weights, the stacked parameters -/
theorem car3_main_v3 : W3 m ρ c (Proc.devRef .tc main_v3) = Spec.rowOf (A1 m c) :=
  (congrFun (KHost.pre_eq (W0 m ρ c)) _).symm.trans (KHost.pre_row (W0 m ρ c))
theorem car4_main_v3 : W4 m ρ c (Proc.devRef .tc main_v3) = Spec.rowOf (A1 m c) :=
  (W4_of_ne m ρ c main_v3 (by decide)).trans (car3_main_v3 m ρ c)
theorem car5_main_v3 : W5 m ρ c (Proc.devRef .tc main_v3) = Spec.rowOf (A1 m c) :=
  (show W5 m ρ c (Proc.devRef .tc main_v3) = W4 m ρ c (Proc.devRef .tc main_v3) from by host_keep).trans (car4_main_v3 m ρ c)
theorem car6_main_v3 : W6 m ρ c (Proc.devRef .tc main_v3) = Spec.rowOf (A1 m c) :=
  (W6_of_ne m ρ c main_v3 (by decide)).trans (car5_main_v3 m ρ c)
theorem car7_main_v3 : W7 m ρ c (Proc.devRef .tc main_v3) = Spec.rowOf (A1 m c) :=
  (show W7 m ρ c (Proc.devRef .tc main_v3) = W6 m ρ c (Proc.devRef .tc main_v3) from by host_keep).trans (car6_main_v3 m ρ c)
theorem car8_main_v3 : W8 m ρ c (Proc.devRef .tc main_v3) = Spec.rowOf (A1 m c) :=
  (W8_of_ne m ρ c main_v3 (by decide)).trans (car7_main_v3 m ρ c)
theorem car9_main_v3 : W9 m ρ c (Proc.devRef .tc main_v3) = Spec.rowOf (A1 m c) :=
  (show W9 m ρ c (Proc.devRef .tc main_v3) = W8 m ρ c (Proc.devRef .tc main_v3) from by host_keep).trans (car8_main_v3 m ρ c)
theorem car10_main_v3 : W10 m ρ c (Proc.devRef .tc main_v3) = Spec.rowOf (A1 m c) :=
  (W10_of_ne m ρ c main_v3 (by decide)).trans (car9_main_v3 m ρ c)
theorem car11_main_v3 : W11 m ρ c (Proc.devRef .tc main_v3) = Spec.rowOf (A1 m c) :=
  (show W11 m ρ c (Proc.devRef .tc main_v3) = W10 m ρ c (Proc.devRef .tc main_v3) from by host_keep).trans (car10_main_v3 m ρ c)
theorem car12_main_v3 : W12 m ρ c (Proc.devRef .tc main_v3) = Spec.rowOf (A1 m c) :=
  (W12_of_ne m ρ c main_v3 (by decide)).trans (car11_main_v3 m ρ c)

theorem car3_main_v6 : W3 m ρ c (Proc.devRef .tc main_v6) = Spec.colOf (A1 m c) :=
  (congrFun (KHost.pre_eq (W0 m ρ c)) _).symm.trans (KHost.pre_col (W0 m ρ c))
theorem car4_main_v6 : W4 m ρ c (Proc.devRef .tc main_v6) = Spec.colOf (A1 m c) :=
  (W4_of_ne m ρ c main_v6 (by decide)).trans (car3_main_v6 m ρ c)
theorem car5_main_v6 : W5 m ρ c (Proc.devRef .tc main_v6) = Spec.colOf (A1 m c) :=
  (show W5 m ρ c (Proc.devRef .tc main_v6) = W4 m ρ c (Proc.devRef .tc main_v6) from by host_keep).trans (car4_main_v6 m ρ c)
theorem car6_main_v6 : W6 m ρ c (Proc.devRef .tc main_v6) = Spec.colOf (A1 m c) :=
  (W6_of_ne m ρ c main_v6 (by decide)).trans (car5_main_v6 m ρ c)
theorem car7_main_v6 : W7 m ρ c (Proc.devRef .tc main_v6) = Spec.colOf (A1 m c) :=
  (show W7 m ρ c (Proc.devRef .tc main_v6) = W6 m ρ c (Proc.devRef .tc main_v6) from by host_keep).trans (car6_main_v6 m ρ c)
theorem car8_main_v6 : W8 m ρ c (Proc.devRef .tc main_v6) = Spec.colOf (A1 m c) :=
  (W8_of_ne m ρ c main_v6 (by decide)).trans (car7_main_v6 m ρ c)
theorem car9_main_v6 : W9 m ρ c (Proc.devRef .tc main_v6) = Spec.colOf (A1 m c) :=
  (show W9 m ρ c (Proc.devRef .tc main_v6) = W8 m ρ c (Proc.devRef .tc main_v6) from by host_keep).trans (car8_main_v6 m ρ c)
theorem car10_main_v6 : W10 m ρ c (Proc.devRef .tc main_v6) = Spec.colOf (A1 m c) :=
  (W10_of_ne m ρ c main_v6 (by decide)).trans (car9_main_v6 m ρ c)
theorem car11_main_v6 : W11 m ρ c (Proc.devRef .tc main_v6) = Spec.colOf (A1 m c) :=
  (show W11 m ρ c (Proc.devRef .tc main_v6) = W10 m ρ c (Proc.devRef .tc main_v6) from by host_keep).trans (car10_main_v6 m ρ c)
theorem car12_main_v6 : W12 m ρ c (Proc.devRef .tc main_v6) = Spec.colOf (A1 m c) :=
  (W12_of_ne m ρ c main_v6 (by decide)).trans (car11_main_v6 m ρ c)

theorem car3_main_v31 : W3 m ρ c (Proc.devRef .tc main_v31) = Spec.normOf (Spec.rowOf (A1 m c)) (Spec.colOf (A1 m c)) :=
  (congrFun (KHost.pre_eq (W0 m ρ c)) _).symm.trans (KHost.pre_norm (W0 m ρ c))
theorem car4_main_v31 : W4 m ρ c (Proc.devRef .tc main_v31) = Spec.normOf (Spec.rowOf (A1 m c)) (Spec.colOf (A1 m c)) :=
  (W4_of_ne m ρ c main_v31 (by decide)).trans (car3_main_v31 m ρ c)
theorem car5_main_v31 : W5 m ρ c (Proc.devRef .tc main_v31) = Spec.normOf (Spec.rowOf (A1 m c)) (Spec.colOf (A1 m c)) :=
  (show W5 m ρ c (Proc.devRef .tc main_v31) = W4 m ρ c (Proc.devRef .tc main_v31) from by host_keep).trans (car4_main_v31 m ρ c)
theorem car6_main_v31 : W6 m ρ c (Proc.devRef .tc main_v31) = Spec.normOf (Spec.rowOf (A1 m c)) (Spec.colOf (A1 m c)) :=
  (W6_of_ne m ρ c main_v31 (by decide)).trans (car5_main_v31 m ρ c)
theorem car7_main_v31 : W7 m ρ c (Proc.devRef .tc main_v31) = Spec.normOf (Spec.rowOf (A1 m c)) (Spec.colOf (A1 m c)) :=
  (show W7 m ρ c (Proc.devRef .tc main_v31) = W6 m ρ c (Proc.devRef .tc main_v31) from by host_keep).trans (car6_main_v31 m ρ c)
theorem car8_main_v31 : W8 m ρ c (Proc.devRef .tc main_v31) = Spec.normOf (Spec.rowOf (A1 m c)) (Spec.colOf (A1 m c)) :=
  (W8_of_ne m ρ c main_v31 (by decide)).trans (car7_main_v31 m ρ c)
theorem car9_main_v31 : W9 m ρ c (Proc.devRef .tc main_v31) = Spec.normOf (Spec.rowOf (A1 m c)) (Spec.colOf (A1 m c)) :=
  (show W9 m ρ c (Proc.devRef .tc main_v31) = W8 m ρ c (Proc.devRef .tc main_v31) from by host_keep).trans (car8_main_v31 m ρ c)
theorem car10_main_v31 : W10 m ρ c (Proc.devRef .tc main_v31) = Spec.normOf (Spec.rowOf (A1 m c)) (Spec.colOf (A1 m c)) :=
  (W10_of_ne m ρ c main_v31 (by decide)).trans (car9_main_v31 m ρ c)
theorem car11_main_v31 : W11 m ρ c (Proc.devRef .tc main_v31) = Spec.normOf (Spec.rowOf (A1 m c)) (Spec.colOf (A1 m c)) :=
  (show W11 m ρ c (Proc.devRef .tc main_v31) = W10 m ρ c (Proc.devRef .tc main_v31) from by host_keep).trans (car10_main_v31 m ρ c)
theorem car12_main_v31 : W12 m ρ c (Proc.devRef .tc main_v31) = Spec.normOf (Spec.rowOf (A1 m c)) (Spec.colOf (A1 m c)) :=
  (W12_of_ne m ρ c main_v31 (by decide)).trans (car11_main_v31 m ρ c)

theorem car3_main_arg2 : W3 m ρ c (Proc.devRef .tc main_arg2) = A2 m c :=
  (congrFun (KHost.pre_eq (W0 m ρ c)) _).symm.trans (KHost.pre_arg2 (W0 m ρ c))
theorem car4_main_arg2 : W4 m ρ c (Proc.devRef .tc main_arg2) = A2 m c :=
  (W4_of_ne m ρ c main_arg2 (by decide)).trans (car3_main_arg2 m ρ c)
theorem car5_main_arg2 : W5 m ρ c (Proc.devRef .tc main_arg2) = A2 m c :=
  (show W5 m ρ c (Proc.devRef .tc main_arg2) = W4 m ρ c (Proc.devRef .tc main_arg2) from by host_keep).trans (car4_main_arg2 m ρ c)
theorem car6_main_arg2 : W6 m ρ c (Proc.devRef .tc main_arg2) = A2 m c :=
  (W6_of_ne m ρ c main_arg2 (by decide)).trans (car5_main_arg2 m ρ c)
theorem car7_main_arg2 : W7 m ρ c (Proc.devRef .tc main_arg2) = A2 m c :=
  (show W7 m ρ c (Proc.devRef .tc main_arg2) = W6 m ρ c (Proc.devRef .tc main_arg2) from by host_keep).trans (car6_main_arg2 m ρ c)
theorem car8_main_arg2 : W8 m ρ c (Proc.devRef .tc main_arg2) = A2 m c :=
  (W8_of_ne m ρ c main_arg2 (by decide)).trans (car7_main_arg2 m ρ c)
theorem car9_main_arg2 : W9 m ρ c (Proc.devRef .tc main_arg2) = A2 m c :=
  (show W9 m ρ c (Proc.devRef .tc main_arg2) = W8 m ρ c (Proc.devRef .tc main_arg2) from by host_keep).trans (car8_main_arg2 m ρ c)
theorem car10_main_arg2 : W10 m ρ c (Proc.devRef .tc main_arg2) = A2 m c :=
  (W10_of_ne m ρ c main_arg2 (by decide)).trans (car9_main_arg2 m ρ c)
theorem car11_main_arg2 : W11 m ρ c (Proc.devRef .tc main_arg2) = A2 m c :=
  (show W11 m ρ c (Proc.devRef .tc main_arg2) = W10 m ρ c (Proc.devRef .tc main_arg2) from by host_keep).trans (car10_main_arg2 m ρ c)
theorem car12_main_arg2 : W12 m ρ c (Proc.devRef .tc main_arg2) = A2 m c :=
  (W12_of_ne m ρ c main_arg2 (by decide)).trans (car11_main_arg2 m ρ c)

theorem car3_main_arg3 : W3 m ρ c (Proc.devRef .tc main_arg3) = A3 m c :=
  (congrFun (KHost.pre_eq (W0 m ρ c)) _).symm.trans (KHost.pre_arg3 (W0 m ρ c))
theorem car4_main_arg3 : W4 m ρ c (Proc.devRef .tc main_arg3) = A3 m c :=
  (W4_of_ne m ρ c main_arg3 (by decide)).trans (car3_main_arg3 m ρ c)
theorem car5_main_arg3 : W5 m ρ c (Proc.devRef .tc main_arg3) = A3 m c :=
  (show W5 m ρ c (Proc.devRef .tc main_arg3) = W4 m ρ c (Proc.devRef .tc main_arg3) from by host_keep).trans (car4_main_arg3 m ρ c)
theorem car6_main_arg3 : W6 m ρ c (Proc.devRef .tc main_arg3) = A3 m c :=
  (W6_of_ne m ρ c main_arg3 (by decide)).trans (car5_main_arg3 m ρ c)
theorem car7_main_arg3 : W7 m ρ c (Proc.devRef .tc main_arg3) = A3 m c :=
  (show W7 m ρ c (Proc.devRef .tc main_arg3) = W6 m ρ c (Proc.devRef .tc main_arg3) from by host_keep).trans (car6_main_arg3 m ρ c)
theorem car8_main_arg3 : W8 m ρ c (Proc.devRef .tc main_arg3) = A3 m c :=
  (W8_of_ne m ρ c main_arg3 (by decide)).trans (car7_main_arg3 m ρ c)
theorem car9_main_arg3 : W9 m ρ c (Proc.devRef .tc main_arg3) = A3 m c :=
  (show W9 m ρ c (Proc.devRef .tc main_arg3) = W8 m ρ c (Proc.devRef .tc main_arg3) from by host_keep).trans (car8_main_arg3 m ρ c)
theorem car10_main_arg3 : W10 m ρ c (Proc.devRef .tc main_arg3) = A3 m c :=
  (W10_of_ne m ρ c main_arg3 (by decide)).trans (car9_main_arg3 m ρ c)
theorem car11_main_arg3 : W11 m ρ c (Proc.devRef .tc main_arg3) = A3 m c :=
  (show W11 m ρ c (Proc.devRef .tc main_arg3) = W10 m ρ c (Proc.devRef .tc main_arg3) from by host_keep).trans (car10_main_arg3 m ρ c)
theorem car12_main_arg3 : W12 m ρ c (Proc.devRef .tc main_arg3) = A3 m c :=
  (W12_of_ne m ρ c main_arg3 (by decide)).trans (car11_main_arg3 m ρ c)

theorem car3_main_arg4 : W3 m ρ c (Proc.devRef .tc main_arg4) = A4 m c :=
  (congrFun (KHost.pre_eq (W0 m ρ c)) _).symm.trans (KHost.pre_arg4 (W0 m ρ c))
theorem car4_main_arg4 : W4 m ρ c (Proc.devRef .tc main_arg4) = A4 m c :=
  (W4_of_ne m ρ c main_arg4 (by decide)).trans (car3_main_arg4 m ρ c)
theorem car5_main_arg4 : W5 m ρ c (Proc.devRef .tc main_arg4) = A4 m c :=
  (show W5 m ρ c (Proc.devRef .tc main_arg4) = W4 m ρ c (Proc.devRef .tc main_arg4) from by host_keep).trans (car4_main_arg4 m ρ c)
theorem car6_main_arg4 : W6 m ρ c (Proc.devRef .tc main_arg4) = A4 m c :=
  (W6_of_ne m ρ c main_arg4 (by decide)).trans (car5_main_arg4 m ρ c)
theorem car7_main_arg4 : W7 m ρ c (Proc.devRef .tc main_arg4) = A4 m c :=
  (show W7 m ρ c (Proc.devRef .tc main_arg4) = W6 m ρ c (Proc.devRef .tc main_arg4) from by host_keep).trans (car6_main_arg4 m ρ c)
theorem car8_main_arg4 : W8 m ρ c (Proc.devRef .tc main_arg4) = A4 m c :=
  (W8_of_ne m ρ c main_arg4 (by decide)).trans (car7_main_arg4 m ρ c)
theorem car9_main_arg4 : W9 m ρ c (Proc.devRef .tc main_arg4) = A4 m c :=
  (show W9 m ρ c (Proc.devRef .tc main_arg4) = W8 m ρ c (Proc.devRef .tc main_arg4) from by host_keep).trans (car8_main_arg4 m ρ c)
theorem car10_main_arg4 : W10 m ρ c (Proc.devRef .tc main_arg4) = A4 m c :=
  (W10_of_ne m ρ c main_arg4 (by decide)).trans (car9_main_arg4 m ρ c)
theorem car11_main_arg4 : W11 m ρ c (Proc.devRef .tc main_arg4) = A4 m c :=
  (show W11 m ρ c (Proc.devRef .tc main_arg4) = W10 m ρ c (Proc.devRef .tc main_arg4) from by host_keep).trans (car10_main_arg4 m ρ c)
theorem car12_main_arg4 : W12 m ρ c (Proc.devRef .tc main_arg4) = A4 m c :=
  (W12_of_ne m ρ c main_arg4 (by decide)).trans (car11_main_arg4 m ρ c)

theorem car3_main_arg5 : W3 m ρ c (Proc.devRef .tc main_arg5) = A5 m c :=
  (congrFun (KHost.pre_eq (W0 m ρ c)) _).symm.trans (KHost.pre_arg5 (W0 m ρ c))
theorem car4_main_arg5 : W4 m ρ c (Proc.devRef .tc main_arg5) = A5 m c :=
  (W4_of_ne m ρ c main_arg5 (by decide)).trans (car3_main_arg5 m ρ c)
theorem car5_main_arg5 : W5 m ρ c (Proc.devRef .tc main_arg5) = A5 m c :=
  (show W5 m ρ c (Proc.devRef .tc main_arg5) = W4 m ρ c (Proc.devRef .tc main_arg5) from by host_keep).trans (car4_main_arg5 m ρ c)
theorem car6_main_arg5 : W6 m ρ c (Proc.devRef .tc main_arg5) = A5 m c :=
  (W6_of_ne m ρ c main_arg5 (by decide)).trans (car5_main_arg5 m ρ c)
theorem car7_main_arg5 : W7 m ρ c (Proc.devRef .tc main_arg5) = A5 m c :=
  (show W7 m ρ c (Proc.devRef .tc main_arg5) = W6 m ρ c (Proc.devRef .tc main_arg5) from by host_keep).trans (car6_main_arg5 m ρ c)
theorem car8_main_arg5 : W8 m ρ c (Proc.devRef .tc main_arg5) = A5 m c :=
  (W8_of_ne m ρ c main_arg5 (by decide)).trans (car7_main_arg5 m ρ c)
theorem car9_main_arg5 : W9 m ρ c (Proc.devRef .tc main_arg5) = A5 m c :=
  (show W9 m ρ c (Proc.devRef .tc main_arg5) = W8 m ρ c (Proc.devRef .tc main_arg5) from by host_keep).trans (car8_main_arg5 m ρ c)
theorem car10_main_arg5 : W10 m ρ c (Proc.devRef .tc main_arg5) = A5 m c :=
  (W10_of_ne m ρ c main_arg5 (by decide)).trans (car9_main_arg5 m ρ c)
theorem car11_main_arg5 : W11 m ρ c (Proc.devRef .tc main_arg5) = A5 m c :=
  (show W11 m ρ c (Proc.devRef .tc main_arg5) = W10 m ρ c (Proc.devRef .tc main_arg5) from by host_keep).trans (car10_main_arg5 m ρ c)
theorem car12_main_arg5 : W12 m ρ c (Proc.devRef .tc main_arg5) = A5 m c :=
  (W12_of_ne m ρ c main_arg5 (by decide)).trans (car11_main_arg5 m ρ c)

/-! ## Layer 1 -/

theorem W3_x : W3 m ρ c (Proc.devRef .tc main_arg0) = A0 m c :=
  (congrFun (KHost.pre_eq (W0 m ρ c)) _).symm.trans (KHost.pre_arg0 (W0 m ρ c))
theorem W3_w : W3 m ρ c (Proc.devRef .tc main_v33) = Spec.w0 (A2 m c) :=
  (congrFun (KHost.pre_eq (W0 m ρ c)) _).symm.trans (KHost.pre_w (W0 m ρ c))

theorem W4_x : W4 m ρ c (Proc.devRef .tc main_arg0) = A0 m c :=
  ((W4_arr m ρ c 0).trans (((dat0 (V3 m ρ) c).arrAt_in 0 rfl _).trans (A_eq0 (V3 m ρ) c 0))).trans (W3_x m ρ c)

theorem W4_h : W4 m ρ c (Proc.devRef .tc main_v34) = Spec.hOf (A0 m c) (Spec.w0 (A2 m c)) := by
  refine ((W4_arr m ρ c 2).trans (KRegion0.final2 (V3 m ρ) c)).trans ?_
  show Spec.hOf (W3 m ρ c (Proc.devRef .tc main_arg0)) (W3 m ρ c (Proc.devRef .tc main_v33)) = _
  rw [W3_x, W3_w]

theorem W5_x : W5 m ρ c (Proc.devRef .tc main_arg0) = A0 m c :=
  (show W5 m ρ c (Proc.devRef .tc main_arg0) = W4 m ρ c (Proc.devRef .tc main_arg0) from by host_keep).trans (W4_x m ρ c)

theorem W5_conv : W5 m ρ c (Proc.devRef .tc main_v47)
    = Spec.convOf (Spec.hOf (A0 m c) (Spec.w0 (A2 m c))) (Spec.rowOf (A1 m c)) (Spec.colOf (A1 m c))
        (Spec.normOf (Spec.rowOf (A1 m c)) (Spec.colOf (A1 m c))) :=
  (KHost.h1_conv (W4 m ρ c)).trans (by rw [W4_h, car4_main_v3, car4_main_v6, car4_main_v31])
theorem W5_bias : W5 m ρ c (Proc.devRef .tc main_v50) = Spec.bias0 (A3 m c) :=
  (KHost.h1_bias (W4 m ρ c)).trans (by rw [car4_main_arg3])
theorem W5_g : W5 m ρ c (Proc.devRef .tc main_v53) = Spec.lnRow0 (A4 m c) :=
  (KHost.h1_g (W4 m ρ c)).trans (by rw [car4_main_arg4])
theorem W5_b : W5 m ρ c (Proc.devRef .tc main_v56) = Spec.lnRow0 (A5 m c) :=
  (KHost.h1_b (W4 m ρ c)).trans (by rw [car4_main_arg5])

theorem W6_emb : W6 m ρ c (Proc.devRef .tc main_v57_0) = Spec.emb1 (A0 m c) (A1 m c) (A2 m c) (A3 m c) := by
  refine ((W6_arr m ρ c 5).trans (KRegion1.final5 (V5 m ρ) c)).trans ?_
  show Spec.embOf (W5 m ρ c (Proc.devRef .tc main_arg0)) (W5 m ρ c (Proc.devRef .tc main_v47)) (W5 m ρ c (Proc.devRef .tc main_v50)) = _
  rw [W5_x, W5_conv, W5_bias]
  rfl

theorem W6_x : W6 m ρ c (Proc.devRef .tc main_v57_1) = Spec.x1 (A0 m c) (A1 m c) (A2 m c) (A3 m c) (A4 m c) (A5 m c) := by
  refine ((W6_arr m ρ c 6).trans (KRegion1.final6 (V5 m ρ) c)).trans ?_
  show Spec.lnOf (Spec.reluOf (Spec.embOf (W5 m ρ c (Proc.devRef .tc main_arg0)) (W5 m ρ c (Proc.devRef .tc main_v47)) (W5 m ρ c (Proc.devRef .tc main_v50))))
      (W5 m ρ c (Proc.devRef .tc main_v53)) (W5 m ρ c (Proc.devRef .tc main_v56)) = _
  rw [W5_x, W5_conv, W5_bias, W5_g, W5_b]
  rfl

/-! ## Layer 2 -/

theorem W7_x : W7 m ρ c (Proc.devRef .tc main_v57_1) = Spec.x1 (A0 m c) (A1 m c) (A2 m c) (A3 m c) (A4 m c) (A5 m c) :=
  (show W7 m ρ c (Proc.devRef .tc main_v57_1) = W6 m ρ c (Proc.devRef .tc main_v57_1) from by host_keep).trans (W6_x m ρ c)
theorem W7_w : W7 m ρ c (Proc.devRef .tc main_v59) = Spec.w1 (A2 m c) :=
  (KHost.h2_w (W6 m ρ c)).trans (by rw [car6_main_arg2])

theorem W8_x : W8 m ρ c (Proc.devRef .tc main_v57_1) = Spec.x1 (A0 m c) (A1 m c) (A2 m c) (A3 m c) (A4 m c) (A5 m c) :=
  ((W8_arr m ρ c 0).trans (((dat2 (V7 m ρ) c).arrAt_in 0 rfl _).trans (A_eq2 (V7 m ρ) c 0))).trans (W7_x m ρ c)

theorem W8_h : W8 m ρ c (Proc.devRef .tc main_v60)
    = Spec.hOf (Spec.x1 (A0 m c) (A1 m c) (A2 m c) (A3 m c) (A4 m c) (A5 m c)) (Spec.w1 (A2 m c)) := by
  refine ((W8_arr m ρ c 2).trans (KRegion2.final2 (V7 m ρ) c)).trans ?_
  show Spec.hOf (W7 m ρ c (Proc.devRef .tc main_v57_1)) (W7 m ρ c (Proc.devRef .tc main_v59)) = _
  rw [W7_x, W7_w]

theorem W9_x : W9 m ρ c (Proc.devRef .tc main_v57_1) = Spec.x1 (A0 m c) (A1 m c) (A2 m c) (A3 m c) (A4 m c) (A5 m c) :=
  (show W9 m ρ c (Proc.devRef .tc main_v57_1) = W8 m ρ c (Proc.devRef .tc main_v57_1) from by host_keep).trans (W8_x m ρ c)

theorem W9_conv : W9 m ρ c (Proc.devRef .tc main_v73)
    = Spec.convOf (Spec.hOf (Spec.x1 (A0 m c) (A1 m c) (A2 m c) (A3 m c) (A4 m c) (A5 m c)) (Spec.w1 (A2 m c)))
        (Spec.rowOf (A1 m c)) (Spec.colOf (A1 m c)) (Spec.normOf (Spec.rowOf (A1 m c)) (Spec.colOf (A1 m c))) :=
  (KHost.h3_conv (W8 m ρ c)).trans (by rw [W8_h, car8_main_v3, car8_main_v6, car8_main_v31])
theorem W9_bias : W9 m ρ c (Proc.devRef .tc main_v76) = Spec.bias1 (A3 m c) :=
  (KHost.h3_bias (W8 m ρ c)).trans (by rw [car8_main_arg3])
theorem W9_g : W9 m ρ c (Proc.devRef .tc main_v79) = Spec.lnRow1 (A4 m c) :=
  (KHost.h3_g (W8 m ρ c)).trans (by rw [car8_main_arg4])
theorem W9_b : W9 m ρ c (Proc.devRef .tc main_v82) = Spec.lnRow1 (A5 m c) :=
  (KHost.h3_b (W8 m ρ c)).trans (by rw [car8_main_arg5])

theorem W10_x : W10 m ρ c (Proc.devRef .tc main_v83_1) = Spec.x2 (A0 m c) (A1 m c) (A2 m c) (A3 m c) (A4 m c) (A5 m c) := by
  refine ((W10_arr m ρ c 6).trans (KRegion3.final6 (V9 m ρ) c)).trans ?_
  show Spec.lnOf (Spec.reluOf (Spec.embOf (W9 m ρ c (Proc.devRef .tc main_v57_1)) (W9 m ρ c (Proc.devRef .tc main_v73)) (W9 m ρ c (Proc.devRef .tc main_v76))))
      (W9 m ρ c (Proc.devRef .tc main_v79)) (W9 m ρ c (Proc.devRef .tc main_v82)) = _
  rw [W9_x, W9_conv, W9_bias, W9_g, W9_b]
  rfl

/-! ## Layer 3 -/

theorem W11_x : W11 m ρ c (Proc.devRef .tc main_v83_1) = Spec.x2 (A0 m c) (A1 m c) (A2 m c) (A3 m c) (A4 m c) (A5 m c) :=
  (show W11 m ρ c (Proc.devRef .tc main_v83_1) = W10 m ρ c (Proc.devRef .tc main_v83_1) from by host_keep).trans (W10_x m ρ c)
theorem W11_w : W11 m ρ c (Proc.devRef .tc main_v85) = Spec.w2 (A2 m c) :=
  (KHost.h4_w (W10 m ρ c)).trans (by rw [car10_main_arg2])

theorem W12_x : W12 m ρ c (Proc.devRef .tc main_v83_1) = Spec.x2 (A0 m c) (A1 m c) (A2 m c) (A3 m c) (A4 m c) (A5 m c) :=
  ((W12_arr m ρ c 0).trans (((dat4 (V11 m ρ) c).arrAt_in 0 rfl _).trans (A_eq4 (V11 m ρ) c 0))).trans (W11_x m ρ c)

theorem W12_h : W12 m ρ c (Proc.devRef .tc main_v86)
    = Spec.hOf (Spec.x2 (A0 m c) (A1 m c) (A2 m c) (A3 m c) (A4 m c) (A5 m c)) (Spec.w2 (A2 m c)) := by
  refine ((W12_arr m ρ c 2).trans (KRegion4.final2 (V11 m ρ) c)).trans ?_
  show Spec.hOf (W11 m ρ c (Proc.devRef .tc main_v83_1)) (W11 m ρ c (Proc.devRef .tc main_v85)) = _
  rw [W11_x, W11_w]

theorem W13_x : W13 m ρ c (Proc.devRef .tc main_v83_1) = Spec.x2 (A0 m c) (A1 m c) (A2 m c) (A3 m c) (A4 m c) (A5 m c) :=
  (show W13 m ρ c (Proc.devRef .tc main_v83_1) = W12 m ρ c (Proc.devRef .tc main_v83_1) from by host_keep).trans (W12_x m ρ c)

theorem W13_conv : W13 m ρ c (Proc.devRef .tc main_v99)
    = Spec.convOf (Spec.hOf (Spec.x2 (A0 m c) (A1 m c) (A2 m c) (A3 m c) (A4 m c) (A5 m c)) (Spec.w2 (A2 m c)))
        (Spec.rowOf (A1 m c)) (Spec.colOf (A1 m c)) (Spec.normOf (Spec.rowOf (A1 m c)) (Spec.colOf (A1 m c))) :=
  (KHost.h5_conv (W12 m ρ c)).trans (by rw [W12_h, car12_main_v3, car12_main_v6, car12_main_v31])
theorem W13_bias : W13 m ρ c (Proc.devRef .tc main_v102) = Spec.bias2 (A3 m c) :=
  (KHost.h5_bias (W12 m ρ c)).trans (by rw [car12_main_arg3])

/-- The first result: the last layer's pre-activation. -/
theorem out_emb : W14 m ρ c (Proc.devRef .tc main_v103_0) = Spec.emb3 (A0 m c) (A1 m c) (A2 m c) (A3 m c) (A4 m c) (A5 m c) := by
  refine ((W14_arr m ρ c 3).trans (KRegion5.final3 (V13 m ρ) c)).trans ?_
  show Spec.embOf (W13 m ρ c (Proc.devRef .tc main_v83_1)) (W13 m ρ c (Proc.devRef .tc main_v99)) (W13 m ρ c (Proc.devRef .tc main_v102)) = _
  rw [W13_x, W13_conv, W13_bias]
  rfl

/-- The second result: its rectification. -/
theorem out_x : W14 m ρ c (Proc.devRef .tc main_v103_1) = Spec.x3 (A0 m c) (A1 m c) (A2 m c) (A3 m c) (A4 m c) (A5 m c) := by
  refine ((W14_arr m ρ c 4).trans (KRegion5.final4 (V13 m ρ) c)).trans ?_
  show Spec.reluOf (Spec.embOf (W13 m ρ c (Proc.devRef .tc main_v83_1)) (W13 m ρ c (Proc.devRef .tc main_v99)) (W13 m ρ c (Proc.devRef .tc main_v102))) = _
  rw [W13_x, W13_conv, W13_bias]
  rfl

end Cert.KChain

end
-- ==== Proof.RefOps.lean ====
import proofs.«151697_j9594956939369_2_alg».proof.Proof.Gen.ReferenceIdeal
import Idealize.ShloMosaic.Lib.StableHlo.Run

/-! The reference program's straight line of host operations, as four lists: its @main's statements in order, each
    outlined function's body written out at its call over that call's record of buffers. The lists are cut where
    the degree normalisation ends (`opsPre`) and after each of the three graph-convolution layers. Beside each list,
    the references its operations write. -/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The edge lists with self loops, the degrees, their inverse square roots and the edge weights: @main up to %31. 43 operations. -/
abbrev opsPre : List (HloOp τ sig (Elt F)) :=
  [ StableHlo.nullary main_v0 (iotaInDim S100000 32 0),
    StableHlo.unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v1 main_v2 rfl shapeCasts_S1x1600000_S1600000,
    StableHlo.binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v4 main_v5 rfl shapeCasts_S1x1600000_S1600000,
    StableHlo.binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.nullary main_cst (constant S_ .f32 0x3F800000#32),
    StableHlo.unary main_cst main_v7 (broadcastInDim S1700000 ![] bcast_S_S1700000 : (⟨S_, .f32⟩ : BufTy).Contents (Elt F) → (⟨S1700000, .f32⟩ : BufTy).Contents (Elt F)),
    StableHlo.nullary main_cst_0 (constant S_ .f32 0x00000000#32),
    StableHlo.unary main_cst_0 main_v8 (broadcastInDim S100000 ![] bcast_S_S100000 : (⟨S_, .f32⟩ : BufTy).Contents (Elt F) → (⟨S100000, .f32⟩ : BufTy).Contents (Elt F)),
    StableHlo.unary main_v3 main_v9 (broadcastInDim S1700000x1 ![0] bcast_S1700000_S1700000x1_0 : (⟨S1700000, .i32⟩ : BufTy).Contents (Elt F) → (⟨S1700000x1, .i32⟩ : BufTy).Contents (Elt F)),
    StableHlo.ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    StableHlo.nullary main_cst_1 (constant S_ .f32 0x00000000#32),
    StableHlo.unary main_cst_1 main_v11 (broadcastInDim S100000 ![] bcast_S_S100000 : (⟨S_, .f32⟩ : BufTy).Contents (Elt F) → (⟨S100000, .f32⟩ : BufTy).Contents (Elt F)),
    StableHlo.binary main_v10 main_v11 main_v12 (cmpf .ogt : (⟨S100000, .f32⟩ : BufTy).Contents (Elt F) → (⟨S100000, .f32⟩ : BufTy).Contents (Elt F) → (⟨S100000, .i1⟩ : BufTy).Contents (Elt F)),
    StableHlo.unary main_v10 main_v13 (Host.sqrt : (⟨S100000, .f32⟩ : BufTy).Contents (Elt F) → (⟨S100000, .f32⟩ : BufTy).Contents (Elt F)),
    StableHlo.nullary main_cst_2 (constant S_ .f32 0x3F800000#32),
    StableHlo.unary main_cst_2 main_v14 (broadcastInDim S100000 ![] bcast_S_S100000 : (⟨S_, .f32⟩ : BufTy).Contents (Elt F) → (⟨S100000, .f32⟩ : BufTy).Contents (Elt F)),
    StableHlo.binary main_v14 main_v13 main_v15 (Host.divf : (⟨S100000, .f32⟩ : BufTy).Contents (Elt F) → (⟨S100000, .f32⟩ : BufTy).Contents (Elt F) → (⟨S100000, .f32⟩ : BufTy).Contents (Elt F)),
    StableHlo.nullary main_cst_3 (constant S_ .f32 0x00000000#32),
    StableHlo.TRef.unary (StableHlo.TRef.of main_cst_3 : StableHlo.TRef sig ⟨S_, .f32⟩) main_call0.v0 id,
    StableHlo.TRef.unary main_call0.v0 main_call0.v1 (broadcastInDim S100000 ![] bcast_S_S100000),
    StableHlo.TRef.ternary (StableHlo.TRef.of main_v12 : StableHlo.TRef sig ⟨S100000, .i1⟩) (StableHlo.TRef.of main_v15 : StableHlo.TRef sig ⟨S100000, .f32⟩) main_call0.v1 main_call0.v2 select,
    StableHlo.nullary main_c (constantI S_ 32 0#32),
    StableHlo.unary main_c main_v17 (broadcastInDim S1700000 ![] bcast_S_S1700000 : (⟨S_, .i32⟩ : BufTy).Contents (Elt F) → (⟨S1700000, .i32⟩ : BufTy).Contents (Elt F)),
    StableHlo.binary main_v3 main_v17 main_v18 (cmpi .slt : (⟨S1700000, .i32⟩ : BufTy).Contents (Elt F) → (⟨S1700000, .i32⟩ : BufTy).Contents (Elt F) → (⟨S1700000, .i1⟩ : BufTy).Contents (Elt F)),
    StableHlo.nullary main_c_4 (constantI S_ 32 100000#32),
    StableHlo.unary main_c_4 main_v19 (broadcastInDim S1700000 ![] bcast_S_S1700000 : (⟨S_, .i32⟩ : BufTy).Contents (Elt F) → (⟨S1700000, .i32⟩ : BufTy).Contents (Elt F)),
    StableHlo.binary main_v3 main_v19 main_v20 (addi : (⟨S1700000, .i32⟩ : BufTy).Contents (Elt F) → (⟨S1700000, .i32⟩ : BufTy).Contents (Elt F) → (⟨S1700000, .i32⟩ : BufTy).Contents (Elt F)),
    StableHlo.ternary main_v18 main_v20 main_v3 main_v21 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v21 main_v22 (broadcastInDim S1700000x1 ![0] bcast_S1700000_S1700000x1_0 : (⟨S1700000, .i32⟩ : BufTy).Contents (Elt F) → (⟨S1700000x1, .i32⟩ : BufTy).Contents (Elt F)),
    StableHlo.binary main_v16 main_v22 main_v23 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.nullary main_c_5 (constantI S_ 32 0#32),
    StableHlo.unary main_c_5 main_v24 (broadcastInDim S1700000 ![] bcast_S_S1700000 : (⟨S_, .i32⟩ : BufTy).Contents (Elt F) → (⟨S1700000, .i32⟩ : BufTy).Contents (Elt F)),
    StableHlo.binary main_v6 main_v24 main_v25 (cmpi .slt : (⟨S1700000, .i32⟩ : BufTy).Contents (Elt F) → (⟨S1700000, .i32⟩ : BufTy).Contents (Elt F) → (⟨S1700000, .i1⟩ : BufTy).Contents (Elt F)),
    StableHlo.nullary main_c_6 (constantI S_ 32 100000#32),
    StableHlo.unary main_c_6 main_v26 (broadcastInDim S1700000 ![] bcast_S_S1700000 : (⟨S_, .i32⟩ : BufTy).Contents (Elt F) → (⟨S1700000, .i32⟩ : BufTy).Contents (Elt F)),
    StableHlo.binary main_v6 main_v26 main_v27 (addi : (⟨S1700000, .i32⟩ : BufTy).Contents (Elt F) → (⟨S1700000, .i32⟩ : BufTy).Contents (Elt F) → (⟨S1700000, .i32⟩ : BufTy).Contents (Elt F)),
    StableHlo.ternary main_v25 main_v27 main_v6 main_v28 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v28 main_v29 (broadcastInDim S1700000x1 ![0] bcast_S1700000_S1700000x1_0 : (⟨S1700000, .i32⟩ : BufTy).Contents (Elt F) → (⟨S1700000x1, .i32⟩ : BufTy).Contents (Elt F)),
    StableHlo.binary main_v16 main_v29 main_v30 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v23 main_v30 main_v31 (mulf : (⟨S1700000, .f32⟩ : BufTy).Contents (Elt F) → (⟨S1700000, .f32⟩ : BufTy).Contents (Elt F) → (⟨S1700000, .f32⟩ : BufTy).Contents (Elt F)) ]

/-- The references `opsPre` writes, in order. -/
abbrev opsPre_W : List (Ref sig .tc) :=
  [main_v0, main_v1, main_v2, main_v3, main_v4, main_v5, main_v6, main_cst, main_v7, main_cst_0, main_v8, main_v9, main_v10, main_cst_1, main_v11, main_v12, main_v13, main_cst_2, main_v14, main_v15, main_cst_3, main_call0.v0.ref, main_call0.v1.ref, main_call0.v2.ref, main_c, main_v17, main_v18, main_c_4, main_v19, main_v20, main_v21, main_v22, main_v23, main_c_5, main_v24, main_v25, main_c_6, main_v26, main_v27, main_v28, main_v29, main_v30, main_v31]

/-- The first layer: @main from %32 through %76. 76 operations. -/
abbrev opsL1 : List (HloOp τ sig (Elt F)) :=
  [ StableHlo.unary main_arg2 main_v32 ((extractStridedSlice S1x64x64 ![0, 0, 0] · slices_S3x64x64_S1x64x64_0_0_0) : (⟨S3x64x64, .f32⟩ : BufTy).Contents (Elt F) → (⟨S1x64x64, .f32⟩ : BufTy).Contents (Elt F)),
    StableHlo.reshape main_v32 main_v33 rfl shapeCasts_S1x64x64_S64x64,
    StableHlo.binary main_arg0 main_v33 main_v34 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.nullary main_c_7 (constantI S_ 32 0#32),
    StableHlo.unary main_c_7 main_v35 (broadcastInDim S1700000 ![] bcast_S_S1700000 : (⟨S_, .i32⟩ : BufTy).Contents (Elt F) → (⟨S1700000, .i32⟩ : BufTy).Contents (Elt F)),
    StableHlo.binary main_v6 main_v35 main_v36 (cmpi .slt : (⟨S1700000, .i32⟩ : BufTy).Contents (Elt F) → (⟨S1700000, .i32⟩ : BufTy).Contents (Elt F) → (⟨S1700000, .i1⟩ : BufTy).Contents (Elt F)),
    StableHlo.nullary main_c_8 (constantI S_ 32 100000#32),
    StableHlo.unary main_c_8 main_v37 (broadcastInDim S1700000 ![] bcast_S_S1700000 : (⟨S_, .i32⟩ : BufTy).Contents (Elt F) → (⟨S1700000, .i32⟩ : BufTy).Contents (Elt F)),
    StableHlo.binary main_v6 main_v37 main_v38 (addi : (⟨S1700000, .i32⟩ : BufTy).Contents (Elt F) → (⟨S1700000, .i32⟩ : BufTy).Contents (Elt F) → (⟨S1700000, .i32⟩ : BufTy).Contents (Elt F)),
    StableHlo.ternary main_v36 main_v38 main_v6 main_v39 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v39 main_v40 (broadcastInDim S1700000x1 ![0] bcast_S1700000_S1700000x1_0 : (⟨S1700000, .i32⟩ : BufTy).Contents (Elt F) → (⟨S1700000x1, .i32⟩ : BufTy).Contents (Elt F)),
    StableHlo.binary main_v34 main_v40 main_v41 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    StableHlo.unary main_v31 main_v42 (broadcastInDim S1700000x1 ![0] bcast_S1700000_S1700000x1_0 : (⟨S1700000, .f32⟩ : BufTy).Contents (Elt F) → (⟨S1700000x1, .f32⟩ : BufTy).Contents (Elt F)),
    StableHlo.unary main_v42 main_v43 (broadcastInDim S1700000x64 ![0, 1] bcast_S1700000x1_S1700000x64_0_1 : (⟨S1700000x1, .f32⟩ : BufTy).Contents (Elt F) → (⟨S1700000x64, .f32⟩ : BufTy).Contents (Elt F)),
    StableHlo.binary main_v41 main_v43 main_v44 (mulf : (⟨S1700000x64, .f32⟩ : BufTy).Contents (Elt F) → (⟨S1700000x64, .f32⟩ : BufTy).Contents (Elt F) → (⟨S1700000x64, .f32⟩ : BufTy).Contents (Elt F)),
    StableHlo.nullary main_cst_9 (constant S_ .f32 0x00000000#32),
    StableHlo.unary main_cst_9 main_v45 (broadcastInDim S100000x64 ![] bcast_S_S100000x64 : (⟨S_, .f32⟩ : BufTy).Contents (Elt F) → (⟨S100000x64, .f32⟩ : BufTy).Contents (Elt F)),
    StableHlo.unary main_v3 main_v46 (broadcastInDim S1700000x1 ![0] bcast_S1700000_S1700000x1_0 : (⟨S1700000, .i32⟩ : BufTy).Contents (Elt F) → (⟨S1700000x1, .i32⟩ : BufTy).Contents (Elt F)),
    StableHlo.ternary main_v45 main_v46 main_v44 main_v47 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    StableHlo.unary main_arg3 main_v48 ((extractStridedSlice S1x64 ![0, 0] · slices_S3x64_S1x64_0_0) : (⟨S3x64, .f32⟩ : BufTy).Contents (Elt F) → (⟨S1x64, .f32⟩ : BufTy).Contents (Elt F)),
    StableHlo.reshape main_v48 main_v49 rfl shapeCasts_S1x64_S64,
    StableHlo.unary main_v49 main_v50 (broadcastInDim S1x64 ![1] bcast_S64_S1x64_1 : (⟨S64, .f32⟩ : BufTy).Contents (Elt F) → (⟨S1x64, .f32⟩ : BufTy).Contents (Elt F)),
    StableHlo.unary main_v50 main_v51 (broadcastInDim S100000x64 ![0, 1] bcast_S1x64_S100000x64_0_1 : (⟨S1x64, .f32⟩ : BufTy).Contents (Elt F) → (⟨S100000x64, .f32⟩ : BufTy).Contents (Elt F)),
    StableHlo.binary main_v47 main_v51 main_v52 (addf : (⟨S100000x64, .f32⟩ : BufTy).Contents (Elt F) → (⟨S100000x64, .f32⟩ : BufTy).Contents (Elt F) → (⟨S100000x64, .f32⟩ : BufTy).Contents (Elt F)),
    StableHlo.binary main_arg0 main_v52 main_v53 (addf : (⟨S100000x64, .f32⟩ : BufTy).Contents (Elt F) → (⟨S100000x64, .f32⟩ : BufTy).Contents (Elt F) → (⟨S100000x64, .f32⟩ : BufTy).Contents (Elt F)),
    StableHlo.TRef.nullary main_call1.cst (constant S_ .f32 0x00000000#32),
    StableHlo.TRef.unary main_call1.cst main_call1.v0 (broadcastInDim S100000x64 ![] bcast_S_S100000x64),
    StableHlo.TRef.binary (StableHlo.TRef.of main_v53 : StableHlo.TRef sig ⟨S100000x64, .f32⟩) main_call1.v0 main_call1.v1 maximumf,
    StableHlo.nullary main_cst_10 (constant S_ .f32 0x00000000#32),
    StableHlo.binary main_v54 main_cst_10 main_v55 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    StableHlo.unary main_v55 main_v56 (broadcastInDim S100000x1 ![0] bcast_S100000_S100000x1_0 : (⟨S100000, .f32⟩ : BufTy).Contents (Elt F) → (⟨S100000x1, .f32⟩ : BufTy).Contents (Elt F)),
    StableHlo.nullary main_cst_11 (constant S_ .f32 0x42800000#32),
    StableHlo.unary main_cst_11 main_v57 (broadcastInDim S100000x1 ![] bcast_S_S100000x1 : (⟨S_, .f32⟩ : BufTy).Contents (Elt F) → (⟨S100000x1, .f32⟩ : BufTy).Contents (Elt F)),
    StableHlo.binary main_v56 main_v57 main_v58 (Host.divf : (⟨S100000x1, .f32⟩ : BufTy).Contents (Elt F) → (⟨S100000x1, .f32⟩ : BufTy).Contents (Elt F) → (⟨S100000x1, .f32⟩ : BufTy).Contents (Elt F)),
    StableHlo.nullary main_c_12 (constantI S_ 32 0#32),
    StableHlo.TRef.nullary main_call2.cst (constant S_ .f32 0x00000000#32),
    StableHlo.TRef.binary (StableHlo.TRef.of main_v54 : StableHlo.TRef sig ⟨S100000x64, .f32⟩) main_call2.cst main_call2.v0 (fun x v => Host.reduceAdd x v reducesTo_S100000x64_S100000_d1 h_S_),
    StableHlo.TRef.unary main_call2.v0 main_call2.v1 (broadcastInDim S100000x1 ![0] bcast_S100000_S100000x1_0),
    StableHlo.TRef.nullary main_call2.cst_0 (constant S_ .f32 0x42800000#32),
    StableHlo.TRef.unary main_call2.cst_0 main_call2.v2 (broadcastInDim S100000x1 ![] bcast_S_S100000x1),
    StableHlo.TRef.binary main_call2.v1 main_call2.v2 main_call2.v3 Host.divf,
    StableHlo.TRef.unary main_call2.v3 main_call2.v4 (broadcastInDim S100000x64 ![0, 1] bcast_S100000x1_S100000x64_0_1),
    StableHlo.TRef.binary (StableHlo.TRef.of main_v54 : StableHlo.TRef sig ⟨S100000x64, .f32⟩) main_call2.v4 main_call2.v5 subf,
    StableHlo.TRef.binary main_call2.v5 main_call2.v5 main_call2.v6 mulf,
    StableHlo.TRef.unary (StableHlo.TRef.of main_c_12 : StableHlo.TRef sig ⟨S_, .i32⟩) main_call2.v7 (sitofp .f32),
    StableHlo.TRef.nullary main_call2.cst_1 (constant S_ .f32 0x42800000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S100000x64_S100000_d1 h_S_),
    StableHlo.TRef.unary main_call2.v9 main_call2.v10 (broadcastInDim S100000x1 ![0] bcast_S100000_S100000x1_0),
    StableHlo.TRef.unary main_call2.v8 main_call2.v11 (broadcastInDim S100000x1 ![] bcast_S_S100000x1),
    StableHlo.TRef.binary main_call2.v10 main_call2.v11 main_call2.v12 Host.divf,
    StableHlo.TRef.nullary main_call2.cst_3 (constant S_ .f32 0x00000000#32),
    StableHlo.TRef.binary main_call2.v8 main_call2.cst_3 main_call2.v13 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S100000x1 ![] bcast_S_S100000x1),
    StableHlo.TRef.ternary main_call2.v13 main_call2.v12 main_call2.call0.v1 main_call2.call0.v2 (fun p a b => select (broadcastInDim S100000x1 ![] bcast_S_S100000x1 p) a b),
    StableHlo.unary main_v58 main_v60 (broadcastInDim S100000x64 ![0, 1] bcast_S100000x1_S100000x64_0_1 : (⟨S100000x1, .f32⟩ : BufTy).Contents (Elt F) → (⟨S100000x64, .f32⟩ : BufTy).Contents (Elt F)),
    StableHlo.binary main_v54 main_v60 main_v61 (subf : (⟨S100000x64, .f32⟩ : BufTy).Contents (Elt F) → (⟨S100000x64, .f32⟩ : BufTy).Contents (Elt F) → (⟨S100000x64, .f32⟩ : BufTy).Contents (Elt F)),
    StableHlo.nullary main_cst_13 (constant S_ .f32 0x3727C5AC#32),
    StableHlo.unary main_cst_13 main_v62 (broadcastInDim S100000x1 ![] bcast_S_S100000x1 : (⟨S_, .f32⟩ : BufTy).Contents (Elt F) → (⟨S100000x1, .f32⟩ : BufTy).Contents (Elt F)),
    StableHlo.binary main_v59 main_v62 main_v63 (addf : (⟨S100000x1, .f32⟩ : BufTy).Contents (Elt F) → (⟨S100000x1, .f32⟩ : BufTy).Contents (Elt F) → (⟨S100000x1, .f32⟩ : BufTy).Contents (Elt F)),
    StableHlo.unary main_v63 main_v64 (Host.sqrt : (⟨S100000x1, .f32⟩ : BufTy).Contents (Elt F) → (⟨S100000x1, .f32⟩ : BufTy).Contents (Elt F)),
    StableHlo.unary main_v64 main_v65 (broadcastInDim S100000x64 ![0, 1] bcast_S100000x1_S100000x64_0_1 : (⟨S100000x1, .f32⟩ : BufTy).Contents (Elt F) → (⟨S100000x64, .f32⟩ : BufTy).Contents (Elt F)),
    StableHlo.binary main_v61 main_v65 main_v66 (Host.divf : (⟨S100000x64, .f32⟩ : BufTy).Contents (Elt F) → (⟨S100000x64, .f32⟩ : BufTy).Contents (Elt F) → (⟨S100000x64, .f32⟩ : BufTy).Contents (Elt F)),
    StableHlo.unary main_arg4 main_v67 ((extractStridedSlice S1x64 ![0, 0] · slices_S2x64_S1x64_0_0) : (⟨S2x64, .f32⟩ : BufTy).Contents (Elt F) → (⟨S1x64, .f32⟩ : BufTy).Contents (Elt F)),
    StableHlo.reshape main_v67 main_v68 rfl shapeCasts_S1x64_S64,
    StableHlo.unary main_v68 main_v69 (broadcastInDim S1x64 ![1] bcast_S64_S1x64_1 : (⟨S64, .f32⟩ : BufTy).Contents (Elt F) → (⟨S1x64, .f32⟩ : BufTy).Contents (Elt F)),
    StableHlo.unary main_v69 main_v70 (broadcastInDim S100000x64 ![0, 1] bcast_S1x64_S100000x64_0_1 : (⟨S1x64, .f32⟩ : BufTy).Contents (Elt F) → (⟨S100000x64, .f32⟩ : BufTy).Contents (Elt F)),
    StableHlo.binary main_v66 main_v70 main_v71 (mulf : (⟨S100000x64, .f32⟩ : BufTy).Contents (Elt F) → (⟨S100000x64, .f32⟩ : BufTy).Contents (Elt F) → (⟨S100000x64, .f32⟩ : BufTy).Contents (Elt F)),
    StableHlo.unary main_arg5 main_v72 ((extractStridedSlice S1x64 ![0, 0] · slices_S2x64_S1x64_0_0) : (⟨S2x64, .f32⟩ : BufTy).Contents (Elt F) → (⟨S1x64, .f32⟩ : BufTy).Contents (Elt F)),
    StableHlo.reshape main_v72 main_v73 rfl shapeCasts_S1x64_S64,
    StableHlo.unary main_v73 main_v74 (broadcastInDim S1x64 ![1] bcast_S64_S1x64_1 : (⟨S64, .f32⟩ : BufTy).Contents (Elt F) → (⟨S1x64, .f32⟩ : BufTy).Contents (Elt F)),
    StableHlo.unary main_v74 main_v75 (broadcastInDim S100000x64 ![0, 1] bcast_S1x64_S100000x64_0_1 : (⟨S1x64, .f32⟩ : BufTy).Contents (Elt F) → (⟨S100000x64, .f32⟩ : BufTy).Contents (Elt F)),
    StableHlo.binary main_v71 main_v75 main_v76 (addf : (⟨S100000x64, .f32⟩ : BufTy).Contents (Elt F) → (⟨S100000x64, .f32⟩ : BufTy).Contents (Elt F) → (⟨S100000x64, .f32⟩ : BufTy).Contents (Elt F)) ]

/-- The references `opsL1` writes, in order. -/
abbrev opsL1_W : List (Ref sig .tc) :=
  [main_v32, main_v33, main_v34, main_c_7, main_v35, main_v36, main_c_8, main_v37, main_v38, main_v39, main_v40, main_v41, main_v42, main_v43, main_v44, main_cst_9, main_v45, main_v46, main_v47, main_v48, main_v49, main_v50, main_v51, main_v52, main_v53, main_call1.cst.ref, main_call1.v0.ref, main_call1.v1.ref, main_cst_10, main_v55, main_v56, main_cst_11, main_v57, main_v58, main_c_12, main_call2.cst.ref, main_call2.v0.ref, main_call2.v1.ref, main_call2.cst_0.ref, main_call2.v2.ref, main_call2.v3.ref, main_call2.v4.ref, main_call2.v5.ref, main_call2.v6.ref, main_call2.v7.ref, main_call2.cst_1.ref, main_call2.v8.ref, main_call2.cst_2.ref, main_call2.v9.ref, main_call2.v10.ref, main_call2.v11.ref, main_call2.v12.ref, main_call2.cst_3.ref, main_call2.v13.ref, main_call2.cst_4.ref, main_call2.call0.v0.ref, main_call2.call0.v1.ref, main_call2.call0.v2.ref, main_v60, main_v61, main_cst_13, main_v62, main_v63, main_v64, main_v65, main_v66, main_v67, main_v68, main_v69, main_v70, main_v71, main_v72, main_v73, main_v74, main_v75, main_v76]

/-- The second layer: @main from %77 through %121. 76 operations. -/
abbrev opsL2 : List (HloOp τ sig (Elt F)) :=
  [ StableHlo.unary main_arg2 main_v77 ((extractStridedSlice S1x64x64 ![1, 0, 0] · slices_S3x64x64_S1x64x64_1_0_0) : (⟨S3x64x64, .f32⟩ : BufTy).Contents (Elt F) → (⟨S1x64x64, .f32⟩ : BufTy).Contents (Elt F)),
    StableHlo.reshape main_v77 main_v78 rfl shapeCasts_S1x64x64_S64x64,
    StableHlo.binary main_v76 main_v78 main_v79 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.nullary main_c_14 (constantI S_ 32 0#32),
    StableHlo.unary main_c_14 main_v80 (broadcastInDim S1700000 ![] bcast_S_S1700000 : (⟨S_, .i32⟩ : BufTy).Contents (Elt F) → (⟨S1700000, .i32⟩ : BufTy).Contents (Elt F)),
    StableHlo.binary main_v6 main_v80 main_v81 (cmpi .slt : (⟨S1700000, .i32⟩ : BufTy).Contents (Elt F) → (⟨S1700000, .i32⟩ : BufTy).Contents (Elt F) → (⟨S1700000, .i1⟩ : BufTy).Contents (Elt F)),
    StableHlo.nullary main_c_15 (constantI S_ 32 100000#32),
    StableHlo.unary main_c_15 main_v82 (broadcastInDim S1700000 ![] bcast_S_S1700000 : (⟨S_, .i32⟩ : BufTy).Contents (Elt F) → (⟨S1700000, .i32⟩ : BufTy).Contents (Elt F)),
    StableHlo.binary main_v6 main_v82 main_v83 (addi : (⟨S1700000, .i32⟩ : BufTy).Contents (Elt F) → (⟨S1700000, .i32⟩ : BufTy).Contents (Elt F) → (⟨S1700000, .i32⟩ : BufTy).Contents (Elt F)),
    StableHlo.ternary main_v81 main_v83 main_v6 main_v84 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v84 main_v85 (broadcastInDim S1700000x1 ![0] bcast_S1700000_S1700000x1_0 : (⟨S1700000, .i32⟩ : BufTy).Contents (Elt F) → (⟨S1700000x1, .i32⟩ : BufTy).Contents (Elt F)),
    StableHlo.binary main_v79 main_v85 main_v86 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    StableHlo.unary main_v31 main_v87 (broadcastInDim S1700000x1 ![0] bcast_S1700000_S1700000x1_0 : (⟨S1700000, .f32⟩ : BufTy).Contents (Elt F) → (⟨S1700000x1, .f32⟩ : BufTy).Contents (Elt F)),
    StableHlo.unary main_v87 main_v88 (broadcastInDim S1700000x64 ![0, 1] bcast_S1700000x1_S1700000x64_0_1 : (⟨S1700000x1, .f32⟩ : BufTy).Contents (Elt F) → (⟨S1700000x64, .f32⟩ : BufTy).Contents (Elt F)),
    StableHlo.binary main_v86 main_v88 main_v89 (mulf : (⟨S1700000x64, .f32⟩ : BufTy).Contents (Elt F) → (⟨S1700000x64, .f32⟩ : BufTy).Contents (Elt F) → (⟨S1700000x64, .f32⟩ : BufTy).Contents (Elt F)),
    StableHlo.nullary main_cst_16 (constant S_ .f32 0x00000000#32),
    StableHlo.unary main_cst_16 main_v90 (broadcastInDim S100000x64 ![] bcast_S_S100000x64 : (⟨S_, .f32⟩ : BufTy).Contents (Elt F) → (⟨S100000x64, .f32⟩ : BufTy).Contents (Elt F)),
    StableHlo.unary main_v3 main_v91 (broadcastInDim S1700000x1 ![0] bcast_S1700000_S1700000x1_0 : (⟨S1700000, .i32⟩ : BufTy).Contents (Elt F) → (⟨S1700000x1, .i32⟩ : BufTy).Contents (Elt F)),
    StableHlo.ternary main_v90 main_v91 main_v89 main_v92 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    StableHlo.unary main_arg3 main_v93 ((extractStridedSlice S1x64 ![1, 0] · slices_S3x64_S1x64_1_0) : (⟨S3x64, .f32⟩ : BufTy).Contents (Elt F) → (⟨S1x64, .f32⟩ : BufTy).Contents (Elt F)),
    StableHlo.reshape main_v93 main_v94 rfl shapeCasts_S1x64_S64,
    StableHlo.unary main_v94 main_v95 (broadcastInDim S1x64 ![1] bcast_S64_S1x64_1 : (⟨S64, .f32⟩ : BufTy).Contents (Elt F) → (⟨S1x64, .f32⟩ : BufTy).Contents (Elt F)),
    StableHlo.unary main_v95 main_v96 (broadcastInDim S100000x64 ![0, 1] bcast_S1x64_S100000x64_0_1 : (⟨S1x64, .f32⟩ : BufTy).Contents (Elt F) → (⟨S100000x64, .f32⟩ : BufTy).Contents (Elt F)),
    StableHlo.binary main_v92 main_v96 main_v97 (addf : (⟨S100000x64, .f32⟩ : BufTy).Contents (Elt F) → (⟨S100000x64, .f32⟩ : BufTy).Contents (Elt F) → (⟨S100000x64, .f32⟩ : BufTy).Contents (Elt F)),
    StableHlo.binary main_v76 main_v97 main_v98 (addf : (⟨S100000x64, .f32⟩ : BufTy).Contents (Elt F) → (⟨S100000x64, .f32⟩ : BufTy).Contents (Elt F) → (⟨S100000x64, .f32⟩ : BufTy).Contents (Elt F)),
    StableHlo.TRef.nullary main_call3.cst (constant S_ .f32 0x00000000#32),
    StableHlo.TRef.unary main_call3.cst main_call3.v0 (broadcastInDim S100000x64 ![] bcast_S_S100000x64),
    StableHlo.TRef.binary (StableHlo.TRef.of main_v98 : StableHlo.TRef sig ⟨S100000x64, .f32⟩) main_call3.v0 main_call3.v1 maximumf,
    StableHlo.nullary main_cst_17 (constant S_ .f32 0x00000000#32),
    StableHlo.binary main_v99 main_cst_17 main_v100 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    StableHlo.unary main_v100 main_v101 (broadcastInDim S100000x1 ![0] bcast_S100000_S100000x1_0 : (⟨S100000, .f32⟩ : BufTy).Contents (Elt F) → (⟨S100000x1, .f32⟩ : BufTy).Contents (Elt F)),
    StableHlo.nullary main_cst_18 (constant S_ .f32 0x42800000#32),
    StableHlo.unary main_cst_18 main_v102 (broadcastInDim S100000x1 ![] bcast_S_S100000x1 : (⟨S_, .f32⟩ : BufTy).Contents (Elt F) → (⟨S100000x1, .f32⟩ : BufTy).Contents (Elt F)),
    StableHlo.binary main_v101 main_v102 main_v103 (Host.divf : (⟨S100000x1, .f32⟩ : BufTy).Contents (Elt F) → (⟨S100000x1, .f32⟩ : BufTy).Contents (Elt F) → (⟨S100000x1, .f32⟩ : BufTy).Contents (Elt F)),
    StableHlo.nullary main_c_19 (constantI S_ 32 0#32),
    StableHlo.TRef.nullary main_call4.cst (constant S_ .f32 0x00000000#32),
    StableHlo.TRef.binary (StableHlo.TRef.of main_v99 : StableHlo.TRef sig ⟨S100000x64, .f32⟩) main_call4.cst main_call4.v0 (fun x v => Host.reduceAdd x v reducesTo_S100000x64_S100000_d1 h_S_),
    StableHlo.TRef.unary main_call4.v0 main_call4.v1 (broadcastInDim S100000x1 ![0] bcast_S100000_S100000x1_0),
    StableHlo.TRef.nullary main_call4.cst_0 (constant S_ .f32 0x42800000#32),
    StableHlo.TRef.unary main_call4.cst_0 main_call4.v2 (broadcastInDim S100000x1 ![] bcast_S_S100000x1),
    StableHlo.TRef.binary main_call4.v1 main_call4.v2 main_call4.v3 Host.divf,
    StableHlo.TRef.unary main_call4.v3 main_call4.v4 (broadcastInDim S100000x64 ![0, 1] bcast_S100000x1_S100000x64_0_1),
    StableHlo.TRef.binary (StableHlo.TRef.of main_v99 : StableHlo.TRef sig ⟨S100000x64, .f32⟩) main_call4.v4 main_call4.v5 subf,
    StableHlo.TRef.binary main_call4.v5 main_call4.v5 main_call4.v6 mulf,
    StableHlo.TRef.unary (StableHlo.TRef.of main_c_19 : StableHlo.TRef sig ⟨S_, .i32⟩) main_call4.v7 (sitofp .f32),
    StableHlo.TRef.nullary main_call4.cst_1 (constant S_ .f32 0x42800000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S100000x64_S100000_d1 h_S_),
    StableHlo.TRef.unary main_call4.v9 main_call4.v10 (broadcastInDim S100000x1 ![0] bcast_S100000_S100000x1_0),
    StableHlo.TRef.unary main_call4.v8 main_call4.v11 (broadcastInDim S100000x1 ![] bcast_S_S100000x1),
    StableHlo.TRef.binary main_call4.v10 main_call4.v11 main_call4.v12 Host.divf,
    StableHlo.TRef.nullary main_call4.cst_3 (constant S_ .f32 0x00000000#32),
    StableHlo.TRef.binary main_call4.v8 main_call4.cst_3 main_call4.v13 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S100000x1 ![] bcast_S_S100000x1),
    StableHlo.TRef.ternary main_call4.v13 main_call4.v12 main_call4.call0.v1 main_call4.call0.v2 (fun p a b => select (broadcastInDim S100000x1 ![] bcast_S_S100000x1 p) a b),
    StableHlo.unary main_v103 main_v105 (broadcastInDim S100000x64 ![0, 1] bcast_S100000x1_S100000x64_0_1 : (⟨S100000x1, .f32⟩ : BufTy).Contents (Elt F) → (⟨S100000x64, .f32⟩ : BufTy).Contents (Elt F)),
    StableHlo.binary main_v99 main_v105 main_v106 (subf : (⟨S100000x64, .f32⟩ : BufTy).Contents (Elt F) → (⟨S100000x64, .f32⟩ : BufTy).Contents (Elt F) → (⟨S100000x64, .f32⟩ : BufTy).Contents (Elt F)),
    StableHlo.nullary main_cst_20 (constant S_ .f32 0x3727C5AC#32),
    StableHlo.unary main_cst_20 main_v107 (broadcastInDim S100000x1 ![] bcast_S_S100000x1 : (⟨S_, .f32⟩ : BufTy).Contents (Elt F) → (⟨S100000x1, .f32⟩ : BufTy).Contents (Elt F)),
    StableHlo.binary main_v104 main_v107 main_v108 (addf : (⟨S100000x1, .f32⟩ : BufTy).Contents (Elt F) → (⟨S100000x1, .f32⟩ : BufTy).Contents (Elt F) → (⟨S100000x1, .f32⟩ : BufTy).Contents (Elt F)),
    StableHlo.unary main_v108 main_v109 (Host.sqrt : (⟨S100000x1, .f32⟩ : BufTy).Contents (Elt F) → (⟨S100000x1, .f32⟩ : BufTy).Contents (Elt F)),
    StableHlo.unary main_v109 main_v110 (broadcastInDim S100000x64 ![0, 1] bcast_S100000x1_S100000x64_0_1 : (⟨S100000x1, .f32⟩ : BufTy).Contents (Elt F) → (⟨S100000x64, .f32⟩ : BufTy).Contents (Elt F)),
    StableHlo.binary main_v106 main_v110 main_v111 (Host.divf : (⟨S100000x64, .f32⟩ : BufTy).Contents (Elt F) → (⟨S100000x64, .f32⟩ : BufTy).Contents (Elt F) → (⟨S100000x64, .f32⟩ : BufTy).Contents (Elt F)),
    StableHlo.unary main_arg4 main_v112 ((extractStridedSlice S1x64 ![1, 0] · slices_S2x64_S1x64_1_0) : (⟨S2x64, .f32⟩ : BufTy).Contents (Elt F) → (⟨S1x64, .f32⟩ : BufTy).Contents (Elt F)),
    StableHlo.reshape main_v112 main_v113 rfl shapeCasts_S1x64_S64,
    StableHlo.unary main_v113 main_v114 (broadcastInDim S1x64 ![1] bcast_S64_S1x64_1 : (⟨S64, .f32⟩ : BufTy).Contents (Elt F) → (⟨S1x64, .f32⟩ : BufTy).Contents (Elt F)),
    StableHlo.unary main_v114 main_v115 (broadcastInDim S100000x64 ![0, 1] bcast_S1x64_S100000x64_0_1 : (⟨S1x64, .f32⟩ : BufTy).Contents (Elt F) → (⟨S100000x64, .f32⟩ : BufTy).Contents (Elt F)),
    StableHlo.binary main_v111 main_v115 main_v116 (mulf : (⟨S100000x64, .f32⟩ : BufTy).Contents (Elt F) → (⟨S100000x64, .f32⟩ : BufTy).Contents (Elt F) → (⟨S100000x64, .f32⟩ : BufTy).Contents (Elt F)),
    StableHlo.unary main_arg5 main_v117 ((extractStridedSlice S1x64 ![1, 0] · slices_S2x64_S1x64_1_0) : (⟨S2x64, .f32⟩ : BufTy).Contents (Elt F) → (⟨S1x64, .f32⟩ : BufTy).Contents (Elt F)),
    StableHlo.reshape main_v117 main_v118 rfl shapeCasts_S1x64_S64,
    StableHlo.unary main_v118 main_v119 (broadcastInDim S1x64 ![1] bcast_S64_S1x64_1 : (⟨S64, .f32⟩ : BufTy).Contents (Elt F) → (⟨S1x64, .f32⟩ : BufTy).Contents (Elt F)),
    StableHlo.unary main_v119 main_v120 (broadcastInDim S100000x64 ![0, 1] bcast_S1x64_S100000x64_0_1 : (⟨S1x64, .f32⟩ : BufTy).Contents (Elt F) → (⟨S100000x64, .f32⟩ : BufTy).Contents (Elt F)),
    StableHlo.binary main_v116 main_v120 main_v121 (addf : (⟨S100000x64, .f32⟩ : BufTy).Contents (Elt F) → (⟨S100000x64, .f32⟩ : BufTy).Contents (Elt F) → (⟨S100000x64, .f32⟩ : BufTy).Contents (Elt F)) ]

/-- The references `opsL2` writes, in order. -/
abbrev opsL2_W : List (Ref sig .tc) :=
  [main_v77, main_v78, main_v79, main_c_14, main_v80, main_v81, main_c_15, main_v82, main_v83, main_v84, main_v85, main_v86, main_v87, main_v88, main_v89, main_cst_16, main_v90, main_v91, main_v92, main_v93, main_v94, main_v95, main_v96, main_v97, main_v98, main_call3.cst.ref, main_call3.v0.ref, main_call3.v1.ref, main_cst_17, main_v100, main_v101, main_cst_18, main_v102, main_v103, main_c_19, main_call4.cst.ref, main_call4.v0.ref, main_call4.v1.ref, main_call4.cst_0.ref, main_call4.v2.ref, main_call4.v3.ref, main_call4.v4.ref, main_call4.v5.ref, main_call4.v6.ref, main_call4.v7.ref, main_call4.cst_1.ref, main_call4.v8.ref, main_call4.cst_2.ref, main_call4.v9.ref, main_call4.v10.ref, main_call4.v11.ref, main_call4.v12.ref, main_call4.cst_3.ref, main_call4.v13.ref, main_call4.cst_4.ref, main_call4.call0.v0.ref, main_call4.call0.v1.ref, main_call4.call0.v2.ref, main_v105, main_v106, main_cst_20, main_v107, main_v108, main_v109, main_v110, main_v111, main_v112, main_v113, main_v114, main_v115, main_v116, main_v117, main_v118, main_v119, main_v120, main_v121]

/-- The third layer: @main from %122 through %144. 28 operations. -/
abbrev opsL3 : List (HloOp τ sig (Elt F)) :=
  [ StableHlo.unary main_arg2 main_v122 ((extractStridedSlice S1x64x64 ![2, 0, 0] · slices_S3x64x64_S1x64x64_2_0_0) : (⟨S3x64x64, .f32⟩ : BufTy).Contents (Elt F) → (⟨S1x64x64, .f32⟩ : BufTy).Contents (Elt F)),
    StableHlo.reshape main_v122 main_v123 rfl shapeCasts_S1x64x64_S64x64,
    StableHlo.binary main_v121 main_v123 main_v124 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.nullary main_c_21 (constantI S_ 32 0#32),
    StableHlo.unary main_c_21 main_v125 (broadcastInDim S1700000 ![] bcast_S_S1700000 : (⟨S_, .i32⟩ : BufTy).Contents (Elt F) → (⟨S1700000, .i32⟩ : BufTy).Contents (Elt F)),
    StableHlo.binary main_v6 main_v125 main_v126 (cmpi .slt : (⟨S1700000, .i32⟩ : BufTy).Contents (Elt F) → (⟨S1700000, .i32⟩ : BufTy).Contents (Elt F) → (⟨S1700000, .i1⟩ : BufTy).Contents (Elt F)),
    StableHlo.nullary main_c_22 (constantI S_ 32 100000#32),
    StableHlo.unary main_c_22 main_v127 (broadcastInDim S1700000 ![] bcast_S_S1700000 : (⟨S_, .i32⟩ : BufTy).Contents (Elt F) → (⟨S1700000, .i32⟩ : BufTy).Contents (Elt F)),
    StableHlo.binary main_v6 main_v127 main_v128 (addi : (⟨S1700000, .i32⟩ : BufTy).Contents (Elt F) → (⟨S1700000, .i32⟩ : BufTy).Contents (Elt F) → (⟨S1700000, .i32⟩ : BufTy).Contents (Elt F)),
    StableHlo.ternary main_v126 main_v128 main_v6 main_v129 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v129 main_v130 (broadcastInDim S1700000x1 ![0] bcast_S1700000_S1700000x1_0 : (⟨S1700000, .i32⟩ : BufTy).Contents (Elt F) → (⟨S1700000x1, .i32⟩ : BufTy).Contents (Elt F)),
    StableHlo.binary main_v124 main_v130 main_v131 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    StableHlo.unary main_v31 main_v132 (broadcastInDim S1700000x1 ![0] bcast_S1700000_S1700000x1_0 : (⟨S1700000, .f32⟩ : BufTy).Contents (Elt F) → (⟨S1700000x1, .f32⟩ : BufTy).Contents (Elt F)),
    StableHlo.unary main_v132 main_v133 (broadcastInDim S1700000x64 ![0, 1] bcast_S1700000x1_S1700000x64_0_1 : (⟨S1700000x1, .f32⟩ : BufTy).Contents (Elt F) → (⟨S1700000x64, .f32⟩ : BufTy).Contents (Elt F)),
    StableHlo.binary main_v131 main_v133 main_v134 (mulf : (⟨S1700000x64, .f32⟩ : BufTy).Contents (Elt F) → (⟨S1700000x64, .f32⟩ : BufTy).Contents (Elt F) → (⟨S1700000x64, .f32⟩ : BufTy).Contents (Elt F)),
    StableHlo.nullary main_cst_23 (constant S_ .f32 0x00000000#32),
    StableHlo.unary main_cst_23 main_v135 (broadcastInDim S100000x64 ![] bcast_S_S100000x64 : (⟨S_, .f32⟩ : BufTy).Contents (Elt F) → (⟨S100000x64, .f32⟩ : BufTy).Contents (Elt F)),
    StableHlo.unary main_v3 main_v136 (broadcastInDim S1700000x1 ![0] bcast_S1700000_S1700000x1_0 : (⟨S1700000, .i32⟩ : BufTy).Contents (Elt F) → (⟨S1700000x1, .i32⟩ : BufTy).Contents (Elt F)),
    StableHlo.ternary main_v135 main_v136 main_v134 main_v137 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    StableHlo.unary main_arg3 main_v138 ((extractStridedSlice S1x64 ![2, 0] · slices_S3x64_S1x64_2_0) : (⟨S3x64, .f32⟩ : BufTy).Contents (Elt F) → (⟨S1x64, .f32⟩ : BufTy).Contents (Elt F)),
    StableHlo.reshape main_v138 main_v139 rfl shapeCasts_S1x64_S64,
    StableHlo.unary main_v139 main_v140 (broadcastInDim S1x64 ![1] bcast_S64_S1x64_1 : (⟨S64, .f32⟩ : BufTy).Contents (Elt F) → (⟨S1x64, .f32⟩ : BufTy).Contents (Elt F)),
    StableHlo.unary main_v140 main_v141 (broadcastInDim S100000x64 ![0, 1] bcast_S1x64_S100000x64_0_1 : (⟨S1x64, .f32⟩ : BufTy).Contents (Elt F) → (⟨S100000x64, .f32⟩ : BufTy).Contents (Elt F)),
    StableHlo.binary main_v137 main_v141 main_v142 (addf : (⟨S100000x64, .f32⟩ : BufTy).Contents (Elt F) → (⟨S100000x64, .f32⟩ : BufTy).Contents (Elt F) → (⟨S100000x64, .f32⟩ : BufTy).Contents (Elt F)),
    StableHlo.binary main_v121 main_v142 main_v143 (addf : (⟨S100000x64, .f32⟩ : BufTy).Contents (Elt F) → (⟨S100000x64, .f32⟩ : BufTy).Contents (Elt F) → (⟨S100000x64, .f32⟩ : BufTy).Contents (Elt F)),
    StableHlo.TRef.nullary main_call5.cst (constant S_ .f32 0x00000000#32),
    StableHlo.TRef.unary main_call5.cst main_call5.v0 (broadcastInDim S100000x64 ![] bcast_S_S100000x64),
    StableHlo.TRef.binary (StableHlo.TRef.of main_v143 : StableHlo.TRef sig ⟨S100000x64, .f32⟩) main_call5.v0 main_call5.v1 maximumf ]

/-- The references `opsL3` writes, in order. -/
abbrev opsL3_W : List (Ref sig .tc) :=
  [main_v122, main_v123, main_v124, main_c_21, main_v125, main_v126, main_c_22, main_v127, main_v128, main_v129, main_v130, main_v131, main_v132, main_v133, main_v134, main_cst_23, main_v135, main_v136, main_v137, main_v138, main_v139, main_v140, main_v141, main_v142, main_v143, main_call5.cst.ref, main_call5.v0.ref, main_call5.v1.ref]

/-- The whole line. -/
abbrev ops : List (HloOp τ sig (Elt F)) := opsPre ++ (opsL1 ++ (opsL2 ++ opsL3))

end Cert.ReferenceIdeal.RefRun

end
-- ==== Proof.RefRun.lean ====
import proofs.«151697_j9594956939369_2_alg».proof.Proof.RefOps

/-! The reference program's run. Its @main is the straight line `ops` of host operations (window by window: each window
    of @main unfolds, the outlined functions at their calls, to the line's operations in that window's positions), so
    every weakly fair execution of it terminates with each buffer at the fold of the operations' results over the launch
    contents (`run_main`). Each of the four stretches of the line leaves alone every buffer it does not write (`keepPre`,
    `keepL1`, `keepL2`, `keepL3`, and their instances at the arguments and at the values later stretches read). -/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## @main is the line -/

/-- @main's first window is the line's first 62 operations: sequencing is associative and the outlined function's body
    stands at its call, so both sides are one chain of the same steps. -/
theorem main_part0_eq (c : Dev nD) : main_part0 (F := F) c = seq ((ops (F := F)).take 62) := rfl

/-- @main's second window is the next 86 operations. -/
theorem main_part1_eq (c : Dev nD) : main_part1 (F := F) c = seq (((ops (F := F)).drop 62).take 86) := rfl

/-- @main's third window is the remaining 75 operations. -/
theorem main_part2_eq (c : Dev nD) : main_part2 (F := F) c = seq (((ops (F := F)).drop 62).drop 86) := rfl

/-- @main is the line: its three windows in order are the line's three consecutive pieces, and pieces run one after the
    other are their concatenation run as one. -/
theorem main_eq (c : Dev nD) : main (F := F) c = seq ops := by
  have h : main (F := F) c = (main_part0 c >>= fun _ => main_part1 c >>= fun _ => main_part2 c) := rfl
  rw [h, main_part0_eq, main_part1_eq, main_part2_eq, ← seq_append, ← seq_append, List.take_append_drop,
    List.take_append_drop]

theorem scopedRefs_eq : (Finset.univ.filter fun b : Ref sig .tc => b.isScoped) = ∅ := by decide
theorem scopedSems_eq : (Finset.univ.filter fun sm : SemLoc sig => sm.isScoped .tc) = ∅ := by decide

/-! ## Every operation touches TensorCore buffers only, and determines its results

Each fact is read off the literal list one operation at a time: membership in a literal list is one of its positions. -/

/-- One operation's buffers are TensorCore references, whatever its arity. -/
local macro "bufs_in_tc" : tactic =>
  `(tactic| simp only [nullary_bufs_sub, unary_bufs_sub, binary_bufs_sub, ternary_bufs_sub, reshape_bufs_sub])

theorem opsPre_sub : ∀ op ∈ (opsPre : List (HloOp τ sig (Elt F))), op.bufs ⊆ tcRefs τ sig := by
  intro _ h; (repeat (cases h with | head => bufs_in_tc | tail _ h => ?_)); exact nomatch h
theorem opsL1_sub : ∀ op ∈ (opsL1 : List (HloOp τ sig (Elt F))), op.bufs ⊆ tcRefs τ sig := by
  intro _ h; (repeat (cases h with | head => bufs_in_tc | tail _ h => ?_)); exact nomatch h
theorem opsL2_sub : ∀ op ∈ (opsL2 : List (HloOp τ sig (Elt F))), op.bufs ⊆ tcRefs τ sig := by
  intro _ h; (repeat (cases h with | head => bufs_in_tc | tail _ h => ?_)); exact nomatch h
theorem opsL3_sub : ∀ op ∈ (opsL3 : List (HloOp τ sig (Elt F))), op.bufs ⊆ tcRefs τ sig := by
  intro _ h; (repeat (cases h with | head => bufs_in_tc | tail _ h => ?_)); exact nomatch h

theorem ops_sub : (ops : List (HloOp τ sig (Elt F))).Forall fun op => op.bufs ⊆ tcRefs τ sig :=
  List.forall_iff_forall_mem.mpr fun op h => by
    simp only [ops, List.mem_append] at h
    rcases h with h | h | h | h
    exacts [opsPre_sub op h, opsL1_sub op h, opsL2_sub op h, opsL3_sub op h]

theorem opsPre_fresh : ∀ op ∈ (opsPre : List (HloOp τ sig (Elt F))), op.fresh = ∅ := by
  intro _ h; (repeat (cases h with | head => rfl | tail _ h => ?_)); exact nomatch h
theorem opsL1_fresh : ∀ op ∈ (opsL1 : List (HloOp τ sig (Elt F))), op.fresh = ∅ := by
  intro _ h; (repeat (cases h with | head => rfl | tail _ h => ?_)); exact nomatch h
theorem opsL2_fresh : ∀ op ∈ (opsL2 : List (HloOp τ sig (Elt F))), op.fresh = ∅ := by
  intro _ h; (repeat (cases h with | head => rfl | tail _ h => ?_)); exact nomatch h
theorem opsL3_fresh : ∀ op ∈ (opsL3 : List (HloOp τ sig (Elt F))), op.fresh = ∅ := by
  intro _ h; (repeat (cases h with | head => rfl | tail _ h => ?_)); exact nomatch h

theorem ops_fresh : ∀ op ∈ (ops : List (HloOp τ sig (Elt F))), op.fresh = ∅ := fun op h => by
  simp only [ops, List.mem_append] at h
  rcases h with h | h | h | h
  exacts [opsPre_fresh op h, opsL1_fresh op h, opsL2_fresh op h, opsL3_fresh op h]

/-! ## The run -/

/-- On every device, for any float values, from any memory with zero counters: every weakly fair execution of @main on
    the TensorCores terminates, and every final state has each TensorCore buffer at the line's fold over the launch
    contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = StableHlo.after ops (StableHlo.launchContents m c) (b : DevRef τ sig) :=
  run_seq scopedRefs_eq scopedSems_eq defs main (fun _ => ops) main_eq (fun _ => ops_sub) m ρ (fun _ => ops_fresh)

/-! ## What a stretch does not write, it keeps

Each operation writes one reference, and it is in the stretch's list of written references; a reference outside that
list is written by no operation of the stretch, so the fold leaves it as it was. -/

/-- One operation's written buffer is among the listed references. -/
local macro "writes_listed" : tactic =>
  `(tactic| (simp only [nullary_writes, unary_writes, binary_writes, ternary_writes, reshape_writes,
               Finset.singleton_subset_iff, List.mem_toFinset]
             exact List.mem_map_of_mem (by decide)))

theorem opsPre_writes : (opsPre : List (HloOp τ sig (Elt F))).Forall fun op =>
    op.writes ⊆ (opsPre_W.map (Proc.devRef (τ := τ) .tc)).toFinset :=
  List.forall_iff_forall_mem.mpr (by
    intro _ h; (repeat (cases h with | head => writes_listed | tail _ h => ?_)); exact nomatch h)
theorem opsL1_writes : (opsL1 : List (HloOp τ sig (Elt F))).Forall fun op =>
    op.writes ⊆ (opsL1_W.map (Proc.devRef (τ := τ) .tc)).toFinset :=
  List.forall_iff_forall_mem.mpr (by
    intro _ h; (repeat (cases h with | head => writes_listed | tail _ h => ?_)); exact nomatch h)
theorem opsL2_writes : (opsL2 : List (HloOp τ sig (Elt F))).Forall fun op =>
    op.writes ⊆ (opsL2_W.map (Proc.devRef (τ := τ) .tc)).toFinset :=
  List.forall_iff_forall_mem.mpr (by
    intro _ h; (repeat (cases h with | head => writes_listed | tail _ h => ?_)); exact nomatch h)
theorem opsL3_writes : (opsL3 : List (HloOp τ sig (Elt F))).Forall fun op =>
    op.writes ⊆ (opsL3_W.map (Proc.devRef (τ := τ) .tc)).toFinset :=
  List.forall_iff_forall_mem.mpr (by
    intro _ h; (repeat (cases h with | head => writes_listed | tail _ h => ?_)); exact nomatch h)

/-- The first stretch keeps every reference it does not write. -/
theorem keepPre (V : Valuation τ sig (Elt F)) (r : Ref sig .tc) (h : r ∉ opsPre_W) :
    after opsPre V (r : DevRef τ sig) = V (r : DevRef τ sig) := after_of_writes_sub opsPre V opsPre_writes h
/-- The first layer keeps every reference it does not write. -/
theorem keepL1 (V : Valuation τ sig (Elt F)) (r : Ref sig .tc) (h : r ∉ opsL1_W) :
    after opsL1 V (r : DevRef τ sig) = V (r : DevRef τ sig) := after_of_writes_sub opsL1 V opsL1_writes h
/-- The second layer keeps every reference it does not write. -/
theorem keepL2 (V : Valuation τ sig (Elt F)) (r : Ref sig .tc) (h : r ∉ opsL2_W) :
    after opsL2 V (r : DevRef τ sig) = V (r : DevRef τ sig) := after_of_writes_sub opsL2 V opsL2_writes h
/-- The third layer keeps every reference it does not write. -/
theorem keepL3 (V : Valuation τ sig (Elt F)) (r : Ref sig .tc) (h : r ∉ opsL3_W) :
    after opsL3 V (r : DevRef τ sig) = V (r : DevRef τ sig) := after_of_writes_sub opsL3 V opsL3_writes h

/-! ### The instances the layer-by-layer reading cites: the arguments, the two edge lists (`main_v3`, `main_v6`), the
    edge weights (`main_v31`) and the earlier layers' pre-activation sums (`main_v53`, `main_v98`). -/

theorem keepPre_main_arg0 (V : Valuation τ sig (Elt F)) :
    after opsPre V (main_arg0 : DevRef τ sig) = V (main_arg0 : DevRef τ sig) := keepPre V main_arg0 (by decide)
theorem keepPre_main_arg1 (V : Valuation τ sig (Elt F)) :
    after opsPre V (main_arg1 : DevRef τ sig) = V (main_arg1 : DevRef τ sig) := keepPre V main_arg1 (by decide)
theorem keepPre_main_arg2 (V : Valuation τ sig (Elt F)) :
    after opsPre V (main_arg2 : DevRef τ sig) = V (main_arg2 : DevRef τ sig) := keepPre V main_arg2 (by decide)
theorem keepPre_main_arg3 (V : Valuation τ sig (Elt F)) :
    after opsPre V (main_arg3 : DevRef τ sig) = V (main_arg3 : DevRef τ sig) := keepPre V main_arg3 (by decide)
theorem keepPre_main_arg4 (V : Valuation τ sig (Elt F)) :
    after opsPre V (main_arg4 : DevRef τ sig) = V (main_arg4 : DevRef τ sig) := keepPre V main_arg4 (by decide)
theorem keepPre_main_arg5 (V : Valuation τ sig (Elt F)) :
    after opsPre V (main_arg5 : DevRef τ sig) = V (main_arg5 : DevRef τ sig) := keepPre V main_arg5 (by decide)

theorem keepL1_main_arg0 (V : Valuation τ sig (Elt F)) :
    after opsL1 V (main_arg0 : DevRef τ sig) = V (main_arg0 : DevRef τ sig) := keepL1 V main_arg0 (by decide)
theorem keepL1_main_arg1 (V : Valuation τ sig (Elt F)) :
    after opsL1 V (main_arg1 : DevRef τ sig) = V (main_arg1 : DevRef τ sig) := keepL1 V main_arg1 (by decide)
theorem keepL1_main_arg2 (V : Valuation τ sig (Elt F)) :
    after opsL1 V (main_arg2 : DevRef τ sig) = V (main_arg2 : DevRef τ sig) := keepL1 V main_arg2 (by decide)
theorem keepL1_main_arg3 (V : Valuation τ sig (Elt F)) :
    after opsL1 V (main_arg3 : DevRef τ sig) = V (main_arg3 : DevRef τ sig) := keepL1 V main_arg3 (by decide)
theorem keepL1_main_arg4 (V : Valuation τ sig (Elt F)) :
    after opsL1 V (main_arg4 : DevRef τ sig) = V (main_arg4 : DevRef τ sig) := keepL1 V main_arg4 (by decide)
theorem keepL1_main_arg5 (V : Valuation τ sig (Elt F)) :
    after opsL1 V (main_arg5 : DevRef τ sig) = V (main_arg5 : DevRef τ sig) := keepL1 V main_arg5 (by decide)
theorem keepL1_main_v3 (V : Valuation τ sig (Elt F)) :
    after opsL1 V (main_v3 : DevRef τ sig) = V (main_v3 : DevRef τ sig) := keepL1 V main_v3 (by decide)
theorem keepL1_main_v6 (V : Valuation τ sig (Elt F)) :
    after opsL1 V (main_v6 : DevRef τ sig) = V (main_v6 : DevRef τ sig) := keepL1 V main_v6 (by decide)
theorem keepL1_main_v31 (V : Valuation τ sig (Elt F)) :
    after opsL1 V (main_v31 : DevRef τ sig) = V (main_v31 : DevRef τ sig) := keepL1 V main_v31 (by decide)

theorem keepL2_main_arg0 (V : Valuation τ sig (Elt F)) :
    after opsL2 V (main_arg0 : DevRef τ sig) = V (main_arg0 : DevRef τ sig) := keepL2 V main_arg0 (by decide)
theorem keepL2_main_arg1 (V : Valuation τ sig (Elt F)) :
    after opsL2 V (main_arg1 : DevRef τ sig) = V (main_arg1 : DevRef τ sig) := keepL2 V main_arg1 (by decide)
theorem keepL2_main_arg2 (V : Valuation τ sig (Elt F)) :
    after opsL2 V (main_arg2 : DevRef τ sig) = V (main_arg2 : DevRef τ sig) := keepL2 V main_arg2 (by decide)
theorem keepL2_main_arg3 (V : Valuation τ sig (Elt F)) :
    after opsL2 V (main_arg3 : DevRef τ sig) = V (main_arg3 : DevRef τ sig) := keepL2 V main_arg3 (by decide)
theorem keepL2_main_arg4 (V : Valuation τ sig (Elt F)) :
    after opsL2 V (main_arg4 : DevRef τ sig) = V (main_arg4 : DevRef τ sig) := keepL2 V main_arg4 (by decide)
theorem keepL2_main_arg5 (V : Valuation τ sig (Elt F)) :
    after opsL2 V (main_arg5 : DevRef τ sig) = V (main_arg5 : DevRef τ sig) := keepL2 V main_arg5 (by decide)
theorem keepL2_main_v3 (V : Valuation τ sig (Elt F)) :
    after opsL2 V (main_v3 : DevRef τ sig) = V (main_v3 : DevRef τ sig) := keepL2 V main_v3 (by decide)
theorem keepL2_main_v6 (V : Valuation τ sig (Elt F)) :
    after opsL2 V (main_v6 : DevRef τ sig) = V (main_v6 : DevRef τ sig) := keepL2 V main_v6 (by decide)
theorem keepL2_main_v31 (V : Valuation τ sig (Elt F)) :
    after opsL2 V (main_v31 : DevRef τ sig) = V (main_v31 : DevRef τ sig) := keepL2 V main_v31 (by decide)
theorem keepL2_main_v53 (V : Valuation τ sig (Elt F)) :
    after opsL2 V (main_v53 : DevRef τ sig) = V (main_v53 : DevRef τ sig) := keepL2 V main_v53 (by decide)

theorem keepL3_main_arg0 (V : Valuation τ sig (Elt F)) :
    after opsL3 V (main_arg0 : DevRef τ sig) = V (main_arg0 : DevRef τ sig) := keepL3 V main_arg0 (by decide)
theorem keepL3_main_arg1 (V : Valuation τ sig (Elt F)) :
    after opsL3 V (main_arg1 : DevRef τ sig) = V (main_arg1 : DevRef τ sig) := keepL3 V main_arg1 (by decide)
theorem keepL3_main_arg2 (V : Valuation τ sig (Elt F)) :
    after opsL3 V (main_arg2 : DevRef τ sig) = V (main_arg2 : DevRef τ sig) := keepL3 V main_arg2 (by decide)
theorem keepL3_main_arg3 (V : Valuation τ sig (Elt F)) :
    after opsL3 V (main_arg3 : DevRef τ sig) = V (main_arg3 : DevRef τ sig) := keepL3 V main_arg3 (by decide)
theorem keepL3_main_arg4 (V : Valuation τ sig (Elt F)) :
    after opsL3 V (main_arg4 : DevRef τ sig) = V (main_arg4 : DevRef τ sig) := keepL3 V main_arg4 (by decide)
theorem keepL3_main_arg5 (V : Valuation τ sig (Elt F)) :
    after opsL3 V (main_arg5 : DevRef τ sig) = V (main_arg5 : DevRef τ sig) := keepL3 V main_arg5 (by decide)
theorem keepL3_main_v3 (V : Valuation τ sig (Elt F)) :
    after opsL3 V (main_v3 : DevRef τ sig) = V (main_v3 : DevRef τ sig) := keepL3 V main_v3 (by decide)
theorem keepL3_main_v6 (V : Valuation τ sig (Elt F)) :
    after opsL3 V (main_v6 : DevRef τ sig) = V (main_v6 : DevRef τ sig) := keepL3 V main_v6 (by decide)
theorem keepL3_main_v31 (V : Valuation τ sig (Elt F)) :
    after opsL3 V (main_v31 : DevRef τ sig) = V (main_v31 : DevRef τ sig) := keepL3 V main_v31 (by decide)
theorem keepL3_main_v53 (V : Valuation τ sig (Elt F)) :
    after opsL3 V (main_v53 : DevRef τ sig) = V (main_v53 : DevRef τ sig) := keepL3 V main_v53 (by decide)
theorem keepL3_main_v98 (V : Valuation τ sig (Elt F)) :
    after opsL3 V (main_v98 : DevRef τ sig) = V (main_v98 : DevRef τ sig) := keepL3 V main_v98 (by decide)

end Cert.ReferenceIdeal.RefRun

end
-- ==== Proof.RefRead.lean ====
import proofs.«151697_j9594956939369_2_alg».proof.Proof.RefRun
import proofs.«151697_j9594956939369_2_alg».proof.Proof.Spec
import proofs.«151697_j9594956939369_2_alg».proof.Proof.LibHostLine

/-! The reference line read back, at the ideal values. Each of its four stretches is read at the buffers later stretches
    and the results use, as the specification's function of the stretch's inputs: the fold over the stretch's
    operations unrolls to the operations' functions composed, which is that function's definition. The whole line is the
    four stretches in order, and what a stretch does not write it hands on, so the two results are the specification's
    three chained layers of the arguments (`out_emb`, `out_x`), and the arguments are left as they were. -/

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

/-! ## The first stretch: the edge lists -/

theorem pre_row (V : Valuation τ sig (Elt Ideal)) :
    after opsPre V (main_v3 : DevRef τ sig) = Spec.rowOf (V (main_arg1 : DevRef τ sig)) := by
  after_results_simp
  rfl

theorem pre_col (V : Valuation τ sig (Elt Ideal)) :
    after opsPre V (main_v6 : DevRef τ sig) = Spec.colOf (V (main_arg1 : DevRef τ sig)) := by
  after_results_simp
  rfl

/-! ## The first stretch: the edge weights

The edge lists are read off directly. The edge weights are read in three pieces — the 21 operations up to the zero the
outlined selection takes, that selection's three operations, the remaining 19 — each over any contents, and put together:
read in one piece, the selection's operands would have to be compared through the transport of its typed references. -/

/-- A line read in two pieces: its first `n` operations, then the rest from what they leave. -/
theorem after_split (n : Nat) (l : List (HloOp τ sig (Elt Ideal))) (V : Valuation τ sig (Elt Ideal)) :
    after l V = after (l.drop n) (after (l.take n) V) := by
  rw [← Cert.Lib.after_append, List.take_append_drop]

/-- The first stretch up to the zero the outlined selection takes. -/
abbrev preA : List (HloOp τ sig (Elt Ideal)) := opsPre.take 21
/-- The outlined selection's three operations. -/
abbrev preB : List (HloOp τ sig (Elt Ideal)) := (opsPre.drop 21).take 3
/-- The rest of the first stretch. -/
abbrev preC : List (HloOp τ sig (Elt Ideal)) := (opsPre.drop 21).drop 3

theorem after_opsPre (V : Valuation τ sig (Elt Ideal)) :
    after opsPre V = after preC (after preB (after preA V)) := by
  rw [after_split 21 opsPre V, after_split 3 (opsPre.drop 21)]

theorem preA_v3 (V : Valuation τ sig (Elt Ideal)) : after preA V (main_v3 : DevRef τ sig) = Spec.rowOf (V (main_arg1 : DevRef τ sig)) := by
  simp only [preA, preB, preC, opsPre, List.take_succ_cons, List.take_zero, List.drop_succ_cons, List.drop_zero]
  after_results_simp
  rfl
theorem preA_v6 (V : Valuation τ sig (Elt Ideal)) : after preA V (main_v6 : DevRef τ sig) = Spec.colOf (V (main_arg1 : DevRef τ sig)) := by
  simp only [preA, preB, preC, opsPre, List.take_succ_cons, List.take_zero, List.drop_succ_cons, List.drop_zero]
  after_results_simp
  rfl
attribute [local irreducible] Host.scatterAdd in
theorem preA_v12 (V : Valuation τ sig (Elt Ideal)) :
    after preA V (main_v12 : DevRef τ sig) = Spec.degPosOf (Spec.rowOf (V (main_arg1 : DevRef τ sig))) := by
  simp only [preA, preB, preC, opsPre, List.take_succ_cons, List.take_zero, List.drop_succ_cons, List.drop_zero]
  after_results_simp
  rfl
attribute [local irreducible] Host.scatterAdd in
theorem preA_v15 (V : Valuation τ sig (Elt Ideal)) :
    after preA V (main_v15 : DevRef τ sig) = Spec.rdegOf (Spec.rowOf (V (main_arg1 : DevRef τ sig))) := by
  simp only [preA, preB, preC, opsPre, List.take_succ_cons, List.take_zero, List.drop_succ_cons, List.drop_zero]
  after_results_simp
  rfl
theorem preA_cst_3 (V : Valuation τ sig (Elt Ideal)) :
    after preA V (main_cst_3 : DevRef τ sig) = constant (F := Ideal) S_ .f32 0x00000000#32 := by
  simp only [preA, preB, preC, opsPre, List.take_succ_cons, List.take_zero, List.drop_succ_cons, List.drop_zero]
  after_results_simp
theorem preB_v16 (W : Valuation τ sig (Elt Ideal)) :
    after preB W (main_v16 : DevRef τ sig) = select (W (main_v12 : DevRef τ sig)) (W (main_v15 : DevRef τ sig))
      (broadcastInDim S100000 ![] bcast_S_S100000 (id (W (main_cst_3 : DevRef τ sig)))) := by
  simp only [preA, preB, preC, opsPre, List.take_succ_cons, List.take_zero, List.drop_succ_cons, List.drop_zero]
  after_results_simp
  rfl
theorem preB_v3 (W : Valuation τ sig (Elt Ideal)) : after preB W (main_v3 : DevRef τ sig) = W (main_v3 : DevRef τ sig) := by
  simp only [preA, preB, preC, opsPre, List.take_succ_cons, List.take_zero, List.drop_succ_cons, List.drop_zero]
  after_results_simp
theorem preB_v6 (W : Valuation τ sig (Elt Ideal)) : after preB W (main_v6 : DevRef τ sig) = W (main_v6 : DevRef τ sig) := by
  simp only [preA, preB, preC, opsPre, List.take_succ_cons, List.take_zero, List.drop_succ_cons, List.drop_zero]
  after_results_simp
attribute [local irreducible] Host.gather in
theorem preC_v31 (W : Valuation τ sig (Elt Ideal)) :
    after preC W (main_v31 : DevRef τ sig)
      = (mulf (Host.gather gather_S100000_S1700000x1_S1700000_n_0_n_n_0_1_1 (W (main_v16 : DevRef τ sig)) (Spec.wrapIdx (W (main_v3 : DevRef τ sig))))
          (Host.gather gather_S100000_S1700000x1_S1700000_n_0_n_n_0_1_1 (W (main_v16 : DevRef τ sig)) (Spec.wrapIdx (W (main_v6 : DevRef τ sig)))) : Spec.EdgeVec) := by
  simp only [preA, preB, preC, opsPre, List.take_succ_cons, List.take_zero, List.drop_succ_cons, List.drop_zero]
  after_results_simp
  rfl

theorem pre_norm (V : Valuation τ sig (Elt Ideal)) :
    after opsPre V (main_v31 : DevRef τ sig) = Spec.normOf (Spec.rowOf (V (main_arg1 : DevRef τ sig))) (Spec.colOf (V (main_arg1 : DevRef τ sig))) := by
  rw [after_opsPre, preC_v31, preB_v16, preB_v3, preB_v6, preA_v12, preA_v15, preA_cst_3, preA_v3, preA_v6]
  rfl

/-! ## The three layers

The contraction, the gather, the scatter and the row sums are kept folded while the two sides are compared: the
comparison never looks inside them. -/

attribute [local irreducible] Host.scatterAdd Host.gather Host.reduceAdd in
/-- The first layer's pre-activation sum. -/
theorem l1_emb (V : Valuation τ sig (Elt Ideal)) :
    after opsL1 V (main_v53 : DevRef τ sig) = Spec.layerEmb (V (main_arg0 : DevRef τ sig)) (Spec.w0 (V (main_arg2 : DevRef τ sig))) (Spec.bias0 (V (main_arg3 : DevRef τ sig))) (V (main_v3 : DevRef τ sig)) (V (main_v6 : DevRef τ sig)) (V (main_v31 : DevRef τ sig)) := by
  after_results_simp
  rfl

attribute [local irreducible] Host.scatterAdd Host.gather Host.reduceAdd in
/-- The first layer's output: rectified, then normalised along each row. -/
theorem l1_x (V : Valuation τ sig (Elt Ideal)) :
    after opsL1 V (main_v76 : DevRef τ sig) = Spec.lnOf (Spec.reluOf (Spec.layerEmb (V (main_arg0 : DevRef τ sig)) (Spec.w0 (V (main_arg2 : DevRef τ sig))) (Spec.bias0 (V (main_arg3 : DevRef τ sig))) (V (main_v3 : DevRef τ sig)) (V (main_v6 : DevRef τ sig)) (V (main_v31 : DevRef τ sig)))) (Spec.lnRow0 (V (main_arg4 : DevRef τ sig))) (Spec.lnRow0 (V (main_arg5 : DevRef τ sig))) := by
  after_results_simp
  rfl

attribute [local irreducible] Host.scatterAdd Host.gather Host.reduceAdd in
/-- The second layer's pre-activation sum, of the first layer's output. -/
theorem l2_emb (V : Valuation τ sig (Elt Ideal)) :
    after opsL2 V (main_v98 : DevRef τ sig) = Spec.layerEmb (V (main_v76 : DevRef τ sig)) (Spec.w1 (V (main_arg2 : DevRef τ sig))) (Spec.bias1 (V (main_arg3 : DevRef τ sig))) (V (main_v3 : DevRef τ sig)) (V (main_v6 : DevRef τ sig)) (V (main_v31 : DevRef τ sig)) := by
  after_results_simp
  rfl

attribute [local irreducible] Host.scatterAdd Host.gather Host.reduceAdd in
/-- The second layer's output. -/
theorem l2_x (V : Valuation τ sig (Elt Ideal)) :
    after opsL2 V (main_v121 : DevRef τ sig) = Spec.lnOf (Spec.reluOf (Spec.layerEmb (V (main_v76 : DevRef τ sig)) (Spec.w1 (V (main_arg2 : DevRef τ sig))) (Spec.bias1 (V (main_arg3 : DevRef τ sig))) (V (main_v3 : DevRef τ sig)) (V (main_v6 : DevRef τ sig)) (V (main_v31 : DevRef τ sig)))) (Spec.lnRow1 (V (main_arg4 : DevRef τ sig))) (Spec.lnRow1 (V (main_arg5 : DevRef τ sig))) := by
  after_results_simp
  rfl

attribute [local irreducible] Host.scatterAdd Host.gather Host.reduceAdd in
/-- The third layer's pre-activation sum, of the second layer's output: the first result. -/
theorem l3_emb (V : Valuation τ sig (Elt Ideal)) :
    after opsL3 V (main_v143 : DevRef τ sig) = Spec.layerEmb (V (main_v121 : DevRef τ sig)) (Spec.w2 (V (main_arg2 : DevRef τ sig))) (Spec.bias2 (V (main_arg3 : DevRef τ sig))) (V (main_v3 : DevRef τ sig)) (V (main_v6 : DevRef τ sig)) (V (main_v31 : DevRef τ sig)) := by
  after_results_simp
  rfl

attribute [local irreducible] Host.scatterAdd Host.gather Host.reduceAdd in
/-- Its rectification: the second result. -/
theorem l3_x (V : Valuation τ sig (Elt Ideal)) :
    after opsL3 V (main_v144 : DevRef τ sig) = Spec.reluOf (Spec.layerEmb (V (main_v121 : DevRef τ sig)) (Spec.w2 (V (main_arg2 : DevRef τ sig))) (Spec.bias2 (V (main_arg3 : DevRef τ sig))) (V (main_v3 : DevRef τ sig)) (V (main_v6 : DevRef τ sig)) (V (main_v31 : DevRef τ sig))) := by
  after_results_simp
  rfl

/-! ## The whole line, from its four stretches -/

/-- The whole line is its four stretches run in order. -/
theorem after_ops (V : Valuation τ sig (Elt Ideal)) :
    after ops V = after opsL3 (after opsL2 (after opsL1 (after opsPre V))) := by
  simp only [ops, Cert.Lib.after_append]

/-- The first result: the third layer's reading, its inputs read back through the second layer, the first, and the
    first stretch; what a stretch does not write it hands on unchanged. -/
theorem out_emb (V : Valuation τ sig (Elt Ideal)) :
    after ops V (main_v143 : DevRef τ sig) = Spec.emb3 (V (main_arg0 : DevRef τ sig)) (V (main_arg1 : DevRef τ sig)) (V (main_arg2 : DevRef τ sig)) (V (main_arg3 : DevRef τ sig)) (V (main_arg4 : DevRef τ sig)) (V (main_arg5 : DevRef τ sig)) := by
  rw [after_ops, l3_emb]
  rw [l2_x, keepL2_main_arg2, keepL2_main_arg3, keepL2_main_v3, keepL2_main_v6, keepL2_main_v31]
  rw [l1_x, keepL1_main_arg2, keepL1_main_arg3, keepL1_main_arg4, keepL1_main_arg5, keepL1_main_v3, keepL1_main_v6,
    keepL1_main_v31]
  rw [pre_row, pre_col, pre_norm, keepPre_main_arg0, keepPre_main_arg2, keepPre_main_arg3, keepPre_main_arg4,
    keepPre_main_arg5]
  rfl

/-- The second result, the same way. -/
theorem out_x (V : Valuation τ sig (Elt Ideal)) :
    after ops V (main_v144 : DevRef τ sig) = Spec.x3 (V (main_arg0 : DevRef τ sig)) (V (main_arg1 : DevRef τ sig)) (V (main_arg2 : DevRef τ sig)) (V (main_arg3 : DevRef τ sig)) (V (main_arg4 : DevRef τ sig)) (V (main_arg5 : DevRef τ sig)) := by
  rw [after_ops, l3_x]
  rw [l2_x, keepL2_main_arg2, keepL2_main_arg3, keepL2_main_v3, keepL2_main_v6, keepL2_main_v31]
  rw [l1_x, keepL1_main_arg2, keepL1_main_arg3, keepL1_main_arg4, keepL1_main_arg5, keepL1_main_v3, keepL1_main_v6,
    keepL1_main_v31]
  rw [pre_row, pre_col, pre_norm, keepPre_main_arg0, keepPre_main_arg2, keepPre_main_arg3, keepPre_main_arg4,
    keepPre_main_arg5]
  rfl

/-! The line writes none of its arguments. -/

theorem out_arg0 (V : Valuation τ sig (Elt Ideal)) :
    after ops V (main_arg0 : DevRef τ sig) = V (main_arg0 : DevRef τ sig) := by
  rw [after_ops, keepL3_main_arg0, keepL2_main_arg0, keepL1_main_arg0, keepPre_main_arg0]
theorem out_arg1 (V : Valuation τ sig (Elt Ideal)) :
    after ops V (main_arg1 : DevRef τ sig) = V (main_arg1 : DevRef τ sig) := by
  rw [after_ops, keepL3_main_arg1, keepL2_main_arg1, keepL1_main_arg1, keepPre_main_arg1]
theorem out_arg2 (V : Valuation τ sig (Elt Ideal)) :
    after ops V (main_arg2 : DevRef τ sig) = V (main_arg2 : DevRef τ sig) := by
  rw [after_ops, keepL3_main_arg2, keepL2_main_arg2, keepL1_main_arg2, keepPre_main_arg2]
theorem out_arg3 (V : Valuation τ sig (Elt Ideal)) :
    after ops V (main_arg3 : DevRef τ sig) = V (main_arg3 : DevRef τ sig) := by
  rw [after_ops, keepL3_main_arg3, keepL2_main_arg3, keepL1_main_arg3, keepPre_main_arg3]
theorem out_arg4 (V : Valuation τ sig (Elt Ideal)) :
    after ops V (main_arg4 : DevRef τ sig) = V (main_arg4 : DevRef τ sig) := by
  rw [after_ops, keepL3_main_arg4, keepL2_main_arg4, keepL1_main_arg4, keepPre_main_arg4]
theorem out_arg5 (V : Valuation τ sig (Elt Ideal)) :
    after ops V (main_arg5 : DevRef τ sig) = V (main_arg5 : DevRef τ sig) := by
  rw [after_ops, keepL3_main_arg5, keepL2_main_arg5, keepL1_main_arg5, keepPre_main_arg5]

end Cert.ReferenceIdeal.RefRun

end
-- ==== Proof.lean ====
/-
  A three-layer graph convolution with skip connections, computed two ways.

  Both programs take node features x : [N, 64], an edge array, stacked weights, biases and normalisation parameters, and
  return the last layer's pre-activation and its rectification. They share the graph bookkeeping (edge lists with self
  loops, degrees, symmetric edge weights, the gather / scatter message passing) operation for operation. They differ in
  three places, none of which changes a value on the extended reals:
    * the per-node product x · w is computed in row tiles, with both factors rounded to a shorter format first (the
      identity at this instance), against one whole product;
    * the pre-activation is (x + conv) + bias against x + (conv + bias): addition is associative;
    * the normalisation multiplies by rsqrt (var + ε) against dividing by sqrt (var + ε): the two agree wherever
      var + ε > 0, which always holds since a mean of squares is never negative (Proof/RowLaw.lean).
  So the two programs compute the same function `Spec.emb3`, `Spec.x3` of the six argument arrays (Proof/Spec.lean): the tiled
  program through its run's last boundary (Proof/KRun.lean, Proof/KChain.lean), the reference through its run
  (Proof/RefRun.lean, Proof/RefRead.lean). The precondition is never opened.
-/
import proofs.«151697_j9594956939369_2_alg».proof.Defs
import proofs.«151697_j9594956939369_2_alg».proof.Proof.Gen.Kernel
import proofs.«151697_j9594956939369_2_alg».proof.Proof.Gen.Kernel.Frame
import proofs.«151697_j9594956939369_2_alg».proof.Proof.Gen.KernelIdeal
import proofs.«151697_j9594956939369_2_alg».proof.Proof.Gen.KernelIdeal.Frame
import proofs.«151697_j9594956939369_2_alg».proof.Proof.Gen.ReferenceIdeal
import proofs.«151697_j9594956939369_2_alg».proof.Proof.Gen.Pre_finite_inputs
import proofs.«151697_j9594956939369_2_alg».proof.Proof.KRun
import proofs.«151697_j9594956939369_2_alg».proof.Proof.KChain
import proofs.«151697_j9594956939369_2_alg».proof.Proof.RefRead
import Idealize.ShloMosaic.Adequacy
import Idealize.ShloMosaic.Init

set_option maxRecDepth 100000

noncomputable section

namespace Cert.Proof

open Idealize.ShloMosaic Idealize.SL.Sem

/-- The word-level program runs and leaves its arguments alone. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- The reference runs and leaves its arguments alone: its run, with the results dropped. -/
theorem frame_ri : Cert.frame_ReferenceIdeal := fun m ρ _ =>
  (θ_run Cert.ReferenceIdeal.defs _ _).mono (fun r h c =>
      ⟨(h c Cert.ReferenceIdeal.main_arg0).trans (Cert.ReferenceIdeal.RefRun.out_arg0 _),
       (h c Cert.ReferenceIdeal.main_arg1).trans (Cert.ReferenceIdeal.RefRun.out_arg1 _),
       (h c Cert.ReferenceIdeal.main_arg2).trans (Cert.ReferenceIdeal.RefRun.out_arg2 _),
       (h c Cert.ReferenceIdeal.main_arg3).trans (Cert.ReferenceIdeal.RefRun.out_arg3 _),
       (h c Cert.ReferenceIdeal.main_arg4).trans (Cert.ReferenceIdeal.RefRun.out_arg4 _),
       (h c Cert.ReferenceIdeal.main_arg5).trans (Cert.ReferenceIdeal.RefRun.out_arg5 _)⟩)
    (Cert.ReferenceIdeal.RefRun.run_main (F := Ideal) m ρ)

/-- Both programs end with `Spec.emb3` and `Spec.x3` of the (agreeing) argument arrays. -/
theorem algebraic : Cert.algebraic_KernelIdeal_ReferenceIdeal := by
  intro m ρ m' ρ' _ hagree
  refine ⟨fun c => Spec.emb3 (KChain.A0 m c) (KChain.A1 m c) (KChain.A2 m c) (KChain.A3 m c) (KChain.A4 m c) (KChain.A5 m c),
    fun c => Spec.x3 (KChain.A0 m c) (KChain.A1 m c) (KChain.A2 m c) (KChain.A3 m c) (KChain.A4 m c) (KChain.A5 m c), ?_, ?_⟩
  · exact (θ_run Cert.KernelIdeal.defs _ _).mono (fun r h c =>
        ⟨(h c).1.trans (KChain.out_emb m ρ c), (h c).2.1.trans (KChain.out_x m ρ c), (h c).2.2⟩)
      (Cert.KernelIdeal.KRun.run_values (F := Ideal) m ρ)
  · refine (θ_run Cert.ReferenceIdeal.defs _ _).mono (fun r h c => ?_)
      (Cert.ReferenceIdeal.RefRun.run_main (F := Ideal) m' ρ')
    obtain ⟨a0, a1, a2, a3, a4, a5⟩ := hagree c
    refine ⟨(h c Cert.ReferenceIdeal.main_v143).trans ((Cert.ReferenceIdeal.RefRun.out_emb _).trans ?_),
      (h c Cert.ReferenceIdeal.main_v144).trans ((Cert.ReferenceIdeal.RefRun.out_x _).trans ?_),
      (h c Cert.ReferenceIdeal.main_arg0).trans (Cert.ReferenceIdeal.RefRun.out_arg0 _),
      (h c Cert.ReferenceIdeal.main_arg1).trans (Cert.ReferenceIdeal.RefRun.out_arg1 _),
      (h c Cert.ReferenceIdeal.main_arg2).trans (Cert.ReferenceIdeal.RefRun.out_arg2 _),
      (h c Cert.ReferenceIdeal.main_arg3).trans (Cert.ReferenceIdeal.RefRun.out_arg3 _),
      (h c Cert.ReferenceIdeal.main_arg4).trans (Cert.ReferenceIdeal.RefRun.out_arg4 _),
      (h c Cert.ReferenceIdeal.main_arg5).trans (Cert.ReferenceIdeal.RefRun.out_arg5 _)⟩
    · exact congr (congr (congr (congr (congr (congrArg Spec.emb3 a0) a1) a2) a3) a4) a5
    · exact congr (congr (congr (congr (congr (congrArg Spec.x3 a0) a1) a2) a3) a4) a5

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
